-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v113) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000x4 : Shape := ⟨2, ![1200000, 4]⟩
abbrev S_ : Shape := ⟨0, ![]⟩

class Facts : Prop where
  bcast_S_S1200000x4 : S_.BroadcastsInDim S1200000x4 (![] : Fin 0 → Fin S1200000x4.rank)
  reducesTo_S1200000x4_S_d0_1 : S1200000x4.ReducesTo [0, 1] S_
  h_S_ : 0 < S_.numel

variable [Facts]

def fn {F : FTy → Type} [FloatOps F] (main_arg0 : FVec F S1200000x4 .f32) : IVec S_ 1 :=
  let main_v0 : FVec F S1200000x4 .f32 := Host.absf main_arg0
  let main_cst : FVec F S_ .f32 := constant S_ .f32 0x7F800000#32
  let main_v1 : FVec F S1200000x4 .f32 := broadcastInDim S1200000x4 ![] bcast_S_S1200000x4 main_cst
  let main_v2 : IVec S1200000x4 1 := cmpf .olt main_v0 main_v1
  let main_c : IVec S_ 1 := constantI S_ 1 1#1
  let main_v3 : IVec S_ 1 := (fun x v => Host.reduce IntOp.andi x v reducesTo_S1200000x4_S_d0_1 h_S_) main_v2 main_c
  main_v3
-- ==== Kernel.lean ====
abbrev S1200000x4 : Shape := ⟨2, ![1200000, 4]⟩
abbrev S1 : Shape := ⟨1, ![1]⟩
abbrev S1200000x1 : Shape := ⟨2, ![1200000, 1]⟩
abbrev S4000x4 : Shape := ⟨2, ![4000, 4]⟩
abbrev S4000x1 : Shape := ⟨2, ![4000, 1]⟩
abbrev S4000 : Shape := ⟨1, ![4000]⟩
abbrev S1200000 : Shape := ⟨1, ![1200000]⟩
abbrev S_ : Shape := ⟨0, ![]⟩
abbrev S1199999 : Shape := ⟨1, ![1199999]⟩
abbrev S60000x32x4 : Shape := ⟨3, ![60000, 32, 4]⟩
abbrev S1200000x2 : Shape := ⟨2, ![1200000, 2]⟩
abbrev S60000 : Shape := ⟨1, ![60000]⟩
abbrev S60000x3 : Shape := ⟨2, ![60000, 3]⟩
abbrev S1200000x3 : Shape := ⟨2, ![1200000, 3]⟩

abbrev nBuf : Space → Nat
  | .hbm => 245
  | .vmem => 4
  | .smem => 0
  | _ => 0

abbrev hbmTy0_0 (i : Nat) : BufTy := match i % 128 with
  | 0 => ⟨S1200000x4, .f32⟩
  | 1 => ⟨S1, .i1⟩
  | 2 => ⟨S1200000x1, .i32⟩
  | 3 => ⟨S1200000, .i32⟩
  | 4 => ⟨S1200000, .i32⟩
  | 5 => ⟨S1200000, .i32⟩
  | 6 => ⟨S1200000, .i32⟩
  | 7 => ⟨S_, .i32⟩
  | 8 => ⟨S1200000, .i32⟩
  | 9 => ⟨S1200000, .i1⟩
  | 10 => ⟨S_, .i32⟩
  | 11 => ⟨S1200000, .i32⟩
  | 12 => ⟨S1200000, .i32⟩
  | 13 => ⟨S1200000, .i32⟩
  | 14 => ⟨S1200000x1, .i32⟩
  | 15 => ⟨S1200000, .i32⟩
  | 16 => ⟨S_, .i32⟩
  | 17 => ⟨S1200000, .i32⟩
  | 18 => ⟨S1200000, .i1⟩
  | 19 => ⟨S1199999, .i32⟩
  | 20 => ⟨S1199999, .i32⟩
  | 21 => ⟨S1199999, .i1⟩
  | 22 => ⟨S1200000, .i1⟩
  | 23 => ⟨S1200000, .i32⟩
  | 24 => ⟨S_, .i32⟩
  | 25 => ⟨S_, .i32⟩
  | 26 => ⟨S1200000, .i32⟩
  | 27 => ⟨S_, .i32⟩
  | 28 => ⟨S1200000, .i32⟩
  | 29 => ⟨S1200000, .i32⟩
  | 30 => ⟨S1200000, .i32⟩
  | 31 => ⟨S_, .i32⟩
  | 32 => ⟨S_, .i32⟩
  | 33 => ⟨S1200000, .i32⟩
  | 34 => ⟨S1200000, .i32⟩
  | 35 => ⟨S_, .i32⟩
  | 36 => ⟨S_, .i32⟩
  | 37 => ⟨S1200000, .i32⟩
  | 38 => ⟨S1200000, .i32⟩
  | 39 => ⟨S_, .i32⟩
  | 40 => ⟨S1200000, .i32⟩
  | 41 => ⟨S1200000x1, .i32⟩
  | 42 => ⟨S1200000, .i32⟩
  | 43 => ⟨S1200000, .i32⟩
  | 44 => ⟨S_, .i32⟩
  | 45 => ⟨S1200000, .i32⟩
  | 46 => ⟨S1200000x1, .i32⟩
  | 47 => ⟨S1200000, .i32⟩
  | 48 => ⟨S_, .i32⟩
  | 49 => ⟨S1200000, .i32⟩
  | 50 => ⟨S1200000, .i1⟩
  | 51 => ⟨S_, .i32⟩
  | 52 => ⟨S_, .i32⟩
  | 53 => ⟨S1200000, .i32⟩
  | 54 => ⟨S1200000, .i32⟩
  | 55 => ⟨S1200000, .i32⟩
  | 56 => ⟨S1200000, .i32⟩
  | 57 => ⟨S1200000, .i32⟩
  | 58 => ⟨S_, .i32⟩
  | 59 => ⟨S1200000, .i32⟩
  | 60 => ⟨S1200000, .i32⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000, .i32⟩
  | 70 => ⟨S_, .i32⟩
  | 71 => ⟨S1200000, .i32⟩
  | 72 => ⟨S1200000, .i1⟩
  | 73 => ⟨S_, .i32⟩
  | 74 => ⟨S1200000, .i32⟩
  | 75 => ⟨S1200000, .i32⟩
  | 76 => ⟨S1200000, .i32⟩
  | 77 => ⟨S1200000x1, .i32⟩
  | 78 => ⟨S1200000, .i32⟩
  | 79 => ⟨S_, .i32⟩
  | 80 => ⟨S1200000, .i32⟩
  | 81 => ⟨S1200000, .i1⟩
  | 82 => ⟨S1200000, .i1⟩
  | 83 => ⟨S_, .i32⟩
  | 84 => ⟨S1200000, .i32⟩
  | 85 => ⟨S1200000, .i1⟩
  | 86 => ⟨S1200000, .i1⟩
  | 87 => ⟨S_, .i32⟩
  | 88 => ⟨S_, .i32⟩
  | 89 => ⟨S1200000, .i32⟩
  | 90 => ⟨S1200000, .i32⟩
  | 91 => ⟨S_, .f32⟩
  | 92 => ⟨S60000x32x4, .f32⟩
  | 93 => ⟨S_, .i32⟩
  | 94 => ⟨S1200000, .i32⟩
  | 95 => ⟨S1200000, .i32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x4, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000x1, .i32⟩
  | 121 => ⟨S1200000x2, .i32⟩
  | 122 => ⟨S60000x32x4, .f32⟩
  | 123 => ⟨S_, .i32⟩
  | 124 => ⟨S_, .i32⟩
  | 125 => ⟨S1200000, .i32⟩
  | 126 => ⟨S1200000, .i32⟩
  | 127 => ⟨S_, .i32⟩
  | _ => ⟨S1200000x4, .f32⟩

abbrev hbmTy0_1 (i : Nat) : BufTy := match i % 128 with
  | 0 => ⟨S60000, .i32⟩
  | 1 => ⟨S_, .i32⟩
  | 2 => ⟨S1200000, .i32⟩
  | 3 => ⟨S1200000, .i32⟩
  | 4 => ⟨S_, .i32⟩
  | 5 => ⟨S1200000, .i32⟩
  | 6 => ⟨S1200000, .i1⟩
  | 7 => ⟨S_, .i32⟩
  | 8 => ⟨S1200000, .i32⟩
  | 9 => ⟨S1200000, .i32⟩
  | 10 => ⟨S1200000, .i32⟩
  | 11 => ⟨S1200000x1, .i32⟩
  | 12 => ⟨S60000, .i32⟩
  | 13 => ⟨S_, .i32⟩
  | 14 => ⟨S1200000, .i32⟩
  | 15 => ⟨S1200000x1, .i32⟩
  | 16 => ⟨S1200000, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1200000, .i32⟩
  | 24 => ⟨S1200000, .i32⟩
  | 25 => ⟨S_, .i32⟩
  | 26 => ⟨S1200000, .i32⟩
  | 27 => ⟨S1200000, .i1⟩
  | 28 => ⟨S_, .i32⟩
  | 29 => ⟨S1200000, .i32⟩
  | 30 => ⟨S1200000, .i1⟩
  | 31 => ⟨S_, .i32⟩
  | 32 => ⟨S_, .i1⟩
  | 33 => ⟨S1200000, .i1⟩
  | 34 => ⟨S1200000, .i1⟩
  | 35 => ⟨S1200000, .i1⟩
  | 36 => ⟨S1200000, .i32⟩
  | 37 => ⟨S1200000, .i32⟩
  | 38 => ⟨S1200000, .i32⟩
  | 39 => ⟨S_, .i32⟩
  | 40 => ⟨S_, .i32⟩
  | 41 => ⟨S1200000, .i32⟩
  | 42 => ⟨S1200000, .i32⟩
  | 43 => ⟨S1200000, .i32⟩
  | 44 => ⟨S_, .i32⟩
  | 45 => ⟨S1200000, .i32⟩
  | 46 => ⟨S1200000, .i1⟩
  | 47 => ⟨S1200000, .i32⟩
  | 48 => ⟨S1200000, .i32⟩
  | 49 => ⟨S_, .i32⟩
  | 50 => ⟨S1200000, .i32⟩
  | 51 => ⟨S1200000, .i1⟩
  | 52 => ⟨S1200000, .i1⟩
  | 53 => ⟨S_, .i32⟩
  | 54 => ⟨S1200000, .i32⟩
  | 55 => ⟨S1200000, .i32⟩
  | 56 => ⟨S1200000, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1200000, .i32⟩
  | 64 => ⟨S1200000, .i32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i1⟩
  | 71 => ⟨S_, .i32⟩
  | 72 => ⟨S_, .i1⟩
  | 73 => ⟨S1200000, .i1⟩
  | 74 => ⟨S1200000, .i1⟩
  | 75 => ⟨S1200000, .i1⟩
  | 76 => ⟨S1200000, .i32⟩
  | 77 => ⟨S1200000, .i32⟩
  | 78 => ⟨S1200000, .i32⟩
  | 79 => ⟨S_, .i32⟩
  | 80 => ⟨S_, .i32⟩
  | 81 => ⟨S1200000, .i32⟩
  | 82 => ⟨S1200000, .i32⟩
  | 83 => ⟨S1200000, .i32⟩
  | 84 => ⟨S_, .i32⟩
  | 85 => ⟨S1200000, .i32⟩
  | 86 => ⟨S1200000, .i1⟩
  | 87 => ⟨S1200000, .i32⟩
  | 88 => ⟨S1200000, .i32⟩
  | 89 => ⟨S_, .i32⟩
  | 90 => ⟨S1200000, .i32⟩
  | 91 => ⟨S1200000, .i1⟩
  | 92 => ⟨S1200000, .i1⟩
  | 93 => ⟨S_, .i32⟩
  | 94 => ⟨S1200000, .i32⟩
  | 95 => ⟨S1200000, .i32⟩
  | 96 => ⟨S1200000, .i32⟩
  | 97 => ⟨S_, .i32⟩
  | 98 => ⟨S60000x3, .i32⟩
  | 99 => ⟨S1200000x1, .i32⟩
  | 100 => ⟨S1200000x1, .i32⟩
  | 101 => ⟨S1200000x1, .i32⟩
  | 102 => ⟨S1200000x3, .i32⟩
  | 103 => ⟨S_, .i32⟩
  | 104 => ⟨S1200000, .i32⟩
  | 105 => ⟨S1200000, .i1⟩
  | 106 => ⟨S_, .i32⟩
  | 107 => ⟨S1200000, .i32⟩
  | 108 => ⟨S1200000, .i32⟩
  | 109 => ⟨S1200000, .i32⟩
  | 110 => ⟨S1200000x1, .i32⟩
  | 111 => ⟨S60000x3, .i32⟩
  | 112 => ⟨S1200000, .i32⟩
  | 113 => ⟨S_, .i32⟩
  | 114 => ⟨S_, .i32⟩
  | 115 => ⟨S_, .i32⟩
  | 116 => ⟨S_, .i32⟩
  | _ => ⟨S1200000x4, .f32⟩

abbrev hbmTy (i : Nat) : BufTy := match i / 128 with
  | 0 => hbmTy0_0 i
  | 1 => hbmTy0_1 i
  | _ => ⟨S1200000x4, .f32⟩

abbrev bufTy : (tb : Table) → Fin (tcTables nBuf tb) → BufTy
  | .hbm, ⟨i, _⟩ => hbmTy i
  | .local _ .vmem, ⟨0, _⟩ => ⟨S4000x4, .f32⟩
  | .local _ .vmem, ⟨1, _⟩ => ⟨S4000x4, .f32⟩
  | .local _ .vmem, ⟨2, _⟩ => ⟨S4000x1, .i32⟩
  | .local _ .vmem, ⟨3, _⟩ => ⟨S4000x1, .i32⟩
  | _, _ => ⟨S1200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1_0 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_v0 : Ref sig .tc := ⟨.hbm, 23, rfl⟩
abbrev main_call1_call0_c : Ref sig .tc := ⟨.hbm, 24, rfl⟩
abbrev main_call1_call0_v0 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_call2_v0 : Ref sig .tc := ⟨.hbm, 32, rfl⟩
abbrev main_call2_v1 : Ref sig .tc := ⟨.hbm, 33, rfl⟩
abbrev main_v20 : Ref sig .tc := ⟨.hbm, 34, rfl⟩
abbrev main_call3_c : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_call4_v0 : Ref sig .tc := ⟨.hbm, 52, rfl⟩
abbrev main_call4_v1 : Ref sig .tc := ⟨.hbm, 53, rfl⟩
abbrev main_v32 : Ref sig .tc := ⟨.hbm, 54, rfl⟩
abbrev main_call5_v0 : Ref sig .tc := ⟨.hbm, 55, rfl⟩
abbrev main_call5_v1_0 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_16 : Ref sig .tc := ⟨.hbm, 87, rfl⟩
abbrev main_call6_v0 : Ref sig .tc := ⟨.hbm, 88, rfl⟩
abbrev main_call6_v1 : Ref sig .tc := ⟨.hbm, 89, rfl⟩
abbrev main_v56 : Ref sig .tc := ⟨.hbm, 90, rfl⟩
abbrev main_cst : Ref sig .tc := ⟨.hbm, 91, rfl⟩
abbrev main_v57 : Ref sig .tc := ⟨.hbm, 92, rfl⟩
abbrev main_c_17 : Ref sig .tc := ⟨.hbm, 93, rfl⟩
abbrev main_v58 : Ref sig .tc := ⟨.hbm, 94, rfl⟩
abbrev main_v59 : Ref sig .tc := ⟨.hbm, 95, rfl⟩
abbrev main_c_18 : Ref sig .tc := ⟨.hbm, 96, rfl⟩
abbrev main_v60 : Ref sig .tc := ⟨.hbm, 97, rfl⟩
abbrev main_v61 : Ref sig .tc := ⟨.hbm, 98, rfl⟩
abbrev main_c_19 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_c_21 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_22 : Ref sig .tc := ⟨.hbm, 112, rfl⟩
abbrev main_v72 : Ref sig .tc := ⟨.hbm, 113, rfl⟩
abbrev main_v73 : Ref sig .tc := ⟨.hbm, 114, rfl⟩
abbrev main_c_23 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_24 : Ref sig .tc := ⟨.hbm, 123, rfl⟩
abbrev main_call7_v0 : Ref sig .tc := ⟨.hbm, 124, rfl⟩
abbrev main_call7_v1 : Ref sig .tc := ⟨.hbm, 125, rfl⟩
abbrev main_v81 : Ref sig .tc := ⟨.hbm, 126, rfl⟩
abbrev main_c_25 : Ref sig .tc := ⟨.hbm, 127, rfl⟩
abbrev main_v82 : Ref sig .tc := ⟨.hbm, 128, rfl⟩
abbrev main_c_26 : Ref sig .tc := ⟨.hbm, 129, rfl⟩
abbrev main_v83 : Ref sig .tc := ⟨.hbm, 130, rfl⟩
abbrev main_v84 : Ref sig .tc := ⟨.hbm, 131, rfl⟩
abbrev main_c_27 : Ref sig .tc := ⟨.hbm, 132, rfl⟩
abbrev main_v85 : Ref sig .tc := ⟨.hbm, 133, rfl⟩
abbrev main_v86 : Ref sig .tc := ⟨.hbm, 134, rfl⟩
abbrev main_c_28 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_29 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_30 : Ref sig .tc := ⟨.hbm, 145, rfl⟩
abbrev main_call8_v0 : Ref sig .tc := ⟨.hbm, 146, rfl⟩
abbrev main_call8_c : Ref sig .tc := ⟨.hbm, 147, rfl⟩
abbrev main_call8_v1 : Ref sig .tc := ⟨.hbm, 148, rfl⟩
abbrev main_call8_c_0 : Ref sig .tc := ⟨.hbm, 149, rfl⟩
abbrev main_call8_v2 : Ref sig .tc := ⟨.hbm, 150, rfl⟩
abbrev main_call8_v3 : Ref sig .tc := ⟨.hbm, 151, rfl⟩
abbrev main_call8_v4 : Ref sig .tc := ⟨.hbm, 152, rfl⟩
abbrev main_call8_c_1 : Ref sig .tc := ⟨.hbm, 153, rfl⟩
abbrev main_call8_v5 : Ref sig .tc := ⟨.hbm, 154, rfl⟩
abbrev main_call8_v6 : Ref sig .tc := ⟨.hbm, 155, rfl⟩
abbrev main_call8_c_2 : Ref sig .tc := ⟨.hbm, 156, rfl⟩
abbrev main_call8_v7 : Ref sig .tc := ⟨.hbm, 157, rfl⟩
abbrev main_call8_v8 : Ref sig .tc := ⟨.hbm, 158, rfl⟩
abbrev main_call8_c_3 : Ref sig .tc := ⟨.hbm, 159, rfl⟩
abbrev main_call8_v9 : Ref sig .tc := ⟨.hbm, 160, rfl⟩
abbrev main_call8_v10 : Ref sig .tc := ⟨.hbm, 161, rfl⟩
abbrev main_call8_v11 : Ref sig .tc := ⟨.hbm, 162, rfl⟩
abbrev main_call8_v12 : Ref sig .tc := ⟨.hbm, 163, rfl⟩
abbrev main_call8_v13 : Ref sig .tc := ⟨.hbm, 164, rfl⟩
abbrev main_call8_v14 : Ref sig .tc := ⟨.hbm, 165, rfl⟩
abbrev main_v95 : Ref sig .tc := ⟨.hbm, 166, rfl⟩
abbrev main_c_31 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_v6 : Ref sig .tc := ⟨.hbm, 174, rfl⟩
abbrev main_call9_v7 : Ref sig .tc := ⟨.hbm, 175, rfl⟩
abbrev main_call9_v8 : Ref sig .tc := ⟨.hbm, 176, rfl⟩
abbrev main_call9_c : Ref sig .tc := ⟨.hbm, 177, rfl⟩
abbrev main_call9_v9 : Ref sig .tc := ⟨.hbm, 178, rfl⟩
abbrev main_call9_v10 : Ref sig .tc := ⟨.hbm, 179, rfl⟩
abbrev main_call9_v11 : Ref sig .tc := ⟨.hbm, 180, rfl⟩
abbrev main_call9_c_0 : Ref sig .tc := ⟨.hbm, 181, rfl⟩
abbrev main_call9_v12 : Ref sig .tc := ⟨.hbm, 182, rfl⟩
abbrev main_call9_v13 : Ref sig .tc := ⟨.hbm, 183, rfl⟩
abbrev main_v96 : Ref sig .tc := ⟨.hbm, 184, rfl⟩
abbrev main_c_32 : Ref sig .tc := ⟨.hbm, 185, rfl⟩
abbrev main_call10_v0 : Ref sig .tc := ⟨.hbm, 186, rfl⟩
abbrev main_call10_c : Ref sig .tc := ⟨.hbm, 187, rfl⟩
abbrev main_call10_v1 : Ref sig .tc := ⟨.hbm, 188, rfl⟩
abbrev main_call10_c_0 : Ref sig .tc := ⟨.hbm, 189, rfl⟩
abbrev main_call10_v2 : Ref sig .tc := ⟨.hbm, 190, rfl⟩
abbrev main_call10_v3 : Ref sig .tc := ⟨.hbm, 191, rfl⟩
abbrev main_call10_v4 : Ref sig .tc := ⟨.hbm, 192, rfl⟩
abbrev main_call10_c_1 : Ref sig .tc := ⟨.hbm, 193, rfl⟩
abbrev main_call10_v5 : Ref sig .tc := ⟨.hbm, 194, rfl⟩
abbrev main_call10_v6 : Ref sig .tc := ⟨.hbm, 195, rfl⟩
abbrev main_call10_c_2 : Ref sig .tc := ⟨.hbm, 196, rfl⟩
abbrev main_call10_v7 : Ref sig .tc := ⟨.hbm, 197, rfl⟩
abbrev main_call10_v8 : Ref sig .tc := ⟨.hbm, 198, rfl⟩
abbrev main_call10_c_3 : Ref sig .tc := ⟨.hbm, 199, rfl⟩
abbrev main_call10_v9 : Ref sig .tc := ⟨.hbm, 200, rfl⟩
abbrev main_call10_v10 : Ref sig .tc := ⟨.hbm, 201, rfl⟩
abbrev main_call10_v11 : Ref sig .tc := ⟨.hbm, 202, rfl⟩
abbrev main_call10_v12 : Ref sig .tc := ⟨.hbm, 203, rfl⟩
abbrev main_call10_v13 : Ref sig .tc := ⟨.hbm, 204, rfl⟩
abbrev main_call10_v14 : Ref sig .tc := ⟨.hbm, 205, rfl⟩
abbrev main_v97 : Ref sig .tc := ⟨.hbm, 206, rfl⟩
abbrev main_c_33 : Ref sig .tc := ⟨.hbm, 207, rfl⟩
abbrev main_call11_v0 : Ref sig .tc := ⟨.hbm, 208, rfl⟩
abbrev main_call11_v1 : Ref sig .tc := ⟨.hbm, 209, rfl⟩
abbrev main_call11_v2 : Ref sig .tc := ⟨.hbm, 210, rfl⟩
abbrev main_call11_v3 : Ref sig .tc := ⟨.hbm, 211, rfl⟩
abbrev main_call11_v4 : Ref sig .tc := ⟨.hbm, 212, rfl⟩
abbrev main_call11_v5 : Ref sig .tc := ⟨.hbm, 213, rfl⟩
abbrev main_call11_v6 : Ref sig .tc := ⟨.hbm, 214, rfl⟩
abbrev main_call11_v7 : Ref sig .tc := ⟨.hbm, 215, rfl⟩
abbrev main_call11_v8 : Ref sig .tc := ⟨.hbm, 216, rfl⟩
abbrev main_call11_c : Ref sig .tc := ⟨.hbm, 217, rfl⟩
abbrev main_call11_v9 : Ref sig .tc := ⟨.hbm, 218, rfl⟩
abbrev main_call11_v10 : Ref sig .tc := ⟨.hbm, 219, rfl⟩
abbrev main_call11_v11 : Ref sig .tc := ⟨.hbm, 220, rfl⟩
abbrev main_call11_c_0 : Ref sig .tc := ⟨.hbm, 221, rfl⟩
abbrev main_call11_v12 : Ref sig .tc := ⟨.hbm, 222, rfl⟩
abbrev main_call11_v13 : Ref sig .tc := ⟨.hbm, 223, rfl⟩
abbrev main_v98 : Ref sig .tc := ⟨.hbm, 224, rfl⟩
abbrev main_c_34 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_c_35 : Ref sig .tc := ⟨.hbm, 231, rfl⟩
abbrev main_v104 : Ref sig .tc := ⟨.hbm, 232, rfl⟩
abbrev main_v105 : Ref sig .tc := ⟨.hbm, 233, rfl⟩
abbrev main_c_36 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_c_37 : Ref sig .tc := ⟨.hbm, 241, rfl⟩
abbrev main_v112 : Ref sig .tc := ⟨.hbm, 242, rfl⟩
abbrev main_c_38 : Ref sig .tc := ⟨.hbm, 243, rfl⟩
abbrev main_v113 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![300], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4000x4_S4000x4_0_0 : ∀ a, (![0, 0] : Fin 2 → Nat) a + S4000x4.size a ≤ S4000x4.size a
  h_S4000x4 : 0 < S4000x4.numel
  slices_S4000x4_o0_0_S4000x1 : S4000x4.Slices ![0, 0] S4000x1
  shapeCasts_S4000x1_S4000 : S4000x1.ShapeCasts S4000
  slices_S4000x4_o0_1_S4000x1 : S4000x4.Slices ![0, 1] S4000x1
  slices_S4000x4_o0_2_S4000x1 : S4000x4.Slices ![0, 2] S4000x1
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S1200000x1_S1200000 : S1200000x1.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S1200000_S1199999_1 : S1200000.Slices ![1] S1199999
  slices_S1200000_S1199999_0 : S1200000.Slices ![0] S1199999
  concatenates_S1_S1199999_S1200000_d0 : Shape.Concatenates [S1, S1199999] S1200000 0
  natLt_1_32 : 1 < 32
  bcast_S_S_ : S_.BroadcastsInDim S_ (![] : Fin 0 → Fin S_.rank)
  reduceWindows_S1200000_S1200000_w1200000s1p1199999_0 : S1200000.ReduceWindows (![1200000] : Fin 1 → Nat) ![1] ![1199999] ![0] S1200000
  h_S_ : 0 < S_.numel
  bcast_S_S60000x32x4 : S_.BroadcastsInDim S60000x32x4 (![] : Fin 0 → Fin S60000x32x4.rank)
  concatenates_S1200000x1_S1200000x1_S1200000x2_d1 : Shape.Concatenates [S1200000x1, S1200000x1] S1200000x2 1
  bcast_S_S60000 : S_.BroadcastsInDim S60000 (![] : Fin 0 → Fin S60000.rank)
  bcast_S_S60000x3 : S_.BroadcastsInDim S60000x3 (![] : Fin 0 → Fin S60000x3.rank)
  concatenates_S1200000x1_S1200000x1_S1200000x1_S1200000x3_d1 : Shape.Concatenates [S1200000x1, S1200000x1, S1200000x1] S1200000x3 1
  reducesTo_S1200000_S_d0 : S1200000.ReducesTo [0] S_
  gather_S1200000_S1200000x1_S1200000_n_0_n_n_0_1_1_wf : GatherDims.WF S1200000 S1200000x1 S1200000 [] [0] [] [0] [] 1 ![1]
  scatter_S1200000_S1200000x1_S1200000_n_0_0_1_wf : ScatterDims.WF S1200000 S1200000x1 S1200000 [] [0] [0] 1
  gather_S1200000x4_S1200000x1_S1200000x4_1_0_n_n_0_1_14_wf : GatherDims.WF S1200000x4 S1200000x1 S1200000x4 [1] [0] [] [0] [] 1 ![1, 4]
  scatter_S60000x32x4_S1200000x2_S1200000x4_1_01_01_1_wf : ScatterDims.WF S60000x32x4 S1200000x2 S1200000x4 [1] [0, 1] [0, 1] 1
  scatter_S60000_S1200000x1_S1200000_n_0_0_1_wf : ScatterDims.WF S60000 S1200000x1 S1200000 [] [0] [0] 1
  scatter_S60000x3_S1200000x1_S1200000x3_1_0_0_1_wf : ScatterDims.WF S60000x3 S1200000x1 S1200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S1200000x4.size a
  hwx0_0 : ∀ i : grid0.Coords, EltTy.bits .f32 = 32 ∨ (Rect.block (s := S1200000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1200000x1.size a
  hwx0_1 : ∀ i : grid0.Coords, EltTy.bits .i32 = 32 ∨ (Rect.block (s := S1200000x1) S4000x1.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S1200000_S1200000x1_S1200000_n_0_n_n_0_1_1 : GatherDims S1200000 S1200000x1 S1200000 where
  offsetDims := []
  collapsedSliceDims := [0]
  operandBatchingDims := []
  startIndicesBatchingDims := []
  startIndexMap := [0]
  indexVectorDim := 1
  sliceSizes := ![1]
  wf := gather_S1200000_S1200000x1_S1200000_n_0_n_n_0_1_1_wf
def scatter_S1200000_S1200000x1_S1200000_n_0_0_1 : ScatterDims S1200000 S1200000x1 S1200000 where
  updateWindowDims := []
  insertedWindowDims := [0]
  scatterDimsToOperandDims := [0]
  indexVectorDim := 1
  wf := scatter_S1200000_S1200000x1_S1200000_n_0_0_1_wf
def gather_S1200000x4_S1200000x1_S1200000x4_1_0_n_n_0_1_14 : GatherDims S1200000x4 S1200000x1 S1200000x4 where
  offsetDims := [1]
  collapsedSliceDims := [0]
  operandBatchingDims := []
  startIndicesBatchingDims := []
  startIndexMap := [0]
  indexVectorDim := 1
  sliceSizes := ![1, 4]
  wf := gather_S1200000x4_S1200000x1_S1200000x4_1_0_n_n_0_1_14_wf
def scatter_S60000x32x4_S1200000x2_S1200000x4_1_01_01_1 : ScatterDims S60000x32x4 S1200000x2 S1200000x4 where
  updateWindowDims := [1]
  insertedWindowDims := [0, 1]
  scatterDimsToOperandDims := [0, 1]
  indexVectorDim := 1
  wf := scatter_S60000x32x4_S1200000x2_S1200000x4_1_01_01_1_wf
def scatter_S60000_S1200000x1_S1200000_n_0_0_1 : ScatterDims S60000 S1200000x1 S1200000 where
  updateWindowDims := []
  insertedWindowDims := [0]
  scatterDimsToOperandDims := [0]
  indexVectorDim := 1
  wf := scatter_S60000_S1200000x1_S1200000_n_0_0_1_wf
def scatter_S60000x3_S1200000x1_S1200000x3_1_0_0_1 : ScatterDims S60000x3 S1200000x1 S1200000x3 where
  updateWindowDims := [1]
  insertedWindowDims := [0]
  scatterDimsToOperandDims := [0]
  indexVectorDim := 1
  wf := scatter_S60000x3_S1200000x1_S1200000x3_1_0_0_1_wf

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1200000x4 : Shape := ⟨2, ![1200000, 4]⟩
abbrev S3 : Shape := ⟨1, ![3]⟩
abbrev S1 : Shape := ⟨1, ![1]⟩
abbrev S1200000x3 : Shape := ⟨2, ![1200000, 3]⟩
abbrev S1x3 : Shape := ⟨2, ![1, 3]⟩
abbrev S_ : Shape := ⟨0, ![]⟩
abbrev S1200000 : Shape := ⟨1, ![1200000]⟩
abbrev S1200000x1 : Shape := ⟨2, ![1200000, 1]⟩
abbrev S1199999 : Shape := ⟨1, ![1199999]⟩
abbrev S60000x32x4 : Shape := ⟨3, ![60000, 32, 4]⟩
abbrev S1200000x2 : Shape := ⟨2, ![1200000, 2]⟩
abbrev S60000 : Shape := ⟨1, ![60000]⟩
abbrev S60000x3 : Shape := ⟨2, ![60000, 3]⟩

abbrev nBuf : Space → Nat
  | .hbm => 288
  | .vmem => 0
  | .smem => 0
  | _ => 0

abbrev hbmTy0_0 (i : Nat) : BufTy := match i % 128 with
  | 0 => ⟨S1200000x4, .f32⟩
  | 1 => ⟨S3, .f32⟩
  | 2 => ⟨S3, .f32⟩
  | 3 => ⟨S3, .i32⟩
  | 4 => ⟨S1, .i1⟩
  | 5 => ⟨S1200000x3, .f32⟩
  | 6 => ⟨S1x3, .f32⟩
  | 7 => ⟨S1200000x3, .f32⟩
  | 8 => ⟨S1200000x3, .f32⟩
  | 9 => ⟨S1x3, .f32⟩
  | 10 => ⟨S1200000x3, .f32⟩
  | 11 => ⟨S1200000x3, .f32⟩
  | 12 => ⟨S1200000x3, .f32⟩
  | 13 => ⟨S1200000x3, .i32⟩
  | 14 => ⟨S_, .i32⟩
  | 15 => ⟨S1200000x3, .i32⟩
  | 16 => ⟨S1200000x3, .i1⟩
  | 17 => ⟨S1x3, .i32⟩
  | 18 => ⟨S1200000x3, .i32⟩
  | 19 => ⟨S1200000x3, .i1⟩
  | 20 => ⟨S1200000x3, .i1⟩
  | 21 => ⟨S_, .i1⟩
  | 22 => ⟨S1200000, .i1⟩
  | 23 => ⟨S1200000x1, .i32⟩
  | 24 => ⟨S1200000, .i32⟩
  | 25 => ⟨S_, .i32⟩
  | 26 => ⟨S1200000, .i32⟩
  | 27 => ⟨S1200000, .i32⟩
  | 28 => ⟨S1200000x1, .i32⟩
  | 29 => ⟨S1200000, .i32⟩
  | 30 => ⟨S1200000, .i32⟩
  | 31 => ⟨S_, .i32⟩
  | 32 => ⟨S1200000, .i32⟩
  | 33 => ⟨S1200000, .i32⟩
  | 34 => ⟨S1200000x1, .i32⟩
  | 35 => ⟨S1200000, .i32⟩
  | 36 => ⟨S1200000, .i32⟩
  | 37 => ⟨S_, .i32⟩
  | 38 => ⟨S_, .i32⟩
  | 39 => ⟨S1200000, .i32⟩
  | 40 => ⟨S1200000, .i32⟩
  | 41 => ⟨S1200000, .i32⟩
  | 42 => ⟨S1200000, .i32⟩
  | 43 => ⟨S1200000, .i32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000, .i32⟩
  | 53 => ⟨S_, .i32⟩
  | 54 => ⟨S1200000, .i32⟩
  | 55 => ⟨S1200000, .i1⟩
  | 56 => ⟨S_, .i32⟩
  | 57 => ⟨S1200000, .i32⟩
  | 58 => ⟨S1200000, .i32⟩
  | 59 => ⟨S1200000, .i32⟩
  | 60 => ⟨S1200000x1, .i32⟩
  | 61 => ⟨S1200000, .i1⟩
  | 62 => ⟨S1199999, .i32⟩
  | 63 => ⟨S1199999, .i32⟩
  | 64 => ⟨S1199999, .i1⟩
  | 65 => ⟨S1200000, .i1⟩
  | 66 => ⟨S1200000, .i32⟩
  | 67 => ⟨S_, .i32⟩
  | 68 => ⟨S_, .i32⟩
  | 69 => ⟨S1200000, .i32⟩
  | 70 => ⟨S_, .i32⟩
  | 71 => ⟨S1200000, .i32⟩
  | 72 => ⟨S1200000, .i32⟩
  | 73 => ⟨S1200000, .i32⟩
  | 74 => ⟨S_, .i32⟩
  | 75 => ⟨S_, .i32⟩
  | 76 => ⟨S1200000, .i32⟩
  | 77 => ⟨S1200000, .i32⟩
  | 78 => ⟨S_, .i32⟩
  | 79 => ⟨S_, .i32⟩
  | 80 => ⟨S1200000, .i32⟩
  | 81 => ⟨S1200000, .i32⟩
  | 82 => ⟨S_, .i32⟩
  | 83 => ⟨S1200000, .i32⟩
  | 84 => ⟨S1200000x1, .i32⟩
  | 85 => ⟨S1200000, .i32⟩
  | 86 => ⟨S1200000, .i32⟩
  | 87 => ⟨S_, .i32⟩
  | 88 => ⟨S1200000, .i32⟩
  | 89 => ⟨S1200000x1, .i32⟩
  | 90 => ⟨S1200000, .i32⟩
  | 91 => ⟨S_, .i32⟩
  | 92 => ⟨S1200000, .i32⟩
  | 93 => ⟨S1200000, .i1⟩
  | 94 => ⟨S_, .i32⟩
  | 95 => ⟨S_, .i32⟩
  | 96 => ⟨S1200000, .i32⟩
  | 97 => ⟨S1200000, .i32⟩
  | 98 => ⟨S1200000, .i32⟩
  | 99 => ⟨S1200000, .i32⟩
  | 100 => ⟨S1200000, .i32⟩
  | 101 => ⟨S_, .i32⟩
  | 102 => ⟨S1200000, .i32⟩
  | 103 => ⟨S1200000, .i32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000, .i32⟩
  | 113 => ⟨S_, .i32⟩
  | 114 => ⟨S1200000, .i32⟩
  | 115 => ⟨S1200000, .i1⟩
  | 116 => ⟨S_, .i32⟩
  | 117 => ⟨S1200000, .i32⟩
  | 118 => ⟨S1200000, .i32⟩
  | 119 => ⟨S1200000, .i32⟩
  | 120 => ⟨S1200000x1, .i32⟩
  | 121 => ⟨S1200000, .i32⟩
  | 122 => ⟨S_, .i32⟩
  | 123 => ⟨S1200000, .i32⟩
  | 124 => ⟨S1200000, .i1⟩
  | 125 => ⟨S1200000, .i1⟩
  | 126 => ⟨S_, .i32⟩
  | 127 => ⟨S1200000, .i32⟩
  | _ => ⟨S1200000x4, .f32⟩

abbrev hbmTy0_1 (i : Nat) : BufTy := match i % 128 with
  | 0 => ⟨S1200000, .i1⟩
  | 1 => ⟨S1200000, .i1⟩
  | 2 => ⟨S_, .i32⟩
  | 3 => ⟨S_, .i32⟩
  | 4 => ⟨S1200000, .i32⟩
  | 5 => ⟨S1200000, .i32⟩
  | 6 => ⟨S_, .f32⟩
  | 7 => ⟨S60000x32x4, .f32⟩
  | 8 => ⟨S_, .i32⟩
  | 9 => ⟨S1200000, .i32⟩
  | 10 => ⟨S1200000, .i32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x4, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x1, .i32⟩
  | 36 => ⟨S1200000x2, .i32⟩
  | 37 => ⟨S60000x32x4, .f32⟩
  | 38 => ⟨S_, .i32⟩
  | 39 => ⟨S_, .i32⟩
  | 40 => ⟨S1200000, .i32⟩
  | 41 => ⟨S1200000, .i32⟩
  | 42 => ⟨S_, .i32⟩
  | 43 => ⟨S60000, .i32⟩
  | 44 => ⟨S_, .i32⟩
  | 45 => ⟨S1200000, .i32⟩
  | 46 => ⟨S1200000, .i32⟩
  | 47 => ⟨S_, .i32⟩
  | 48 => ⟨S1200000, .i32⟩
  | 49 => ⟨S1200000, .i1⟩
  | 50 => ⟨S_, .i32⟩
  | 51 => ⟨S1200000, .i32⟩
  | 52 => ⟨S1200000, .i32⟩
  | 53 => ⟨S1200000, .i32⟩
  | 54 => ⟨S1200000x1, .i32⟩
  | 55 => ⟨S60000, .i32⟩
  | 56 => ⟨S_, .i32⟩
  | 57 => ⟨S1200000, .i32⟩
  | 58 => ⟨S1200000x1, .i32⟩
  | 59 => ⟨S1200000, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1200000, .i32⟩
  | 67 => ⟨S1200000, .i32⟩
  | 68 => ⟨S_, .i32⟩
  | 69 => ⟨S1200000, .i32⟩
  | 70 => ⟨S1200000, .i1⟩
  | 71 => ⟨S_, .i32⟩
  | 72 => ⟨S1200000, .i32⟩
  | 73 => ⟨S1200000, .i1⟩
  | 74 => ⟨S_, .i32⟩
  | 75 => ⟨S_, .i1⟩
  | 76 => ⟨S1200000, .i1⟩
  | 77 => ⟨S1200000, .i1⟩
  | 78 => ⟨S1200000, .i1⟩
  | 79 => ⟨S1200000, .i32⟩
  | 80 => ⟨S1200000, .i32⟩
  | 81 => ⟨S1200000, .i32⟩
  | 82 => ⟨S_, .i32⟩
  | 83 => ⟨S_, .i32⟩
  | 84 => ⟨S1200000, .i32⟩
  | 85 => ⟨S1200000, .i32⟩
  | 86 => ⟨S1200000, .i32⟩
  | 87 => ⟨S_, .i32⟩
  | 88 => ⟨S1200000, .i32⟩
  | 89 => ⟨S1200000, .i1⟩
  | 90 => ⟨S1200000, .i32⟩
  | 91 => ⟨S1200000, .i32⟩
  | 92 => ⟨S_, .i32⟩
  | 93 => ⟨S1200000, .i32⟩
  | 94 => ⟨S1200000, .i1⟩
  | 95 => ⟨S1200000, .i1⟩
  | 96 => ⟨S_, .i32⟩
  | 97 => ⟨S1200000, .i32⟩
  | 98 => ⟨S1200000, .i32⟩
  | 99 => ⟨S1200000, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S1200000, .i32⟩
  | 107 => ⟨S1200000, .i32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i1⟩
  | 114 => ⟨S_, .i32⟩
  | 115 => ⟨S_, .i1⟩
  | 116 => ⟨S1200000, .i1⟩
  | 117 => ⟨S1200000, .i1⟩
  | 118 => ⟨S1200000, .i1⟩
  | 119 => ⟨S1200000, .i32⟩
  | 120 => ⟨S1200000, .i32⟩
  | 121 => ⟨S1200000, .i32⟩
  | 122 => ⟨S_, .i32⟩
  | 123 => ⟨S_, .i32⟩
  | 124 => ⟨S1200000, .i32⟩
  | 125 => ⟨S1200000, .i32⟩
  | 126 => ⟨S1200000, .i32⟩
  | 127 => ⟨S_, .i32⟩
  | _ => ⟨S1200000x4, .f32⟩

abbrev hbmTy0_2 (i : Nat) : BufTy := match i % 128 with
  | 0 => ⟨S1200000, .i32⟩
  | 1 => ⟨S1200000, .i1⟩
  | 2 => ⟨S1200000, .i32⟩
  | 3 => ⟨S1200000, .i32⟩
  | 4 => ⟨S_, .i32⟩
  | 5 => ⟨S1200000, .i32⟩
  | 6 => ⟨S1200000, .i1⟩
  | 7 => ⟨S1200000, .i1⟩
  | 8 => ⟨S_, .i32⟩
  | 9 => ⟨S1200000, .i32⟩
  | 10 => ⟨S1200000, .i32⟩
  | 11 => ⟨S1200000, .i32⟩
  | 12 => ⟨S_, .i32⟩
  | 13 => ⟨S60000x3, .i32⟩
  | 14 => ⟨S1200000x1, .i32⟩
  | 15 => ⟨S1200000x1, .i32⟩
  | 16 => ⟨S1200000x1, .i32⟩
  | 17 => ⟨S1200000x3, .i32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S60000x3, .i32⟩
  | 27 => ⟨S1200000, .i32⟩
  | 28 => ⟨S_, .i32⟩
  | 29 => ⟨S_, .i32⟩
  | 30 => ⟨S_, .i32⟩
  | 31 => ⟨S_, .i32⟩
  | _ => ⟨S1200000x4, .f32⟩

abbrev hbmTy (i : Nat) : BufTy := match i / 128 with
  | 0 => hbmTy0_0 i
  | 1 => hbmTy0_1 i
  | 2 => hbmTy0_2 i
  | _ => ⟨S1200000x4, .f32⟩

abbrev bufTy : (tb : Table) → Fin (tcTables nBuf tb) → BufTy
  | .hbm, ⟨i, _⟩ => hbmTy i
  | _, _ => ⟨S1200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_call1_v0 : Ref sig .tc := ⟨.hbm, 41, rfl⟩
abbrev main_call1_v1_0 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call2_v0 : Ref sig .tc := ⟨.hbm, 66, rfl⟩
abbrev main_call2_call0_c : Ref sig .tc := ⟨.hbm, 67, rfl⟩
abbrev main_call2_call0_v0 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_call3_v0 : Ref sig .tc := ⟨.hbm, 75, rfl⟩
abbrev main_call3_v1 : Ref sig .tc := ⟨.hbm, 76, rfl⟩
abbrev main_v52 : Ref sig .tc := ⟨.hbm, 77, rfl⟩
abbrev main_call4_c : Ref sig .tc := ⟨.hbm, 78, rfl⟩
abbrev main_call4_v0 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_call5_v0 : Ref sig .tc := ⟨.hbm, 95, rfl⟩
abbrev main_call5_v1 : Ref sig .tc := ⟨.hbm, 96, rfl⟩
abbrev main_v64 : Ref sig .tc := ⟨.hbm, 97, rfl⟩
abbrev main_call6_v0 : Ref sig .tc := ⟨.hbm, 98, rfl⟩
abbrev main_call6_v1_0 : Ref sig .tc := ⟨.hbm, 99, rfl⟩
abbrev main_v65 : Ref sig .tc := ⟨.hbm, 100, rfl⟩
abbrev main_c_17 : Ref sig .tc := ⟨.hbm, 101, rfl⟩
abbrev main_v66 : Ref sig .tc := ⟨.hbm, 102, rfl⟩
abbrev main_v67 : Ref sig .tc := ⟨.hbm, 103, rfl⟩
abbrev main_c_18 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_20 : Ref sig .tc := ⟨.hbm, 113, rfl⟩
abbrev main_v75 : Ref sig .tc := ⟨.hbm, 114, rfl⟩
abbrev main_v76 : Ref sig .tc := ⟨.hbm, 115, rfl⟩
abbrev main_c_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_22 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_23 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_24 : Ref sig .tc := ⟨.hbm, 130, rfl⟩
abbrev main_call7_v0 : Ref sig .tc := ⟨.hbm, 131, rfl⟩
abbrev main_call7_v1 : Ref sig .tc := ⟨.hbm, 132, rfl⟩
abbrev main_v88 : Ref sig .tc := ⟨.hbm, 133, rfl⟩
abbrev main_cst_25 : Ref sig .tc := ⟨.hbm, 134, rfl⟩
abbrev main_v89 : Ref sig .tc := ⟨.hbm, 135, rfl⟩
abbrev main_c_26 : Ref sig .tc := ⟨.hbm, 136, rfl⟩
abbrev main_v90 : Ref sig .tc := ⟨.hbm, 137, rfl⟩
abbrev main_v91 : Ref sig .tc := ⟨.hbm, 138, rfl⟩
abbrev main_c_27 : Ref sig .tc := ⟨.hbm, 139, rfl⟩
abbrev main_v92 : Ref sig .tc := ⟨.hbm, 140, rfl⟩
abbrev main_v93 : Ref sig .tc := ⟨.hbm, 141, rfl⟩
abbrev main_c_28 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c_29 : Ref sig .tc := ⟨.hbm, 148, rfl⟩
abbrev main_v99 : Ref sig .tc := ⟨.hbm, 149, rfl⟩
abbrev main_v100 : Ref sig .tc := ⟨.hbm, 150, rfl⟩
abbrev main_c_30 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_31 : Ref sig .tc := ⟨.hbm, 155, rfl⟩
abbrev main_v104 : Ref sig .tc := ⟨.hbm, 156, rfl⟩
abbrev main_v105 : Ref sig .tc := ⟨.hbm, 157, rfl⟩
abbrev main_c_32 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_33 : Ref sig .tc := ⟨.hbm, 166, rfl⟩
abbrev main_call8_v0 : Ref sig .tc := ⟨.hbm, 167, rfl⟩
abbrev main_call8_v1 : Ref sig .tc := ⟨.hbm, 168, rfl⟩
abbrev main_v113 : Ref sig .tc := ⟨.hbm, 169, rfl⟩
abbrev main_c_34 : Ref sig .tc := ⟨.hbm, 170, rfl⟩
abbrev main_v114 : Ref sig .tc := ⟨.hbm, 171, rfl⟩
abbrev main_c_35 : Ref sig .tc := ⟨.hbm, 172, rfl⟩
abbrev main_v115 : Ref sig .tc := ⟨.hbm, 173, rfl⟩
abbrev main_v116 : Ref sig .tc := ⟨.hbm, 174, rfl⟩
abbrev main_c_36 : Ref sig .tc := ⟨.hbm, 175, rfl⟩
abbrev main_v117 : Ref sig .tc := ⟨.hbm, 176, rfl⟩
abbrev main_v118 : Ref sig .tc := ⟨.hbm, 177, rfl⟩
abbrev main_c_37 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_38 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_c_39 : Ref sig .tc := ⟨.hbm, 188, rfl⟩
abbrev main_call9_v0 : Ref sig .tc := ⟨.hbm, 189, rfl⟩
abbrev main_call9_c : Ref sig .tc := ⟨.hbm, 190, rfl⟩
abbrev main_call9_v1 : Ref sig .tc := ⟨.hbm, 191, rfl⟩
abbrev main_call9_c_0 : Ref sig .tc := ⟨.hbm, 192, rfl⟩
abbrev main_call9_v2 : Ref sig .tc := ⟨.hbm, 193, rfl⟩
abbrev main_call9_v3 : Ref sig .tc := ⟨.hbm, 194, rfl⟩
abbrev main_call9_v4 : Ref sig .tc := ⟨.hbm, 195, rfl⟩
abbrev main_call9_c_1 : Ref sig .tc := ⟨.hbm, 196, rfl⟩
abbrev main_call9_v5 : Ref sig .tc := ⟨.hbm, 197, rfl⟩
abbrev main_call9_v6 : Ref sig .tc := ⟨.hbm, 198, rfl⟩
abbrev main_call9_c_2 : Ref sig .tc := ⟨.hbm, 199, rfl⟩
abbrev main_call9_v7 : Ref sig .tc := ⟨.hbm, 200, rfl⟩
abbrev main_call9_v8 : Ref sig .tc := ⟨.hbm, 201, rfl⟩
abbrev main_call9_c_3 : Ref sig .tc := ⟨.hbm, 202, rfl⟩
abbrev main_call9_v9 : Ref sig .tc := ⟨.hbm, 203, rfl⟩
abbrev main_call9_v10 : Ref sig .tc := ⟨.hbm, 204, rfl⟩
abbrev main_call9_v11 : Ref sig .tc := ⟨.hbm, 205, rfl⟩
abbrev main_call9_v12 : Ref sig .tc := ⟨.hbm, 206, rfl⟩
abbrev main_call9_v13 : Ref sig .tc := ⟨.hbm, 207, rfl⟩
abbrev main_call9_v14 : Ref sig .tc := ⟨.hbm, 208, rfl⟩
abbrev main_v127 : Ref sig .tc := ⟨.hbm, 209, rfl⟩
abbrev main_c_40 : Ref sig .tc := ⟨.hbm, 210, rfl⟩
abbrev main_call10_v0 : Ref sig .tc := ⟨.hbm, 211, rfl⟩
abbrev main_call10_v1 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_v5 : Ref sig .tc := ⟨.hbm, 216, rfl⟩
abbrev main_call10_v6 : Ref sig .tc := ⟨.hbm, 217, rfl⟩
abbrev main_call10_v7 : Ref sig .tc := ⟨.hbm, 218, rfl⟩
abbrev main_call10_v8 : Ref sig .tc := ⟨.hbm, 219, rfl⟩
abbrev main_call10_c : Ref sig .tc := ⟨.hbm, 220, rfl⟩
abbrev main_call10_v9 : Ref sig .tc := ⟨.hbm, 221, rfl⟩
abbrev main_call10_v10 : Ref sig .tc := ⟨.hbm, 222, rfl⟩
abbrev main_call10_v11 : Ref sig .tc := ⟨.hbm, 223, rfl⟩
abbrev main_call10_c_0 : Ref sig .tc := ⟨.hbm, 224, rfl⟩
abbrev main_call10_v12 : Ref sig .tc := ⟨.hbm, 225, rfl⟩
abbrev main_call10_v13 : Ref sig .tc := ⟨.hbm, 226, rfl⟩
abbrev main_v128 : Ref sig .tc := ⟨.hbm, 227, rfl⟩
abbrev main_c_41 : Ref sig .tc := ⟨.hbm, 228, rfl⟩
abbrev main_call11_v0 : Ref sig .tc := ⟨.hbm, 229, rfl⟩
abbrev main_call11_c : Ref sig .tc := ⟨.hbm, 230, rfl⟩
abbrev main_call11_v1 : Ref sig .tc := ⟨.hbm, 231, rfl⟩
abbrev main_call11_c_0 : Ref sig .tc := ⟨.hbm, 232, rfl⟩
abbrev main_call11_v2 : Ref sig .tc := ⟨.hbm, 233, rfl⟩
abbrev main_call11_v3 : Ref sig .tc := ⟨.hbm, 234, rfl⟩
abbrev main_call11_v4 : Ref sig .tc := ⟨.hbm, 235, rfl⟩
abbrev main_call11_c_1 : Ref sig .tc := ⟨.hbm, 236, rfl⟩
abbrev main_call11_v5 : Ref sig .tc := ⟨.hbm, 237, rfl⟩
abbrev main_call11_v6 : Ref sig .tc := ⟨.hbm, 238, rfl⟩
abbrev main_call11_c_2 : Ref sig .tc := ⟨.hbm, 239, rfl⟩
abbrev main_call11_v7 : Ref sig .tc := ⟨.hbm, 240, rfl⟩
abbrev main_call11_v8 : Ref sig .tc := ⟨.hbm, 241, rfl⟩
abbrev main_call11_c_3 : Ref sig .tc := ⟨.hbm, 242, rfl⟩
abbrev main_call11_v9 : Ref sig .tc := ⟨.hbm, 243, rfl⟩
abbrev main_call11_v10 : Ref sig .tc := ⟨.hbm, 244, rfl⟩
abbrev main_call11_v11 : Ref sig .tc := ⟨.hbm, 245, rfl⟩
abbrev main_call11_v12 : Ref sig .tc := ⟨.hbm, 246, rfl⟩
abbrev main_call11_v13 : Ref sig .tc := ⟨.hbm, 247, rfl⟩
abbrev main_call11_v14 : Ref sig .tc := ⟨.hbm, 248, rfl⟩
abbrev main_v129 : Ref sig .tc := ⟨.hbm, 249, rfl⟩
abbrev main_c_42 : Ref sig .tc := ⟨.hbm, 250, rfl⟩
abbrev main_call12_v0 : Ref sig .tc := ⟨.hbm, 251, rfl⟩
abbrev main_call12_v1 : Ref sig .tc := ⟨.hbm, 252, rfl⟩
abbrev main_call12_v2 : Ref sig .tc := ⟨.hbm, 253, rfl⟩
abbrev main_call12_v3 : Ref sig .tc := ⟨.hbm, 254, rfl⟩
abbrev main_call12_v4 : Ref sig .tc := ⟨.hbm, 255, rfl⟩
abbrev main_call12_v5 : Ref sig .tc := ⟨.hbm, 256, rfl⟩
abbrev main_call12_v6 : Ref sig .tc := ⟨.hbm, 257, rfl⟩
abbrev main_call12_v7 : Ref sig .tc := ⟨.hbm, 258, rfl⟩
abbrev main_call12_v8 : Ref sig .tc := ⟨.hbm, 259, rfl⟩
abbrev main_call12_c : Ref sig .tc := ⟨.hbm, 260, rfl⟩
abbrev main_call12_v9 : Ref sig .tc := ⟨.hbm, 261, rfl⟩
abbrev main_call12_v10 : Ref sig .tc := ⟨.hbm, 262, rfl⟩
abbrev main_call12_v11 : Ref sig .tc := ⟨.hbm, 263, rfl⟩
abbrev main_call12_c_0 : Ref sig .tc := ⟨.hbm, 264, rfl⟩
abbrev main_call12_v12 : Ref sig .tc := ⟨.hbm, 265, rfl⟩
abbrev main_call12_v13 : Ref sig .tc := ⟨.hbm, 266, rfl⟩
abbrev main_v130 : Ref sig .tc := ⟨.hbm, 267, rfl⟩
abbrev main_c_43 : Ref sig .tc := ⟨.hbm, 268, rfl⟩
abbrev main_v131 : Ref sig .tc := ⟨.hbm, 269, rfl⟩
abbrev main_v132 : Ref sig .tc := ⟨.hbm, 270, rfl⟩
abbrev main_v133 : Ref sig .tc := ⟨.hbm, 271, rfl⟩
abbrev main_v134 : Ref sig .tc := ⟨.hbm, 272, rfl⟩
abbrev main_v135 : Ref sig .tc := ⟨.hbm, 273, rfl⟩
abbrev main_c_44 : Ref sig .tc := ⟨.hbm, 274, rfl⟩
abbrev main_v136 : Ref sig .tc := ⟨.hbm, 275, rfl⟩
abbrev main_v137 : Ref sig .tc := ⟨.hbm, 276, rfl⟩
abbrev main_c_45 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_c_46 : Ref sig .tc := ⟨.hbm, 284, rfl⟩
abbrev main_v144 : Ref sig .tc := ⟨.hbm, 285, rfl⟩
abbrev main_c_47 : Ref sig .tc := ⟨.hbm, 286, rfl⟩
abbrev main_v145 : Ref sig .tc := ⟨.hbm, 287, rfl⟩

abbrev nD : Nat := 1
abbrev τ : Topo := Topo.v7x

variable {F : FTy → Type} [FloatOps F]

class Facts₀ : Prop where
  slices_S1200000x4_S1200000x3_0_0 : S1200000x4.Slices ![0, 0] S1200000x3
  bcast_S3_S1x3_1 : S3.BroadcastsInDim S1x3 (![1] : Fin 1 → Fin S1x3.rank)
  bcast_S1x3_S1200000x3_0_1 : S1x3.BroadcastsInDim S1200000x3 (![0, 1] : Fin 2 → Fin S1200000x3.rank)
  bcast_S_S1200000x3 : S_.BroadcastsInDim S1200000x3 (![] : Fin 0 → Fin S1200000x3.rank)
  reducesTo_S1200000x3_S1200000_d1 : S1200000x3.ReducesTo [1] S1200000
  h_S_ : 0 < S_.numel
  slices_S1200000x3_S1200000x1_0_0 : S1200000x3.Slices ![0, 0] S1200000x1
  shapeCasts_S1200000x1_S1200000 : S1200000x1.ShapeCasts S1200000
  bcast_S_S1200000 : S_.BroadcastsInDim S1200000 (![] : Fin 0 → Fin S1200000.rank)
  slices_S1200000x3_S1200000x1_0_1 : S1200000x3.Slices ![0, 1] S1200000x1
  slices_S1200000x3_S1200000x1_0_2 : S1200000x3.Slices ![0, 2] S1200000x1
  bcast_S1200000_S1200000x1_0 : S1200000.BroadcastsInDim S1200000x1 (![0] : Fin 1 → Fin S1200000x1.rank)
  slices_S1200000_S1199999_1 : S1200000.Slices ![1] S1199999
  slices_S1200000_S1199999_0 : S1200000.Slices ![0] S1199999
  concatenates_S1_S1199999_S1200000_d0 : Shape.Concatenates [S1, S1199999] S1200000 0
  natLt_1_32 : 1 < 32
  bcast_S_S_ : S_.BroadcastsInDim S_ (![] : Fin 0 → Fin S_.rank)
  reduceWindows_S1200000_S1200000_w1200000s1p1199999_0 : S1200000.ReduceWindows (![1200000] : Fin 1 → Nat) ![1] ![1199999] ![0] S1200000
  bcast_S_S60000x32x4 : S_.BroadcastsInDim S60000x32x4 (![] : Fin 0 → Fin S60000x32x4.rank)
  concatenates_S1200000x1_S1200000x1_S1200000x2_d1 : Shape.Concatenates [S1200000x1, S1200000x1] S1200000x2 1
  bcast_S_S60000 : S_.BroadcastsInDim S60000 (![] : Fin 0 → Fin S60000.rank)
  bcast_S_S60000x3 : S_.BroadcastsInDim S60000x3 (![] : Fin 0 → Fin S60000x3.rank)
  concatenates_S1200000x1_S1200000x1_S1200000x1_S1200000x3_d1 : Shape.Concatenates [S1200000x1, S1200000x1, S1200000x1] S1200000x3 1
  reducesTo_S1200000_S_d0 : S1200000.ReducesTo [0] S_
  gather_S1200000_S1200000x1_S1200000_n_0_n_n_0_1_1_wf : GatherDims.WF S1200000 S1200000x1 S1200000 [] [0] [] [0] [] 1 ![1]
  scatter_S1200000_S1200000x1_S1200000_n_0_0_1_wf : ScatterDims.WF S1200000 S1200000x1 S1200000 [] [0] [0] 1
  gather_S1200000x4_S1200000x1_S1200000x4_1_0_n_n_0_1_14_wf : GatherDims.WF S1200000x4 S1200000x1 S1200000x4 [1] [0] [] [0] [] 1 ![1, 4]
  scatter_S60000x32x4_S1200000x2_S1200000x4_1_01_01_1_wf : ScatterDims.WF S60000x32x4 S1200000x2 S1200000x4 [1] [0, 1] [0, 1] 1
  scatter_S60000_S1200000x1_S1200000_n_0_0_1_wf : ScatterDims.WF S60000 S1200000x1 S1200000 [] [0] [0] 1
  scatter_S60000x3_S1200000x1_S1200000x3_1_0_0_1_wf : ScatterDims.WF S60000x3 S1200000x1 S1200000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S1200000_S1200000x1_S1200000_n_0_n_n_0_1_1 : GatherDims S1200000 S1200000x1 S1200000 where
  offsetDims := []
  collapsedSliceDims := [0]
  operandBatchingDims := []
  startIndicesBatchingDims := []
  startIndexMap := [0]
  indexVectorDim := 1
  sliceSizes := ![1]
  wf := gather_S1200000_S1200000x1_S1200000_n_0_n_n_0_1_1_wf
def scatter_S1200000_S1200000x1_S1200000_n_0_0_1 : ScatterDims S1200000 S1200000x1 S1200000 where
  updateWindowDims := []
  insertedWindowDims := [0]
  scatterDimsToOperandDims := [0]
  indexVectorDim := 1
  wf := scatter_S1200000_S1200000x1_S1200000_n_0_0_1_wf
def gather_S1200000x4_S1200000x1_S1200000x4_1_0_n_n_0_1_14 : GatherDims S1200000x4 S1200000x1 S1200000x4 where
  offsetDims := [1]
  collapsedSliceDims := [0]
  operandBatchingDims := []
  startIndicesBatchingDims := []
  startIndexMap := [0]
  indexVectorDim := 1
  sliceSizes := ![1, 4]
  wf := gather_S1200000x4_S1200000x1_S1200000x4_1_0_n_n_0_1_14_wf
def scatter_S60000x32x4_S1200000x2_S1200000x4_1_01_01_1 : ScatterDims S60000x32x4 S1200000x2 S1200000x4 where
  updateWindowDims := [1]
  insertedWindowDims := [0, 1]
  scatterDimsToOperandDims := [0, 1]
  indexVectorDim := 1
  wf := scatter_S60000x32x4_S1200000x2_S1200000x4_1_01_01_1_wf
def scatter_S60000_S1200000x1_S1200000_n_0_0_1 : ScatterDims S60000 S1200000x1 S1200000 where
  updateWindowDims := []
  insertedWindowDims := [0]
  scatterDimsToOperandDims := [0]
  indexVectorDim := 1
  wf := scatter_S60000_S1200000x1_S1200000_n_0_0_1_wf
def scatter_S60000x3_S1200000x1_S1200000x3_1_0_0_1 : ScatterDims S60000x3 S1200000x1 S1200000x3 where
  updateWindowDims := [1]
  insertedWindowDims := [0]
  scatterDimsToOperandDims := [0]
  indexVectorDim := 1
  wf := scatter_S60000x3_S1200000x1_S1200000x3_1_0_0_1_wf

class Facts : Prop extends Facts₀ where

variable [Facts]
-- ==== Proof.KFrameTail.lean ====
import proofs.«105800_j40716289966699_2_alg».proof.Proof.Gen.Kernel.Launch
import Idealize.ShloMosaic.Lib.Pipeline.FrameBody
import Idealize.ShloMosaic.Lib.Pipeline.FrameSuffix
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry, and the lines after the region -/

/-- Core `c`'s TensorCore buffers when the region is entered, as a valuation: the launch contents after the one
    host operation before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, as the 23 stretches @main is cut into, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor

/-! ## No host operation after the region writes the argument array or the kernel's result

Each operation writes its own result buffer only, and that buffer is neither of the two. -/

theorem hostOps1_nw : (hostOps1 : List (HloOp τ sig (Elt F))).Forall fun op =>
    Proc.devRef (τ := τ) .tc main_arg0 ∉ op.writes ∧ Proc.devRef (τ := τ) .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_nw : (hostOps1_1 : List (HloOp τ sig (Elt F))).Forall fun op =>
    Proc.devRef (τ := τ) .tc main_arg0 ∉ op.writes ∧ Proc.devRef (τ := τ) .tc main_v0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_2_nw : (hostOps1_2 : List (HloOp τ sig (Elt F))).Forall fun op =>
    Proc.devRef (τ := τ) .tc main_arg0 ∉ op.writes ∧ Proc.devRef (τ := τ) .tc main_v0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_3_nw : (hostOps1_3 : List (HloOp τ sig (Elt F))).Forall fun op =>
    Proc.devRef (τ := τ) .tc main_arg0 ∉ op.writes ∧ Proc.devRef (τ := τ) .tc main_v0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_4_nw : (hostOps1_4 : List (HloOp τ sig (Elt F))).Forall fun op =>
    Proc.devRef (τ := τ) .tc main_arg0 ∉ op.writes ∧ Proc.devRef (τ := τ) .tc main_v0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_5_nw : (hostOps1_5 : List (HloOp τ sig (Elt F))).Forall fun op =>
    Proc.devRef (τ := τ) .tc main_arg0 ∉ op.writes ∧ Proc.devRef (τ := τ) .tc main_v0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_6_nw : (hostOps1_6 : List (HloOp τ sig (Elt F))).Forall fun op =>
    Proc.devRef (τ := τ) .tc main_arg0 ∉ op.writes ∧ Proc.devRef (τ := τ) .tc main_v0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_7_nw : (hostOps1_7 : List (HloOp τ sig (Elt F))).Forall fun op =>
    Proc.devRef (τ := τ) .tc main_arg0 ∉ op.writes ∧ Proc.devRef (τ := τ) .tc main_v0 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_8_nw : (hostOps1_8 : List (HloOp τ sig (Elt F))).Forall fun op =>
    Proc.devRef (τ := τ) .tc main_arg0 ∉ op.writes ∧ Proc.devRef (τ := τ) .tc main_v0 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_9_nw : (hostOps1_9 : List (HloOp τ sig (Elt F))).Forall fun op =>
    Proc.devRef (τ := τ) .tc main_arg0 ∉ op.writes ∧ Proc.devRef (τ := τ) .tc main_v0 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_10_nw : (hostOps1_10 : List (HloOp τ sig (Elt F))).Forall fun op =>
    Proc.devRef (τ := τ) .tc main_arg0 ∉ op.writes ∧ Proc.devRef (τ := τ) .tc main_v0 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_11_nw : (hostOps1_11 : List (HloOp τ sig (Elt F))).Forall fun op =>
    Proc.devRef (τ := τ) .tc main_arg0 ∉ op.writes ∧ Proc.devRef (τ := τ) .tc main_v0 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_12_nw : (hostOps1_12 : List (HloOp τ sig (Elt F))).Forall fun op =>
    Proc.devRef (τ := τ) .tc main_arg0 ∉ op.writes ∧ Proc.devRef (τ := τ) .tc main_v0 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_13_nw : (hostOps1_13 : List (HloOp τ sig (Elt F))).Forall fun op =>
    Proc.devRef (τ := τ) .tc main_arg0 ∉ op.writes ∧ Proc.devRef (τ := τ) .tc main_v0 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_14_nw : (hostOps1_14 : List (HloOp τ sig (Elt F))).Forall fun op =>
    Proc.devRef (τ := τ) .tc main_arg0 ∉ op.writes ∧ Proc.devRef (τ := τ) .tc main_v0 ∉ op.writes := by
  simp only [hostOps1_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_15_nw : (hostOps1_15 : List (HloOp τ sig (Elt F))).Forall fun op =>
    Proc.devRef (τ := τ) .tc main_arg0 ∉ op.writes ∧ Proc.devRef (τ := τ) .tc main_v0 ∉ op.writes := by
  simp only [hostOps1_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_16_nw : (hostOps1_16 : List (HloOp τ sig (Elt F))).Forall fun op =>
    Proc.devRef (τ := τ) .tc main_arg0 ∉ op.writes ∧ Proc.devRef (τ := τ) .tc main_v0 ∉ op.writes := by
  simp only [hostOps1_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_17_nw : (hostOps1_17 : List (HloOp τ sig (Elt F))).Forall fun op =>
    Proc.devRef (τ := τ) .tc main_arg0 ∉ op.writes ∧ Proc.devRef (τ := τ) .tc main_v0 ∉ op.writes := by
  simp only [hostOps1_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_18_nw : (hostOps1_18 : List (HloOp τ sig (Elt F))).Forall fun op =>
    Proc.devRef (τ := τ) .tc main_arg0 ∉ op.writes ∧ Proc.devRef (τ := τ) .tc main_v0 ∉ op.writes := by
  simp only [hostOps1_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_19_nw : (hostOps1_19 : List (HloOp τ sig (Elt F))).Forall fun op =>
    Proc.devRef (τ := τ) .tc main_arg0 ∉ op.writes ∧ Proc.devRef (τ := τ) .tc main_v0 ∉ op.writes := by
  simp only [hostOps1_19, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_20_nw : (hostOps1_20 : List (HloOp τ sig (Elt F))).Forall fun op =>
    Proc.devRef (τ := τ) .tc main_arg0 ∉ op.writes ∧ Proc.devRef (τ := τ) .tc main_v0 ∉ op.writes := by
  simp only [hostOps1_20, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_21_nw : (hostOps1_21 : List (HloOp τ sig (Elt F))).Forall fun op =>
    Proc.devRef (τ := τ) .tc main_arg0 ∉ op.writes ∧ Proc.devRef (τ := τ) .tc main_v0 ∉ op.writes := by
  simp only [hostOps1_21, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_22_nw : (hostOps1_22 : List (HloOp τ sig (Elt F))).Forall fun op =>
    Proc.devRef (τ := τ) .tc main_arg0 ∉ op.writes ∧ Proc.devRef (τ := τ) .tc main_v0 ∉ op.writes := by
  simp only [hostOps1_22, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The two facts for every operation of every stretch after the region. -/
theorem tail_nw : ∀ ops ∈ (tailOps : List (List (HloOp τ sig (Elt F)))), ∀ op ∈ ops,
    Proc.devRef (τ := τ) .tc main_arg0 ∉ op.writes ∧ Proc.devRef (τ := τ) .tc main_v0 ∉ op.writes :=
  List.forall_mem_cons.mpr ⟨List.forall_iff_forall_mem.mp hostOps1_nw,
    List.forall_mem_cons.mpr ⟨List.forall_iff_forall_mem.mp hostOps1_1_nw,
    List.forall_mem_cons.mpr ⟨List.forall_iff_forall_mem.mp hostOps1_2_nw,
    List.forall_mem_cons.mpr ⟨List.forall_iff_forall_mem.mp hostOps1_3_nw,
    List.forall_mem_cons.mpr ⟨List.forall_iff_forall_mem.mp hostOps1_4_nw,
    List.forall_mem_cons.mpr ⟨List.forall_iff_forall_mem.mp hostOps1_5_nw,
    List.forall_mem_cons.mpr ⟨List.forall_iff_forall_mem.mp hostOps1_6_nw,
    List.forall_mem_cons.mpr ⟨List.forall_iff_forall_mem.mp hostOps1_7_nw,
    List.forall_mem_cons.mpr ⟨List.forall_iff_forall_mem.mp hostOps1_8_nw,
    List.forall_mem_cons.mpr ⟨List.forall_iff_forall_mem.mp hostOps1_9_nw,
    List.forall_mem_cons.mpr ⟨List.forall_iff_forall_mem.mp hostOps1_10_nw,
    List.forall_mem_cons.mpr ⟨List.forall_iff_forall_mem.mp hostOps1_11_nw,
    List.forall_mem_cons.mpr ⟨List.forall_iff_forall_mem.mp hostOps1_12_nw,
    List.forall_mem_cons.mpr ⟨List.forall_iff_forall_mem.mp hostOps1_13_nw,
    List.forall_mem_cons.mpr ⟨List.forall_iff_forall_mem.mp hostOps1_14_nw,
    List.forall_mem_cons.mpr ⟨List.forall_iff_forall_mem.mp hostOps1_15_nw,
    List.forall_mem_cons.mpr ⟨List.forall_iff_forall_mem.mp hostOps1_16_nw,
    List.forall_mem_cons.mpr ⟨List.forall_iff_forall_mem.mp hostOps1_17_nw,
    List.forall_mem_cons.mpr ⟨List.forall_iff_forall_mem.mp hostOps1_18_nw,
    List.forall_mem_cons.mpr ⟨List.forall_iff_forall_mem.mp hostOps1_19_nw,
    List.forall_mem_cons.mpr ⟨List.forall_iff_forall_mem.mp hostOps1_20_nw,
    List.forall_mem_cons.mpr ⟨List.forall_iff_forall_mem.mp hostOps1_21_nw,
    List.forall_mem_cons.mpr ⟨List.forall_iff_forall_mem.mp hostOps1_22_nw,
    fun _ h => absurd h List.not_mem_nil⟩⟩⟩⟩⟩⟩⟩⟩⟩⟩⟩⟩⟩⟩⟩⟩⟩⟩⟩⟩⟩⟩⟩

/-! ## @main around the region -/

/-- @main is the host line before the region, the region, and the lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the buffers that bypass it only: every buffer of an
    operation is an unscoped TensorCore reference, and nothing is prefetched. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_cons.mpr ⟨fun op hop => Pipeline.sub_ucRefs op (List.forall_iff_forall_mem.mp hostOps1_sub op hop),
    List.forall_mem_cons.mpr ⟨fun op hop => Pipeline.sub_ucRefs op (List.forall_iff_forall_mem.mp hostOps1_1_sub op hop),
    List.forall_mem_cons.mpr ⟨fun op hop => Pipeline.sub_ucRefs op (List.forall_iff_forall_mem.mp hostOps1_2_sub op hop),
    List.forall_mem_cons.mpr ⟨fun op hop => Pipeline.sub_ucRefs op (List.forall_iff_forall_mem.mp hostOps1_3_sub op hop),
    List.forall_mem_cons.mpr ⟨fun op hop => Pipeline.sub_ucRefs op (List.forall_iff_forall_mem.mp hostOps1_4_sub op hop),
    List.forall_mem_cons.mpr ⟨fun op hop => Pipeline.sub_ucRefs op (List.forall_iff_forall_mem.mp hostOps1_5_sub op hop),
    List.forall_mem_cons.mpr ⟨fun op hop => Pipeline.sub_ucRefs op (List.forall_iff_forall_mem.mp hostOps1_6_sub op hop),
    List.forall_mem_cons.mpr ⟨fun op hop => Pipeline.sub_ucRefs op (List.forall_iff_forall_mem.mp hostOps1_7_sub op hop),
    List.forall_mem_cons.mpr ⟨fun op hop => Pipeline.sub_ucRefs op (List.forall_iff_forall_mem.mp hostOps1_8_sub op hop),
    List.forall_mem_cons.mpr ⟨fun op hop => Pipeline.sub_ucRefs op (List.forall_iff_forall_mem.mp hostOps1_9_sub op hop),
    List.forall_mem_cons.mpr ⟨fun op hop => Pipeline.sub_ucRefs op (List.forall_iff_forall_mem.mp hostOps1_10_sub op hop),
    List.forall_mem_cons.mpr ⟨fun op hop => Pipeline.sub_ucRefs op (List.forall_iff_forall_mem.mp hostOps1_11_sub op hop),
    List.forall_mem_cons.mpr ⟨fun op hop => Pipeline.sub_ucRefs op (List.forall_iff_forall_mem.mp hostOps1_12_sub op hop),
    List.forall_mem_cons.mpr ⟨fun op hop => Pipeline.sub_ucRefs op (List.forall_iff_forall_mem.mp hostOps1_13_sub op hop),
    List.forall_mem_cons.mpr ⟨fun op hop => Pipeline.sub_ucRefs op (List.forall_iff_forall_mem.mp hostOps1_14_sub op hop),
    List.forall_mem_cons.mpr ⟨fun op hop => Pipeline.sub_ucRefs op (List.forall_iff_forall_mem.mp hostOps1_15_sub op hop),
    List.forall_mem_cons.mpr ⟨fun op hop => Pipeline.sub_ucRefs op (List.forall_iff_forall_mem.mp hostOps1_16_sub op hop),
    List.forall_mem_cons.mpr ⟨fun op hop => Pipeline.sub_ucRefs op (List.forall_iff_forall_mem.mp hostOps1_17_sub op hop),
    List.forall_mem_cons.mpr ⟨fun op hop => Pipeline.sub_ucRefs op (List.forall_iff_forall_mem.mp hostOps1_18_sub op hop),
    List.forall_mem_cons.mpr ⟨fun op hop => Pipeline.sub_ucRefs op (List.forall_iff_forall_mem.mp hostOps1_19_sub op hop),
    List.forall_mem_cons.mpr ⟨fun op hop => Pipeline.sub_ucRefs op (List.forall_iff_forall_mem.mp hostOps1_20_sub op hop),
    List.forall_mem_cons.mpr ⟨fun op hop => Pipeline.sub_ucRefs op (List.forall_iff_forall_mem.mp hostOps1_21_sub op hop),
    List.forall_mem_cons.mpr ⟨fun op hop => Pipeline.sub_ucRefs op (List.forall_iff_forall_mem.mp hostOps1_22_sub op hop),
    fun _ h => absurd h List.not_mem_nil⟩⟩⟩⟩⟩⟩⟩⟩⟩⟩⟩⟩⟩⟩⟩⟩⟩⟩⟩⟩⟩⟩⟩

/-- They allocate nothing. -/
theorem sfx_fresh : ∀ ops ∈ (tailOps : List (List (HloOp τ sig (Elt F)))), ∀ op ∈ ops, op.fresh = ∅ :=
  List.forall_mem_cons.mpr ⟨List.forall_iff_forall_mem.mp hostOps1_fresh,
    List.forall_mem_cons.mpr ⟨List.forall_iff_forall_mem.mp hostOps1_1_fresh,
    List.forall_mem_cons.mpr ⟨List.forall_iff_forall_mem.mp hostOps1_2_fresh,
    List.forall_mem_cons.mpr ⟨List.forall_iff_forall_mem.mp hostOps1_3_fresh,
    List.forall_mem_cons.mpr ⟨List.forall_iff_forall_mem.mp hostOps1_4_fresh,
    List.forall_mem_cons.mpr ⟨List.forall_iff_forall_mem.mp hostOps1_5_fresh,
    List.forall_mem_cons.mpr ⟨List.forall_iff_forall_mem.mp hostOps1_6_fresh,
    List.forall_mem_cons.mpr ⟨List.forall_iff_forall_mem.mp hostOps1_7_fresh,
    List.forall_mem_cons.mpr ⟨List.forall_iff_forall_mem.mp hostOps1_8_fresh,
    List.forall_mem_cons.mpr ⟨List.forall_iff_forall_mem.mp hostOps1_9_fresh,
    List.forall_mem_cons.mpr ⟨List.forall_iff_forall_mem.mp hostOps1_10_fresh,
    List.forall_mem_cons.mpr ⟨List.forall_iff_forall_mem.mp hostOps1_11_fresh,
    List.forall_mem_cons.mpr ⟨List.forall_iff_forall_mem.mp hostOps1_12_fresh,
    List.forall_mem_cons.mpr ⟨List.forall_iff_forall_mem.mp hostOps1_13_fresh,
    List.forall_mem_cons.mpr ⟨List.forall_iff_forall_mem.mp hostOps1_14_fresh,
    List.forall_mem_cons.mpr ⟨List.forall_iff_forall_mem.mp hostOps1_15_fresh,
    List.forall_mem_cons.mpr ⟨List.forall_iff_forall_mem.mp hostOps1_16_fresh,
    List.forall_mem_cons.mpr ⟨List.forall_iff_forall_mem.mp hostOps1_17_fresh,
    List.forall_mem_cons.mpr ⟨List.forall_iff_forall_mem.mp hostOps1_18_fresh,
    List.forall_mem_cons.mpr ⟨List.forall_iff_forall_mem.mp hostOps1_19_fresh,
    List.forall_mem_cons.mpr ⟨List.forall_iff_forall_mem.mp hostOps1_20_fresh,
    List.forall_mem_cons.mpr ⟨List.forall_iff_forall_mem.mp hostOps1_21_fresh,
    List.forall_mem_cons.mpr ⟨List.forall_iff_forall_mem.mp hostOps1_22_fresh,
    fun _ h => absurd h List.not_mem_nil⟩⟩⟩⟩⟩⟩⟩⟩⟩⟩⟩⟩⟩⟩⟩⟩⟩⟩⟩⟩⟩⟩⟩

/-- And they write no array of the pipeline: window 0's array is the argument, window 1's the kernel's result. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := tail_nw ops hops op hop
  fin_cases w
  · exact h.1
  · exact h.2

/-- The host operation before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    exact StableHlo.devRef_ne_of_ne (by decide)))

end Cert.Kernel.Hand

end
-- ==== Proof.KFrameBody.lean ====
import proofs.«105800_j40716289966699_2_alg».proof.Proof.Gen.Kernel.Launch
import proofs.«105800_j40716289966699_2_alg».proof.Proof.Gen.Kernel.Skeleton
import Idealize.ShloMosaic.Lib.Pipeline.FrameBody
import Idealize.ShloMosaic.Lib.Ring
import Idealize.ShloMosaic.Lib.Tactic

-- membership in a rectangle of 4000 rows: the elaborator's structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two accesses: the whole input block, the whole output block -/

/-- The whole rectangle of the input block `f32[4000, 4]`. -/
abbrev rIn : Rect S4000x4 := Rect.unit (s := S4000x4) ![0, 0] S4000x4.size inb_S4000x4_S4000x4_0_0
/-- The whole rectangle of the output block `i32[4000, 1]`. -/
abbrev rOut : Rect S4000x1 := Rect.unit (s := S4000x1) ![0, 0] S4000x1.size inb_S4000x1_S4000x1_0_0

/-! ## What the body leaves in the output's staging buffer -/

/-- The output's staging buffer after the body, from the input block `x0`: its one store, of the flat voxel ids
    (or the sentinel) computed from the whole block. -/
def blockOut (x0 : Vec F S4000x4 .f32) : Vec F S4000x1 .i32 :=
  View.canon [⟨rOut, k0_pay1 (k0_pay3 (View.ld x0 rIn)) (k0_pay4 (View.ld x0 rIn)) (k0_pay5 (View.ld x0 rIn)) (k0_pay6 (View.ld x0 rIn))⟩]

/-- The one store is through the whole rectangle, so it covers the buffer. -/
theorem cover_out (p0 : Vec F S4000x1 .i32) (y : S4000x1.Idx) :
    ∃ pc ∈ ([⟨rOut, p0⟩] : List (View.Piece (Elt F) S4000x1 .i32)), y ∈ pc.1.set :=
  View.cover_of_tiled [⟨rOut, p0⟩] S4000x1.size (by rfl) y

/-! ## The body's triple -/

set_option maxHeartbeats 1000000 in
/-- The kernel body on whole staging memrefs, the input's at contents `x0` and the output's at anything, runs to the
    continuation holding the input's as it was and the output's at `blockOut x0`: it loads the input block, loads the
    output block (a value it never uses) and stores the ids over the whole output block. -/
theorem sound_kernel (c : Dev nD) (E : Set ℕ) (i : grid0.Coords) (arg1 : Memref sig .tc .vmem S4000x4 .f32) (harg1 : arg1.IsWhole) (arg2 : Memref sig .tc .vmem S4000x1 .i32) (harg2 : arg2.IsWhole)
    (x0 : Vec F S4000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__flat_id_kernel i arg1 harg1 arg2 harg2) K := by
  simp only [cc0__flat_id_kernel_eq_skeleton]; unfold cc0__flat_id_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

end Cert.Kernel.Hand

end
-- ==== Proof.KFrame.lean ====
import proofs.«105800_j40716289966699_2_alg».proof.Proof.KFrameTail
import proofs.«105800_j40716289966699_2_alg».proof.Proof.KFrameBody
import proofs.«105800_j40716289966699_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place: the window is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline at
    what the proof data compute is a run ending with the argument as launched: the argument is the input window's
    array, which no write-back touches, and no host operation before the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The pipeline's proof data -/

/-- The proof data of the one pipeline on core `c`: the arrays as the region finds them; after the body at point
    `t` the input's buffer at its block and the output's at `blockOut` of that block; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = blockOut (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: @main runs to the end without fault and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KIFrameTail.lean ====
import proofs.«105800_j40716289966699_2_alg».proof.Proof.Gen.KernelIdeal.Launch
import Idealize.ShloMosaic.Lib.Pipeline.FrameBody
import Idealize.ShloMosaic.Lib.Pipeline.FrameSuffix
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry, and the lines after the region -/

/-- Core `c`'s TensorCore buffers when the region is entered, as a valuation: the launch contents after the one
    host operation before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, as the 23 stretches @main is cut into, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor

/-! ## No host operation after the region writes the argument array or the kernel's result

Each operation writes its own result buffer only, and that buffer is neither of the two. -/

theorem hostOps1_nw : (hostOps1 : List (HloOp τ sig (Elt F))).Forall fun op =>
    Proc.devRef (τ := τ) .tc main_arg0 ∉ op.writes ∧ Proc.devRef (τ := τ) .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_nw : (hostOps1_1 : List (HloOp τ sig (Elt F))).Forall fun op =>
    Proc.devRef (τ := τ) .tc main_arg0 ∉ op.writes ∧ Proc.devRef (τ := τ) .tc main_v0 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_2_nw : (hostOps1_2 : List (HloOp τ sig (Elt F))).Forall fun op =>
    Proc.devRef (τ := τ) .tc main_arg0 ∉ op.writes ∧ Proc.devRef (τ := τ) .tc main_v0 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_3_nw : (hostOps1_3 : List (HloOp τ sig (Elt F))).Forall fun op =>
    Proc.devRef (τ := τ) .tc main_arg0 ∉ op.writes ∧ Proc.devRef (τ := τ) .tc main_v0 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_4_nw : (hostOps1_4 : List (HloOp τ sig (Elt F))).Forall fun op =>
    Proc.devRef (τ := τ) .tc main_arg0 ∉ op.writes ∧ Proc.devRef (τ := τ) .tc main_v0 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_5_nw : (hostOps1_5 : List (HloOp τ sig (Elt F))).Forall fun op =>
    Proc.devRef (τ := τ) .tc main_arg0 ∉ op.writes ∧ Proc.devRef (τ := τ) .tc main_v0 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_6_nw : (hostOps1_6 : List (HloOp τ sig (Elt F))).Forall fun op =>
    Proc.devRef (τ := τ) .tc main_arg0 ∉ op.writes ∧ Proc.devRef (τ := τ) .tc main_v0 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_7_nw : (hostOps1_7 : List (HloOp τ sig (Elt F))).Forall fun op =>
    Proc.devRef (τ := τ) .tc main_arg0 ∉ op.writes ∧ Proc.devRef (τ := τ) .tc main_v0 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_8_nw : (hostOps1_8 : List (HloOp τ sig (Elt F))).Forall fun op =>
    Proc.devRef (τ := τ) .tc main_arg0 ∉ op.writes ∧ Proc.devRef (τ := τ) .tc main_v0 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_9_nw : (hostOps1_9 : List (HloOp τ sig (Elt F))).Forall fun op =>
    Proc.devRef (τ := τ) .tc main_arg0 ∉ op.writes ∧ Proc.devRef (τ := τ) .tc main_v0 ∉ op.writes := by
  simp only [hostOps1_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_10_nw : (hostOps1_10 : List (HloOp τ sig (Elt F))).Forall fun op =>
    Proc.devRef (τ := τ) .tc main_arg0 ∉ op.writes ∧ Proc.devRef (τ := τ) .tc main_v0 ∉ op.writes := by
  simp only [hostOps1_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_11_nw : (hostOps1_11 : List (HloOp τ sig (Elt F))).Forall fun op =>
    Proc.devRef (τ := τ) .tc main_arg0 ∉ op.writes ∧ Proc.devRef (τ := τ) .tc main_v0 ∉ op.writes := by
  simp only [hostOps1_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_12_nw : (hostOps1_12 : List (HloOp τ sig (Elt F))).Forall fun op =>
    Proc.devRef (τ := τ) .tc main_arg0 ∉ op.writes ∧ Proc.devRef (τ := τ) .tc main_v0 ∉ op.writes := by
  simp only [hostOps1_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_13_nw : (hostOps1_13 : List (HloOp τ sig (Elt F))).Forall fun op =>
    Proc.devRef (τ := τ) .tc main_arg0 ∉ op.writes ∧ Proc.devRef (τ := τ) .tc main_v0 ∉ op.writes := by
  simp only [hostOps1_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_14_nw : (hostOps1_14 : List (HloOp τ sig (Elt F))).Forall fun op =>
    Proc.devRef (τ := τ) .tc main_arg0 ∉ op.writes ∧ Proc.devRef (τ := τ) .tc main_v0 ∉ op.writes := by
  simp only [hostOps1_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_15_nw : (hostOps1_15 : List (HloOp τ sig (Elt F))).Forall fun op =>
    Proc.devRef (τ := τ) .tc main_arg0 ∉ op.writes ∧ Proc.devRef (τ := τ) .tc main_v0 ∉ op.writes := by
  simp only [hostOps1_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_16_nw : (hostOps1_16 : List (HloOp τ sig (Elt F))).Forall fun op =>
    Proc.devRef (τ := τ) .tc main_arg0 ∉ op.writes ∧ Proc.devRef (τ := τ) .tc main_v0 ∉ op.writes := by
  simp only [hostOps1_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_17_nw : (hostOps1_17 : List (HloOp τ sig (Elt F))).Forall fun op =>
    Proc.devRef (τ := τ) .tc main_arg0 ∉ op.writes ∧ Proc.devRef (τ := τ) .tc main_v0 ∉ op.writes := by
  simp only [hostOps1_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_18_nw : (hostOps1_18 : List (HloOp τ sig (Elt F))).Forall fun op =>
    Proc.devRef (τ := τ) .tc main_arg0 ∉ op.writes ∧ Proc.devRef (τ := τ) .tc main_v0 ∉ op.writes := by
  simp only [hostOps1_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_19_nw : (hostOps1_19 : List (HloOp τ sig (Elt F))).Forall fun op =>
    Proc.devRef (τ := τ) .tc main_arg0 ∉ op.writes ∧ Proc.devRef (τ := τ) .tc main_v0 ∉ op.writes := by
  simp only [hostOps1_19, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_20_nw : (hostOps1_20 : List (HloOp τ sig (Elt F))).Forall fun op =>
    Proc.devRef (τ := τ) .tc main_arg0 ∉ op.writes ∧ Proc.devRef (τ := τ) .tc main_v0 ∉ op.writes := by
  simp only [hostOps1_20, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_21_nw : (hostOps1_21 : List (HloOp τ sig (Elt F))).Forall fun op =>
    Proc.devRef (τ := τ) .tc main_arg0 ∉ op.writes ∧ Proc.devRef (τ := τ) .tc main_v0 ∉ op.writes := by
  simp only [hostOps1_21, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_22_nw : (hostOps1_22 : List (HloOp τ sig (Elt F))).Forall fun op =>
    Proc.devRef (τ := τ) .tc main_arg0 ∉ op.writes ∧ Proc.devRef (τ := τ) .tc main_v0 ∉ op.writes := by
  simp only [hostOps1_22, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The two facts for every operation of every stretch after the region. -/
theorem tail_nw : ∀ ops ∈ (tailOps : List (List (HloOp τ sig (Elt F)))), ∀ op ∈ ops,
    Proc.devRef (τ := τ) .tc main_arg0 ∉ op.writes ∧ Proc.devRef (τ := τ) .tc main_v0 ∉ op.writes :=
  List.forall_mem_cons.mpr ⟨List.forall_iff_forall_mem.mp hostOps1_nw,
    List.forall_mem_cons.mpr ⟨List.forall_iff_forall_mem.mp hostOps1_1_nw,
    List.forall_mem_cons.mpr ⟨List.forall_iff_forall_mem.mp hostOps1_2_nw,
    List.forall_mem_cons.mpr ⟨List.forall_iff_forall_mem.mp hostOps1_3_nw,
    List.forall_mem_cons.mpr ⟨List.forall_iff_forall_mem.mp hostOps1_4_nw,
    List.forall_mem_cons.mpr ⟨List.forall_iff_forall_mem.mp hostOps1_5_nw,
    List.forall_mem_cons.mpr ⟨List.forall_iff_forall_mem.mp hostOps1_6_nw,
    List.forall_mem_cons.mpr ⟨List.forall_iff_forall_mem.mp hostOps1_7_nw,
    List.forall_mem_cons.mpr ⟨List.forall_iff_forall_mem.mp hostOps1_8_nw,
    List.forall_mem_cons.mpr ⟨List.forall_iff_forall_mem.mp hostOps1_9_nw,
    List.forall_mem_cons.mpr ⟨List.forall_iff_forall_mem.mp hostOps1_10_nw,
    List.forall_mem_cons.mpr ⟨List.forall_iff_forall_mem.mp hostOps1_11_nw,
    List.forall_mem_cons.mpr ⟨List.forall_iff_forall_mem.mp hostOps1_12_nw,
    List.forall_mem_cons.mpr ⟨List.forall_iff_forall_mem.mp hostOps1_13_nw,
    List.forall_mem_cons.mpr ⟨List.forall_iff_forall_mem.mp hostOps1_14_nw,
    List.forall_mem_cons.mpr ⟨List.forall_iff_forall_mem.mp hostOps1_15_nw,
    List.forall_mem_cons.mpr ⟨List.forall_iff_forall_mem.mp hostOps1_16_nw,
    List.forall_mem_cons.mpr ⟨List.forall_iff_forall_mem.mp hostOps1_17_nw,
    List.forall_mem_cons.mpr ⟨List.forall_iff_forall_mem.mp hostOps1_18_nw,
    List.forall_mem_cons.mpr ⟨List.forall_iff_forall_mem.mp hostOps1_19_nw,
    List.forall_mem_cons.mpr ⟨List.forall_iff_forall_mem.mp hostOps1_20_nw,
    List.forall_mem_cons.mpr ⟨List.forall_iff_forall_mem.mp hostOps1_21_nw,
    List.forall_mem_cons.mpr ⟨List.forall_iff_forall_mem.mp hostOps1_22_nw,
    fun _ h => absurd h List.not_mem_nil⟩⟩⟩⟩⟩⟩⟩⟩⟩⟩⟩⟩⟩⟩⟩⟩⟩⟩⟩⟩⟩⟩⟩

/-! ## @main around the region -/

/-- @main is the host line before the region, the region, and the lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch the pipeline's arrays and the buffers that bypass it only: every buffer of an
    operation is an unscoped TensorCore reference, and nothing is prefetched. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_cons.mpr ⟨fun op hop => Pipeline.sub_ucRefs op (List.forall_iff_forall_mem.mp hostOps1_sub op hop),
    List.forall_mem_cons.mpr ⟨fun op hop => Pipeline.sub_ucRefs op (List.forall_iff_forall_mem.mp hostOps1_1_sub op hop),
    List.forall_mem_cons.mpr ⟨fun op hop => Pipeline.sub_ucRefs op (List.forall_iff_forall_mem.mp hostOps1_2_sub op hop),
    List.forall_mem_cons.mpr ⟨fun op hop => Pipeline.sub_ucRefs op (List.forall_iff_forall_mem.mp hostOps1_3_sub op hop),
    List.forall_mem_cons.mpr ⟨fun op hop => Pipeline.sub_ucRefs op (List.forall_iff_forall_mem.mp hostOps1_4_sub op hop),
    List.forall_mem_cons.mpr ⟨fun op hop => Pipeline.sub_ucRefs op (List.forall_iff_forall_mem.mp hostOps1_5_sub op hop),
    List.forall_mem_cons.mpr ⟨fun op hop => Pipeline.sub_ucRefs op (List.forall_iff_forall_mem.mp hostOps1_6_sub op hop),
    List.forall_mem_cons.mpr ⟨fun op hop => Pipeline.sub_ucRefs op (List.forall_iff_forall_mem.mp hostOps1_7_sub op hop),
    List.forall_mem_cons.mpr ⟨fun op hop => Pipeline.sub_ucRefs op (List.forall_iff_forall_mem.mp hostOps1_8_sub op hop),
    List.forall_mem_cons.mpr ⟨fun op hop => Pipeline.sub_ucRefs op (List.forall_iff_forall_mem.mp hostOps1_9_sub op hop),
    List.forall_mem_cons.mpr ⟨fun op hop => Pipeline.sub_ucRefs op (List.forall_iff_forall_mem.mp hostOps1_10_sub op hop),
    List.forall_mem_cons.mpr ⟨fun op hop => Pipeline.sub_ucRefs op (List.forall_iff_forall_mem.mp hostOps1_11_sub op hop),
    List.forall_mem_cons.mpr ⟨fun op hop => Pipeline.sub_ucRefs op (List.forall_iff_forall_mem.mp hostOps1_12_sub op hop),
    List.forall_mem_cons.mpr ⟨fun op hop => Pipeline.sub_ucRefs op (List.forall_iff_forall_mem.mp hostOps1_13_sub op hop),
    List.forall_mem_cons.mpr ⟨fun op hop => Pipeline.sub_ucRefs op (List.forall_iff_forall_mem.mp hostOps1_14_sub op hop),
    List.forall_mem_cons.mpr ⟨fun op hop => Pipeline.sub_ucRefs op (List.forall_iff_forall_mem.mp hostOps1_15_sub op hop),
    List.forall_mem_cons.mpr ⟨fun op hop => Pipeline.sub_ucRefs op (List.forall_iff_forall_mem.mp hostOps1_16_sub op hop),
    List.forall_mem_cons.mpr ⟨fun op hop => Pipeline.sub_ucRefs op (List.forall_iff_forall_mem.mp hostOps1_17_sub op hop),
    List.forall_mem_cons.mpr ⟨fun op hop => Pipeline.sub_ucRefs op (List.forall_iff_forall_mem.mp hostOps1_18_sub op hop),
    List.forall_mem_cons.mpr ⟨fun op hop => Pipeline.sub_ucRefs op (List.forall_iff_forall_mem.mp hostOps1_19_sub op hop),
    List.forall_mem_cons.mpr ⟨fun op hop => Pipeline.sub_ucRefs op (List.forall_iff_forall_mem.mp hostOps1_20_sub op hop),
    List.forall_mem_cons.mpr ⟨fun op hop => Pipeline.sub_ucRefs op (List.forall_iff_forall_mem.mp hostOps1_21_sub op hop),
    List.forall_mem_cons.mpr ⟨fun op hop => Pipeline.sub_ucRefs op (List.forall_iff_forall_mem.mp hostOps1_22_sub op hop),
    fun _ h => absurd h List.not_mem_nil⟩⟩⟩⟩⟩⟩⟩⟩⟩⟩⟩⟩⟩⟩⟩⟩⟩⟩⟩⟩⟩⟩⟩

/-- They allocate nothing. -/
theorem sfx_fresh : ∀ ops ∈ (tailOps : List (List (HloOp τ sig (Elt F)))), ∀ op ∈ ops, op.fresh = ∅ :=
  List.forall_mem_cons.mpr ⟨List.forall_iff_forall_mem.mp hostOps1_fresh,
    List.forall_mem_cons.mpr ⟨List.forall_iff_forall_mem.mp hostOps1_1_fresh,
    List.forall_mem_cons.mpr ⟨List.forall_iff_forall_mem.mp hostOps1_2_fresh,
    List.forall_mem_cons.mpr ⟨List.forall_iff_forall_mem.mp hostOps1_3_fresh,
    List.forall_mem_cons.mpr ⟨List.forall_iff_forall_mem.mp hostOps1_4_fresh,
    List.forall_mem_cons.mpr ⟨List.forall_iff_forall_mem.mp hostOps1_5_fresh,
    List.forall_mem_cons.mpr ⟨List.forall_iff_forall_mem.mp hostOps1_6_fresh,
    List.forall_mem_cons.mpr ⟨List.forall_iff_forall_mem.mp hostOps1_7_fresh,
    List.forall_mem_cons.mpr ⟨List.forall_iff_forall_mem.mp hostOps1_8_fresh,
    List.forall_mem_cons.mpr ⟨List.forall_iff_forall_mem.mp hostOps1_9_fresh,
    List.forall_mem_cons.mpr ⟨List.forall_iff_forall_mem.mp hostOps1_10_fresh,
    List.forall_mem_cons.mpr ⟨List.forall_iff_forall_mem.mp hostOps1_11_fresh,
    List.forall_mem_cons.mpr ⟨List.forall_iff_forall_mem.mp hostOps1_12_fresh,
    List.forall_mem_cons.mpr ⟨List.forall_iff_forall_mem.mp hostOps1_13_fresh,
    List.forall_mem_cons.mpr ⟨List.forall_iff_forall_mem.mp hostOps1_14_fresh,
    List.forall_mem_cons.mpr ⟨List.forall_iff_forall_mem.mp hostOps1_15_fresh,
    List.forall_mem_cons.mpr ⟨List.forall_iff_forall_mem.mp hostOps1_16_fresh,
    List.forall_mem_cons.mpr ⟨List.forall_iff_forall_mem.mp hostOps1_17_fresh,
    List.forall_mem_cons.mpr ⟨List.forall_iff_forall_mem.mp hostOps1_18_fresh,
    List.forall_mem_cons.mpr ⟨List.forall_iff_forall_mem.mp hostOps1_19_fresh,
    List.forall_mem_cons.mpr ⟨List.forall_iff_forall_mem.mp hostOps1_20_fresh,
    List.forall_mem_cons.mpr ⟨List.forall_iff_forall_mem.mp hostOps1_21_fresh,
    List.forall_mem_cons.mpr ⟨List.forall_iff_forall_mem.mp hostOps1_22_fresh,
    fun _ h => absurd h List.not_mem_nil⟩⟩⟩⟩⟩⟩⟩⟩⟩⟩⟩⟩⟩⟩⟩⟩⟩⟩⟩⟩⟩⟩⟩

/-- And they write no array of the pipeline: window 0's array is the argument, window 1's the kernel's result. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := tail_nw ops hops op hop
  fin_cases w
  · exact h.1
  · exact h.2

/-- The host operation before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    exact StableHlo.devRef_ne_of_ne (by decide)))

end Cert.KernelIdeal.Hand

end
-- ==== Proof.KIFrameBody.lean ====
import proofs.«105800_j40716289966699_2_alg».proof.Proof.Gen.KernelIdeal.Launch
import proofs.«105800_j40716289966699_2_alg».proof.Proof.Gen.KernelIdeal.Skeleton
import Idealize.ShloMosaic.Lib.Pipeline.FrameBody
import Idealize.ShloMosaic.Lib.Ring
import Idealize.ShloMosaic.Lib.Tactic

-- membership in a rectangle of 4000 rows: the elaborator's structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two accesses: the whole input block, the whole output block -/

/-- The whole rectangle of the input block `f32[4000, 4]`. -/
abbrev rIn : Rect S4000x4 := Rect.unit (s := S4000x4) ![0, 0] S4000x4.size inb_S4000x4_S4000x4_0_0
/-- The whole rectangle of the output block `i32[4000, 1]`. -/
abbrev rOut : Rect S4000x1 := Rect.unit (s := S4000x1) ![0, 0] S4000x1.size inb_S4000x1_S4000x1_0_0

/-! ## What the body leaves in the output's staging buffer -/

/-- The output's staging buffer after the body, from the input block `x0`: its one store, of the flat voxel ids
    (or the sentinel) computed from the whole block. -/
def blockOut (x0 : Vec F S4000x4 .f32) : Vec F S4000x1 .i32 :=
  View.canon [⟨rOut, k0_pay1 (k0_pay3 (View.ld x0 rIn)) (k0_pay4 (View.ld x0 rIn)) (k0_pay5 (View.ld x0 rIn)) (k0_pay6 (View.ld x0 rIn))⟩]

/-- The one store is through the whole rectangle, so it covers the buffer. -/
theorem cover_out (p0 : Vec F S4000x1 .i32) (y : S4000x1.Idx) :
    ∃ pc ∈ ([⟨rOut, p0⟩] : List (View.Piece (Elt F) S4000x1 .i32)), y ∈ pc.1.set :=
  View.cover_of_tiled [⟨rOut, p0⟩] S4000x1.size (by rfl) y

/-! ## The body's triple -/

set_option maxHeartbeats 1000000 in
/-- The kernel body on whole staging memrefs, the input's at contents `x0` and the output's at anything, runs to the
    continuation holding the input's as it was and the output's at `blockOut x0`: it loads the input block, loads the
    output block (a value it never uses) and stores the ids over the whole output block. -/
theorem sound_kernel (c : Dev nD) (E : Set ℕ) (i : grid0.Coords) (arg1 : Memref sig .tc .vmem S4000x4 .f32) (harg1 : arg1.IsWhole) (arg2 : Memref sig .tc .vmem S4000x1 .i32) (harg2 : arg2.IsWhole)
    (x0 : Vec F S4000x4 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__flat_id_kernel i arg1 harg1 arg2 harg2) K := by
  simp only [cc0__flat_id_kernel_eq_skeleton]; unfold cc0__flat_id_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

end Cert.KernelIdeal.Hand

end
-- ==== Proof.KIFrame.lean ====
import proofs.«105800_j40716289966699_2_alg».proof.Proof.KIFrameTail
import proofs.«105800_j40716289966699_2_alg».proof.Proof.KIFrameBody
import proofs.«105800_j40716289966699_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place: the window is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every array of the pipeline at
    what the proof data compute is a run ending with the argument as launched: the argument is the input window's
    array, which no write-back touches, and no host operation before the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The pipeline's proof data -/

/-- The proof data of the one pipeline on core `c`: the arrays as the region finds them; after the body at point
    `t` the input's buffer at its block and the output's at `blockOut` of that block; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = blockOut (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: @main runs to the end without fault and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.RefRunOpsP0.lean ====
import proofs.«105800_j40716289966699_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 0 of @main (60 of its statements) as lists of operations: a list per stretch of @main's own
    statements and a list per call it makes, the callee's operations at that call's buffers (a call nested in
    the callee inlined in place). 4 lists, 64 operations. -/

/-- 37 operations of @main's own, in order. -/
abbrev opsP0a : List (HloOp τ sig (Elt F)) :=
  ( StableHlo.nullary main_cst (fun i => FloatOps.ofBits .f32 (lit0 (S3.rowMajor i)))
  :: StableHlo.nullary main_cst_0 (fun i => FloatOps.ofBits .f32 (lit1 (S3.rowMajor i)))
  :: StableHlo.nullary main_c (fun i => lit2 (S3.rowMajor i))
  :: StableHlo.nullary main_c_1 (constantI S1 1 1#1)
  :: StableHlo.unary main_arg0 main_v0 ((extractStridedSlice S1200000x3 ![0, 0] · slices_S1200000x4_S1200000x3_0_0) : (⟨S1200000x4, .f32⟩ : BufTy).Contents (Elt F) → (⟨S1200000x3, .f32⟩ : BufTy).Contents (Elt F))
  :: StableHlo.unary main_cst_0 main_v1 (broadcastInDim S1x3 ![1] bcast_S3_S1x3_1 : (⟨S3, .f32⟩ : BufTy).Contents (Elt F) → (⟨S1x3, .f32⟩ : BufTy).Contents (Elt F))
  :: StableHlo.unary main_v1 main_v2 (broadcastInDim S1200000x3 ![0, 1] bcast_S1x3_S1200000x3_0_1 : (⟨S1x3, .f32⟩ : BufTy).Contents (Elt F) → (⟨S1200000x3, .f32⟩ : BufTy).Contents (Elt F))
  :: StableHlo.binary main_v0 main_v2 main_v3 (subf : (⟨S1200000x3, .f32⟩ : BufTy).Contents (Elt F) → (⟨S1200000x3, .f32⟩ : BufTy).Contents (Elt F) → (⟨S1200000x3, .f32⟩ : BufTy).Contents (Elt F))
  :: StableHlo.unary main_cst main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S1200000x3 ![0, 1] bcast_S1x3_S1200000x3_0_1 : (⟨S1x3, .f32⟩ : BufTy).Contents (Elt F) → (⟨S1200000x3, .f32⟩ : BufTy).Contents (Elt F))
  :: StableHlo.binary main_v3 main_v5 main_v6 (Host.divf : (⟨S1200000x3, .f32⟩ : BufTy).Contents (Elt F) → (⟨S1200000x3, .f32⟩ : BufTy).Contents (Elt F) → (⟨S1200000x3, .f32⟩ : BufTy).Contents (Elt F))
  :: StableHlo.unary main_v6 main_v7 (Host.floor : (⟨S1200000x3, .f32⟩ : BufTy).Contents (Elt F) → (⟨S1200000x3, .f32⟩ : BufTy).Contents (Elt F))
  :: StableHlo.unary main_v7 main_v8 (fptosi 32 : (⟨S1200000x3, .f32⟩ : BufTy).Contents (Elt F) → (⟨S1200000x3, .i32⟩ : BufTy).Contents (Elt F))
  :: StableHlo.nullary main_c_2 (constantI S_ 32 0#32)
  :: StableHlo.unary main_c_2 main_v9 (broadcastInDim S1200000x3 ![] bcast_S_S1200000x3 : (⟨S_, .i32⟩ : BufTy).Contents (Elt F) → (⟨S1200000x3, .i32⟩ : BufTy).Contents (Elt F))
  :: StableHlo.binary main_v8 main_v9 main_v10 (cmpi .sge : (⟨S1200000x3, .i32⟩ : BufTy).Contents (Elt F) → (⟨S1200000x3, .i32⟩ : BufTy).Contents (Elt F) → (⟨S1200000x3, .i1⟩ : BufTy).Contents (Elt F))
  :: StableHlo.unary main_c main_v11 (broadcastInDim S1x3 ![1] bcast_S3_S1x3_1 : (⟨S3, .i32⟩ : BufTy).Contents (Elt F) → (⟨S1x3, .i32⟩ : BufTy).Contents (Elt F))
  :: StableHlo.unary main_v11 main_v12 (broadcastInDim S1200000x3 ![0, 1] bcast_S1x3_S1200000x3_0_1 : (⟨S1x3, .i32⟩ : BufTy).Contents (Elt F) → (⟨S1200000x3, .i32⟩ : BufTy).Contents (Elt F))
  :: StableHlo.binary main_v8 main_v12 main_v13 (cmpi .slt : (⟨S1200000x3, .i32⟩ : BufTy).Contents (Elt F) → (⟨S1200000x3, .i32⟩ : BufTy).Contents (Elt F) → (⟨S1200000x3, .i1⟩ : BufTy).Contents (Elt F))
  :: StableHlo.binary main_v10 main_v13 main_v14 (andi : (⟨S1200000x3, .i1⟩ : BufTy).Contents (Elt F) → (⟨S1200000x3, .i1⟩ : BufTy).Contents (Elt F) → (⟨S1200000x3, .i1⟩ : BufTy).Contents (Elt F))
  :: StableHlo.nullary main_c_3 (constantI S_ 1 1#1)
  :: StableHlo.binary main_v14 main_c_3 main_v15 ((fun x v => Host.reduce IntOp.andi x v reducesTo_S1200000x3_S1200000_d1 h_S_) : (⟨S1200000x3, .i1⟩ : BufTy).Contents (Elt F) → (⟨S_, .i1⟩ : BufTy).Contents (Elt F) → (⟨S1200000, .i1⟩ : BufTy).Contents (Elt F))
  :: StableHlo.unary main_v8 main_v16 ((extractStridedSlice S1200000x1 ![0, 0] · slices_S1200000x3_S1200000x1_0_0) : (⟨S1200000x3, .i32⟩ : BufTy).Contents (Elt F) → (⟨S1200000x1, .i32⟩ : BufTy).Contents (Elt F))
  :: StableHlo.reshape main_v16 main_v17 rfl shapeCasts_S1200000x1_S1200000
  :: StableHlo.nullary main_c_4 (constantI S_ 32 1024#32)
  :: StableHlo.unary main_c_4 main_v18 (broadcastInDim S1200000 ![] bcast_S_S1200000 : (⟨S_, .i32⟩ : BufTy).Contents (Elt F) → (⟨S1200000, .i32⟩ : BufTy).Contents (Elt F))
  :: StableHlo.binary main_v17 main_v18 main_v19 (muli : (⟨S1200000, .i32⟩ : BufTy).Contents (Elt F) → (⟨S1200000, .i32⟩ : BufTy).Contents (Elt F) → (⟨S1200000, .i32⟩ : BufTy).Contents (Elt F))
  :: StableHlo.unary main_v8 main_v20 ((extractStridedSlice S1200000x1 ![0, 1] · slices_S1200000x3_S1200000x1_0_1) : (⟨S1200000x3, .i32⟩ : BufTy).Contents (Elt F) → (⟨S1200000x1, .i32⟩ : BufTy).Contents (Elt F))
  :: StableHlo.reshape main_v20 main_v21 rfl shapeCasts_S1200000x1_S1200000
  :: StableHlo.binary main_v19 main_v21 main_v22 (addi : (⟨S1200000, .i32⟩ : BufTy).Contents (Elt F) → (⟨S1200000, .i32⟩ : BufTy).Contents (Elt F) → (⟨S1200000, .i32⟩ : BufTy).Contents (Elt F))
  :: StableHlo.nullary main_c_5 (constantI S_ 32 40#32)
  :: StableHlo.unary main_c_5 main_v23 (broadcastInDim S1200000 ![] bcast_S_S1200000 : (⟨S_, .i32⟩ : BufTy).Contents (Elt F) → (⟨S1200000, .i32⟩ : BufTy).Contents (Elt F))
  :: StableHlo.binary main_v22 main_v23 main_v24 (muli : (⟨S1200000, .i32⟩ : BufTy).Contents (Elt F) → (⟨S1200000, .i32⟩ : BufTy).Contents (Elt F) → (⟨S1200000, .i32⟩ : BufTy).Contents (Elt F))
  :: StableHlo.unary main_v8 main_v25 ((extractStridedSlice S1200000x1 ![0, 2] · slices_S1200000x3_S1200000x1_0_2) : (⟨S1200000x3, .i32⟩ : BufTy).Contents (Elt F) → (⟨S1200000x1, .i32⟩ : BufTy).Contents (Elt F))
  :: StableHlo.reshape main_v25 main_v26 rfl shapeCasts_S1200000x1_S1200000
  :: StableHlo.binary main_v24 main_v26 main_v27 (addi : (⟨S1200000, .i32⟩ : BufTy).Contents (Elt F) → (⟨S1200000, .i32⟩ : BufTy).Contents (Elt F) → (⟨S1200000, .i32⟩ : BufTy).Contents (Elt F))
  :: StableHlo.nullary main_c_6 (constantI S_ 32 41943040#32)
  :: [] )

/-- The 3 operations of one call of fn_where.body (the call whose record is main_call0), in order. -/
abbrev opsP0b : List (HloOp τ sig (Elt F)) :=
  ( StableHlo.TRef.unary (.of main_c_6 : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S1200000, .i32⟩) (broadcastInDim S1200000 ![] bcast_S_S1200000)
  :: StableHlo.TRef.ternary (.of main_v15 : StableHlo.TRef sig ⟨S1200000, .i1⟩) (.of main_v27 : StableHlo.TRef sig ⟨S1200000, .i32⟩) (.of main_call0_v1 : StableHlo.TRef sig ⟨S1200000, .i32⟩) (.of main_v28 : StableHlo.TRef sig ⟨S1200000, .i32⟩) select
  :: [] )

/-- The 3 operations of one call of fn_argsort.body (the call whose record is main_call1), in order. -/
abbrev opsP0c : List (HloOp τ sig (Elt F)) :=
  ( StableHlo.TRef.nullary (.of main_call1_v0 : StableHlo.TRef sig ⟨S1200000, .i32⟩) (iotaInDim S1200000 32 0)
  :: StableHlo.TRef.binary (.of main_v28 : StableHlo.TRef sig ⟨S1200000, .i32⟩) (.of main_call1_v0 : StableHlo.TRef sig ⟨S1200000, .i32⟩) (.of main_call1_v1_0 : StableHlo.TRef sig ⟨S1200000, .i32⟩) (fun x y => (Host.sort2 S1200000 0 comparator_i32_i32_d0 x y).1)
  :: StableHlo.TRef.binary (.of main_v28 : StableHlo.TRef sig ⟨S1200000, .i32⟩) (.of main_call1_v0 : StableHlo.TRef sig ⟨S1200000, .i32⟩) (.of main_v29 : StableHlo.TRef sig ⟨S1200000, .i32⟩) (fun x y => (Host.sort2 S1200000 0 comparator_i32_i32_d0 x y).2)
  :: [] )

/-- 21 operations of @main's own, in order. -/
abbrev opsP0d : List (HloOp τ sig (Elt F)) :=
  ( StableHlo.nullary main_c_7 (constantI S_ 32 0#32)
  :: StableHlo.unary main_c_7 main_v30 (broadcastInDim S1200000 ![] bcast_S_S1200000 : (⟨S_, .i32⟩ : BufTy).Contents (Elt F) → (⟨S1200000, .i32⟩ : BufTy).Contents (Elt F))
  :: StableHlo.binary main_v29 main_v30 main_v31 (cmpi .slt : (⟨S1200000, .i32⟩ : BufTy).Contents (Elt F) → (⟨S1200000, .i32⟩ : BufTy).Contents (Elt F) → (⟨S1200000, .i1⟩ : BufTy).Contents (Elt F))
  :: StableHlo.nullary main_c_8 (constantI S_ 32 1200000#32)
  :: StableHlo.unary main_c_8 main_v32 (broadcastInDim S1200000 ![] bcast_S_S1200000 : (⟨S_, .i32⟩ : BufTy).Contents (Elt F) → (⟨S1200000, .i32⟩ : BufTy).Contents (Elt F))
  :: StableHlo.binary main_v29 main_v32 main_v33 (addi : (⟨S1200000, .i32⟩ : BufTy).Contents (Elt F) → (⟨S1200000, .i32⟩ : BufTy).Contents (Elt F) → (⟨S1200000, .i32⟩ : BufTy).Contents (Elt F))
  :: StableHlo.ternary main_v31 main_v33 main_v29 main_v34 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v34 main_v35 (broadcastInDim S1200000x1 ![0] bcast_S1200000_S1200000x1_0 : (⟨S1200000, .i32⟩ : BufTy).Contents (Elt F) → (⟨S1200000x1, .i32⟩ : BufTy).Contents (Elt F))
  :: StableHlo.binary main_v28 main_v35 main_v36 ((fun x i => Host.gather gather_S1200000_S1200000x1_S1200000_n_0_n_n_0_1_1 x i) : (⟨S1200000, .i32⟩ : BufTy).Contents (Elt F) → (⟨S1200000x1, .i32⟩ : BufTy).Contents (Elt F) → (⟨S1200000, .i32⟩ : BufTy).Contents (Elt F))
  :: StableHlo.nullary main_c_9 (constantI S_ 32 0#32)
  :: StableHlo.unary main_c_9 main_v37 (broadcastInDim S1200000 ![] bcast_S_S1200000 : (⟨S_, .i32⟩ : BufTy).Contents (Elt F) → (⟨S1200000, .i32⟩ : BufTy).Contents (Elt F))
  :: StableHlo.binary main_v29 main_v37 main_v38 (cmpi .slt : (⟨S1200000, .i32⟩ : BufTy).Contents (Elt F) → (⟨S1200000, .i32⟩ : BufTy).Contents (Elt F) → (⟨S1200000, .i1⟩ : BufTy).Contents (Elt F))
  :: StableHlo.nullary main_c_10 (constantI S_ 32 1200000#32)
  :: StableHlo.unary main_c_10 main_v39 (broadcastInDim S1200000 ![] bcast_S_S1200000 : (⟨S_, .i32⟩ : BufTy).Contents (Elt F) → (⟨S1200000, .i32⟩ : BufTy).Contents (Elt F))
  :: StableHlo.binary main_v29 main_v39 main_v40 (addi : (⟨S1200000, .i32⟩ : BufTy).Contents (Elt F) → (⟨S1200000, .i32⟩ : BufTy).Contents (Elt F) → (⟨S1200000, .i32⟩ : BufTy).Contents (Elt F))
  :: StableHlo.ternary main_v38 main_v40 main_v29 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v41 main_v42 (broadcastInDim S1200000x1 ![0] bcast_S1200000_S1200000x1_0 : (⟨S1200000, .i32⟩ : BufTy).Contents (Elt F) → (⟨S1200000x1, .i32⟩ : BufTy).Contents (Elt F))
  :: StableHlo.binary main_v15 main_v42 main_v43 ((fun x i => Host.gather gather_S1200000_S1200000x1_S1200000_n_0_n_n_0_1_1 x i) : (⟨S1200000, .i1⟩ : BufTy).Contents (Elt F) → (⟨S1200000x1, .i32⟩ : BufTy).Contents (Elt F) → (⟨S1200000, .i1⟩ : BufTy).Contents (Elt F))
  :: StableHlo.unary main_v36 main_v44 ((extractStridedSlice S1199999 ![1] · slices_S1200000_S1199999_1) : (⟨S1200000, .i32⟩ : BufTy).Contents (Elt F) → (⟨S1199999, .i32⟩ : BufTy).Contents (Elt F))
  :: StableHlo.unary main_v36 main_v45 ((extractStridedSlice S1199999 ![0] · slices_S1200000_S1199999_0) : (⟨S1200000, .i32⟩ : BufTy).Contents (Elt F) → (⟨S1199999, .i32⟩ : BufTy).Contents (Elt F))
  :: StableHlo.binary main_v44 main_v45 main_v46 (cmpi .ne : (⟨S1199999, .i32⟩ : BufTy).Contents (Elt F) → (⟨S1199999, .i32⟩ : BufTy).Contents (Elt F) → (⟨S1199999, .i1⟩ : BufTy).Contents (Elt F))
  :: [] )

end Cert.ReferenceIdeal.Hand

end
-- ==== Proof.RefRunKit.lean ====
import Idealize.ShloMosaic.Lib.StableHlo.Run
import Idealize.ShloMosaic.Lib.Pipeline.Regions

noncomputable section

namespace Cert.ReferenceIdeal.Hand

open Idealize.ShloMosaic Idealize.SL.Sem Idealize.ShloMosaic.StableHlo

variable {nD : Nat} {τ : Topo} {sig : RefSig} {Val : EltTy → Type} {Λ : Labels}

/-! General facts about straight lines of host operations: a chain of lines is the line of their
    concatenation, and the three facts a run asks of every operation of a literal list (it touches
    TensorCore references only, it determines what it writes, it does not write a given reference)
    each by one pass over the list. -/

/-- A chain ending in a line, with no item before it, is that line. -/
theorem chainK_nil_seq (p : List (HloOp τ sig Val)) :
    (Pipeline.chainK [] (seq p) : Prog (TpuEff nD τ sig Val Λ .tc) PUnit) = seq p := rfl

/-- A line, then a chain that is the line `r`: the line of the concatenation (`seq_append`). -/
theorem chainK_cons_seq (p : List (HloOp τ sig Val)) (xs : List (Prog (TpuEff nD τ sig Val Λ .tc) PUnit))
    (q : Prog (TpuEff nD τ sig Val Λ .tc) PUnit) (r : List (HloOp τ sig Val)) (h : Pipeline.chainK xs q = seq r) :
    Pipeline.chainK (seq p :: xs) q = seq (p ++ r) := by
  rw [seq_append, ← h]; rfl

/-- A closed chain of one line is that line: the chain's closing return is the line's own
    (`seq [] = pure ⟨⟩`, so the chain is `seq (p ++ [])`). -/
theorem chain_single_seq (p : List (HloOp τ sig Val)) :
    (Pipeline.chain [seq p] : Prog (TpuEff nD τ sig Val Λ .tc) PUnit) = seq p := by
  have h : (seq (p ++ []) : Prog (TpuEff nD τ sig Val Λ .tc) PUnit) = Pipeline.chain [seq p] := seq_append p []
  rw [← h, List.append_nil]

/-- Two lines in a row are the line of the concatenation (`seq_append`, read right to left). -/
theorem seq_bind_seq (p r : List (HloOp τ sig Val)) :
    ((seq p : Prog (TpuEff nD τ sig Val Λ .tc) PUnit) >>= fun _ => seq r) = seq (p ++ r) := (seq_append p r).symm

/-- A reference other than the one an operation writes is not among what it writes. -/
theorem not_mem_writes {op : HloOp τ sig Val} {r y : Ref sig .tc} (hw : op.writes = {Proc.devRef .tc y}) (h : r ≠ y) :
    Proc.devRef (τ := τ) .tc r ∉ op.writes := by
  rw [hw, Finset.mem_singleton]; exact devRef_ne_of_ne h

/-- `P` of every operation of `a ++ b` from `P` of every operation of each. -/
theorem forall_append {P : HloOp τ sig Val → Prop} {a b : List (HloOp τ sig Val)} (ha : a.Forall P) (hb : b.Forall P) :
    (a ++ b).Forall P := List.forall_append.2 ⟨ha, hb⟩

/-- Every operation of a literal list of the builders' operations touches TensorCore references only: the list's
    conjunction split, each conjunct its builder's `_bufs_sub`. -/
macro "ops_bufs_sub" : tactic =>
  `(tactic| ((repeat' apply And.intro) <;> (show HloOp.bufs _ ⊆ _) <;> with_reducible first
      | exact nullary_bufs_sub .. | exact unary_bufs_sub .. | exact binary_bufs_sub .. | exact ternary_bufs_sub ..
      | exact reshape_bufs_sub .. | exact nary_bufs_sub .. | exact quaternary_bufs_sub ..))

/-- Every operation of a literal list of the builders' operations determines what it writes (none is an
    `allocateBuffer`): each builder's `fresh` is `∅` by definition. -/
macro "ops_fresh" : tactic => `(tactic| ((repeat' apply And.intro) <;> rfl))

/-- No operation of a literal list of the builders' operations writes a given reference: each writes its one result
    (`_writes`, by definition), a different reference by computation. -/
macro "ops_keep" : tactic => `(tactic| ((repeat' apply And.intro) <;> exact not_mem_writes rfl (by decide)))

end Cert.ReferenceIdeal.Hand

end
-- ==== Proof.RefRunP0.lean ====
import proofs.«105800_j40716289966699_2_alg».proof.Proof.RefRunOpsP0
import proofs.«105800_j40716289966699_2_alg».proof.Proof.RefRunKit

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 0 of @main (statements 1 … 60) is a straight line: the line of its operations, calls inlined,
    and the three facts a run asks of each of them. -/

/-- Window 0's operations, in order: its lists one after the other. -/
abbrev opsP0 : List (HloOp τ sig (Elt F)) :=
  opsP0a ++ (opsP0b ++ (opsP0c ++ opsP0d))

/-- The window is the chain of its lists' lines, the last in tail position: both sides unfold to the same sequence
    of `hlo` steps, the called functions' bodies at their calls. -/
theorem main_part0_chain (c : Dev nD) : main_part0 (F := F) c = (Pipeline.chainK
  [ StableHlo.seq opsP0a, StableHlo.seq opsP0b, StableHlo.seq opsP0c ]
  (StableHlo.seq opsP0d) : Prog (TpuEff nD τ sig (Elt F) (Pipeline.Sig Λ₀ (Fin 0) fun p => (pcfgs (F := F) p).Adm) .tc) PUnit) := by
  chain_rfl

/-- Hence the window is the line of its operations: the chain's lines concatenated, one `seq_append` per list. -/
theorem main_part0_eq (c : Dev nD) : main_part0 (F := F) c
    = (StableHlo.seq opsP0 : Prog (TpuEff nD τ sig (Elt F) (Pipeline.Sig Λ₀ (Fin 0) fun p => (pcfgs (F := F) p).Adm) .tc) PUnit) :=
  (main_part0_chain c).trans <|
    chainK_cons_seq _ _ _ _ <| chainK_cons_seq _ _ _ _ <| chainK_cons_seq _ _ _ _ <| chainK_nil_seq _

/-- Each of the window's operations touches TensorCore references only. -/
theorem opsP0_sub : (opsP0 : List (HloOp τ sig (Elt F))).Forall fun op => op.bufs ⊆ StableHlo.tcRefs τ sig := by
  ops_bufs_sub

/-- Each determines what it writes. -/
theorem opsP0_fresh : (opsP0 : List (HloOp τ sig (Elt F))).Forall fun op => op.fresh = ∅ := by
  ops_fresh

/-- None writes @main's argument. -/
theorem opsP0_keep :
    (opsP0 : List (HloOp τ sig (Elt F))).Forall fun op => (Proc.devRef .tc main_arg0 : DevRef τ sig) ∉ op.writes := by
  ops_keep

end Cert.ReferenceIdeal.Hand

end
-- ==== Proof.RefRunOpsP1.lean ====
import proofs.«105800_j40716289966699_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 1 of @main (60 of its statements) as lists of operations: a list per stretch of @main's own
    statements and a list per call it makes, the callee's operations at that call's buffers (a call nested in
    the callee inlined in place). 11 lists, 73 operations. -/

/-- 1 operation of @main's own, in order. -/
abbrev opsP1a : List (HloOp τ sig (Elt F)) :=
  ( StableHlo.binary main_c_1 main_v46 main_v47 ((fun a b => concatenate S1200000 0 [⟨S1, a⟩, ⟨S1199999, b⟩] concatenates_S1_S1199999_S1200000_d0) : (⟨S1, .i1⟩ : BufTy).Contents (Elt F) → (⟨S1199999, .i1⟩ : BufTy).Contents (Elt F) → (⟨S1200000, .i1⟩ : BufTy).Contents (Elt F))
  :: [] )

/-- The 4 operations of one call of fn_cumsum.body (the call whose record is main_call2), in order. -/
abbrev opsP1b : List (HloOp τ sig (Elt F)) :=
  ( StableHlo.TRef.unary (.of main_v47 : StableHlo.TRef sig ⟨S1200000, .i1⟩) (.of main_call2_v0 : StableHlo.TRef sig ⟨S1200000, .i32⟩) (extui 32 · natLt_1_32)
  :: StableHlo.TRef.nullary (.of main_call2_call0_c : StableHlo.TRef sig ⟨S_, .i32⟩) (constantI S_ 32 0#32)
  :: StableHlo.TRef.unary (.of main_call2_call0_c : StableHlo.TRef sig ⟨S_, .i32⟩) (.of main_call2_call0_v0 : StableHlo.TRef sig ⟨S_, .i32⟩) (broadcastInDim S_ ![] bcast_S_S_)
  :: StableHlo.TRef.binary (.of main_call2_v0 : StableHlo.TRef sig ⟨S1200000, .i32⟩) (.of main_call2_call0_v0 : StableHlo.TRef sig ⟨S_, .i32⟩) (.of main_v48 : StableHlo.TRef sig ⟨S1200000, .i32⟩) (fun x v => Host.reduceWindow IntOp.addi ![1200000] ![1] ![1199999] ![0] x v reduceWindows_S1200000_S1200000_w1200000s1p1199999_0 h_S_)
  :: [] )

/-- 5 operations of @main's own, in order. -/
abbrev opsP1c : List (HloOp τ sig (Elt F)) :=
  ( StableHlo.nullary main_c_11 (constantI S_ 32 1#32)
  :: StableHlo.unary main_c_11 main_v49 (broadcastInDim S1200000 ![] bcast_S_S1200000 : (⟨S_, .i32⟩ : BufTy).Contents (Elt F) → (⟨S1200000, .i32⟩ : BufTy).Contents (Elt F))
  :: StableHlo.binary main_v48 main_v49 main_v50 (subi : (⟨S1200000, .i32⟩ : BufTy).Contents (Elt F) → (⟨S1200000, .i32⟩ : BufTy).Contents (Elt F) → (⟨S1200000, .i32⟩ : BufTy).Contents (Elt F))
  :: StableHlo.nullary main_v51 (iotaInDim S1200000 32 0)
  :: StableHlo.nullary main_c_12 (constantI S_ 32 0#32)
  :: [] )

/-- The 3 operations of one call of fn_where.body (the call whose record is main_call3), in order. -/
abbrev opsP1d : List (HloOp τ sig (Elt F)) :=
  ( StableHlo.TRef.unary (.of main_c_12 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S1200000, .i32⟩) (broadcastInDim S1200000 ![] bcast_S_S1200000)
  :: StableHlo.TRef.ternary (.of main_v47 : StableHlo.TRef sig ⟨S1200000, .i1⟩) (.of main_v51 : StableHlo.TRef sig ⟨S1200000, .i32⟩) (.of main_call3_v1 : StableHlo.TRef sig ⟨S1200000, .i32⟩) (.of main_v52 : StableHlo.TRef sig ⟨S1200000, .i32⟩) select
  :: [] )

/-- The 3 operations of one call of fn_cummax.body (the call whose record is main_call4), in order. -/
abbrev opsP1e : List (HloOp τ sig (Elt F)) :=
  ( StableHlo.TRef.nullary (.of main_call4_c : StableHlo.TRef sig ⟨S_, .i32⟩) (constantI S_ 32 2147483648#32)
  :: StableHlo.TRef.unary (.of main_call4_c : StableHlo.TRef sig ⟨S_, .i32⟩) (.of main_call4_v0 : StableHlo.TRef sig ⟨S_, .i32⟩) (broadcastInDim S_ ![] bcast_S_S_)
  :: StableHlo.TRef.binary (.of main_v52 : StableHlo.TRef sig ⟨S1200000, .i32⟩) (.of main_call4_v0 : StableHlo.TRef sig ⟨S_, .i32⟩) (.of main_v53 : StableHlo.TRef sig ⟨S1200000, .i32⟩) (fun x v => Host.reduceWindow IntOp.maxsi ![1200000] ![1] ![1199999] ![0] x v reduceWindows_S1200000_S1200000_w1200000s1p1199999_0 h_S_)
  :: [] )

/-- 14 operations of @main's own, in order. -/
abbrev opsP1f : List (HloOp τ sig (Elt F)) :=
  ( StableHlo.binary main_v51 main_v53 main_v54 (subi : (⟨S1200000, .i32⟩ : BufTy).Contents (Elt F) → (⟨S1200000, .i32⟩ : BufTy).Contents (Elt F) → (⟨S1200000, .i32⟩ : BufTy).Contents (Elt F))
  :: StableHlo.nullary main_c_13 (constantI S_ 32 2147483647#32)
  :: StableHlo.unary main_c_13 main_v55 (broadcastInDim S1200000 ![] bcast_S_S1200000 : (⟨S_, .i32⟩ : BufTy).Contents (Elt F) → (⟨S1200000, .i32⟩ : BufTy).Contents (Elt F))
  :: StableHlo.unary main_v50 main_v56 (broadcastInDim S1200000x1 ![0] bcast_S1200000_S1200000x1_0 : (⟨S1200000, .i32⟩ : BufTy).Contents (Elt F) → (⟨S1200000x1, .i32⟩ : BufTy).Contents (Elt F))
  :: StableHlo.ternary main_v55 main_v56 main_v29 main_v57 ((fun x i u => Host.scatter scatter_S1200000_S1200000x1_S1200000_n_0_0_1 IntOp.minsi x i u) : (⟨S1200000, .i32⟩ : BufTy).Contents (Elt F) → (⟨S1200000x1, .i32⟩ : BufTy).Contents (Elt F) → (⟨S1200000, .i32⟩ : BufTy).Contents (Elt F) → (⟨S1200000, .i32⟩ : BufTy).Contents (Elt F))
  :: StableHlo.unary main_v43 main_v58 ((extui 32 · natLt_1_32) : (⟨S1200000, .i1⟩ : BufTy).Contents (Elt F) → (⟨S1200000, .i32⟩ : BufTy).Contents (Elt F))
  :: StableHlo.nullary main_c_14 (constantI S_ 32 0#32)
  :: StableHlo.unary main_c_14 main_v59 (broadcastInDim S1200000 ![] bcast_S_S1200000 : (⟨S_, .i32⟩ : BufTy).Contents (Elt F) → (⟨S1200000, .i32⟩ : BufTy).Contents (Elt F))
  :: StableHlo.unary main_v50 main_v60 (broadcastInDim S1200000x1 ![0] bcast_S1200000_S1200000x1_0 : (⟨S1200000, .i32⟩ : BufTy).Contents (Elt F) → (⟨S1200000x1, .i32⟩ : BufTy).Contents (Elt F))
  :: StableHlo.ternary main_v59 main_v60 main_v58 main_v61 ((fun x i u => Host.scatter scatter_S1200000_S1200000x1_S1200000_n_0_0_1 IntOp.addi x i u) : (⟨S1200000, .i32⟩ : BufTy).Contents (Elt F) → (⟨S1200000x1, .i32⟩ : BufTy).Contents (Elt F) → (⟨S1200000, .i32⟩ : BufTy).Contents (Elt F) → (⟨S1200000, .i32⟩ : BufTy).Contents (Elt F))
  :: StableHlo.nullary main_c_15 (constantI S_ 32 0#32)
  :: StableHlo.unary main_c_15 main_v62 (broadcastInDim S1200000 ![] bcast_S_S1200000 : (⟨S_, .i32⟩ : BufTy).Contents (Elt F) → (⟨S1200000, .i32⟩ : BufTy).Contents (Elt F))
  :: StableHlo.binary main_v61 main_v62 main_v63 (cmpi .sgt : (⟨S1200000, .i32⟩ : BufTy).Contents (Elt F) → (⟨S1200000, .i32⟩ : BufTy).Contents (Elt F) → (⟨S1200000, .i1⟩ : BufTy).Contents (Elt F))
  :: StableHlo.nullary main_c_16 (constantI S_ 32 1200000#32)
  :: [] )

/-- The 3 operations of one call of fn_where.body (the call whose record is main_call5), in order. -/
abbrev opsP1g : List (HloOp τ sig (Elt F)) :=
  ( StableHlo.TRef.unary (.of main_c_16 : StableHlo.TRef sig ⟨S_, .i32⟩) (.of main_call5_v0 : StableHlo.TRef sig ⟨S_, .i32⟩) id
  :: StableHlo.TRef.unary (.of main_call5_v0 : StableHlo.TRef sig ⟨S_, .i32⟩) (.of main_call5_v1 : StableHlo.TRef sig ⟨S1200000, .i32⟩) (broadcastInDim S1200000 ![] bcast_S_S1200000)
  :: StableHlo.TRef.ternary (.of main_v63 : StableHlo.TRef sig ⟨S1200000, .i1⟩) (.of main_v57 : StableHlo.TRef sig ⟨S1200000, .i32⟩) (.of main_call5_v1 : StableHlo.TRef sig ⟨S1200000, .i32⟩) (.of main_v64 : StableHlo.TRef sig ⟨S1200000, .i32⟩) select
  :: [] )

/-- The 3 operations of one call of fn_argsort.body (the call whose record is main_call6), in order. -/
abbrev opsP1h : List (HloOp τ sig (Elt F)) :=
  ( StableHlo.TRef.nullary (.of main_call6_v0 : StableHlo.TRef sig ⟨S1200000, .i32⟩) (iotaInDim S1200000 32 0)
  :: StableHlo.TRef.binary (.of main_v64 : StableHlo.TRef sig ⟨S1200000, .i32⟩) (.of main_call6_v0 : StableHlo.TRef sig ⟨S1200000, .i32⟩) (.of main_call6_v1_0 : StableHlo.TRef sig ⟨S1200000, .i32⟩) (fun x y => (Host.sort2 S1200000 0 comparator_i32_i32_d0 x y).1)
  :: StableHlo.TRef.binary (.of main_v64 : StableHlo.TRef sig ⟨S1200000, .i32⟩) (.of main_call6_v0 : StableHlo.TRef sig ⟨S1200000, .i32⟩) (.of main_v65 : StableHlo.TRef sig ⟨S1200000, .i32⟩) (fun x y => (Host.sort2 S1200000 0 comparator_i32_i32_d0 x y).2)
  :: [] )

/-- 30 operations of @main's own, in order. -/
abbrev opsP1i : List (HloOp τ sig (Elt F)) :=
  ( StableHlo.nullary main_c_17 (constantI S_ 32 0#32)
  :: StableHlo.unary main_c_17 main_v66 (broadcastInDim S1200000 ![] bcast_S_S1200000 : (⟨S_, .i32⟩ : BufTy).Contents (Elt F) → (⟨S1200000, .i32⟩ : BufTy).Contents (Elt F))
  :: StableHlo.nullary main_v67 (iotaInDim S1200000 32 0)
  :: StableHlo.nullary main_c_18 (constantI S_ 32 0#32)
  :: StableHlo.unary main_c_18 main_v68 (broadcastInDim S1200000 ![] bcast_S_S1200000 : (⟨S_, .i32⟩ : BufTy).Contents (Elt F) → (⟨S1200000, .i32⟩ : BufTy).Contents (Elt F))
  :: StableHlo.binary main_v65 main_v68 main_v69 (cmpi .slt : (⟨S1200000, .i32⟩ : BufTy).Contents (Elt F) → (⟨S1200000, .i32⟩ : BufTy).Contents (Elt F) → (⟨S1200000, .i1⟩ : BufTy).Contents (Elt F))
  :: StableHlo.nullary main_c_19 (constantI S_ 32 1200000#32)
  :: StableHlo.unary main_c_19 main_v70 (broadcastInDim S1200000 ![] bcast_S_S1200000 : (⟨S_, .i32⟩ : BufTy).Contents (Elt F) → (⟨S1200000, .i32⟩ : BufTy).Contents (Elt F))
  :: StableHlo.binary main_v65 main_v70 main_v71 (addi : (⟨S1200000, .i32⟩ : BufTy).Contents (Elt F) → (⟨S1200000, .i32⟩ : BufTy).Contents (Elt F) → (⟨S1200000, .i32⟩ : BufTy).Contents (Elt F))
  :: StableHlo.ternary main_v69 main_v71 main_v65 main_v72 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v72 main_v73 (broadcastInDim S1200000x1 ![0] bcast_S1200000_S1200000x1_0 : (⟨S1200000, .i32⟩ : BufTy).Contents (Elt F) → (⟨S1200000x1, .i32⟩ : BufTy).Contents (Elt F))
  :: StableHlo.ternary main_v66 main_v73 main_v67 main_v74 ((fun x i u => Host.scatter scatter_S1200000_S1200000x1_S1200000_n_0_0_1 (fun _ b => b) x i u) : (⟨S1200000, .i32⟩ : BufTy).Contents (Elt F) → (⟨S1200000x1, .i32⟩ : BufTy).Contents (Elt F) → (⟨S1200000, .i32⟩ : BufTy).Contents (Elt F) → (⟨S1200000, .i32⟩ : BufTy).Contents (Elt F))
  :: StableHlo.nullary main_c_20 (constantI S_ 32 0#32)
  :: StableHlo.unary main_c_20 main_v75 (broadcastInDim S1200000 ![] bcast_S_S1200000 : (⟨S_, .i32⟩ : BufTy).Contents (Elt F) → (⟨S1200000, .i32⟩ : BufTy).Contents (Elt F))
  :: StableHlo.binary main_v50 main_v75 main_v76 (cmpi .slt : (⟨S1200000, .i32⟩ : BufTy).Contents (Elt F) → (⟨S1200000, .i32⟩ : BufTy).Contents (Elt F) → (⟨S1200000, .i1⟩ : BufTy).Contents (Elt F))
  :: StableHlo.nullary main_c_21 (constantI S_ 32 1200000#32)
  :: StableHlo.unary main_c_21 main_v77 (broadcastInDim S1200000 ![] bcast_S_S1200000 : (⟨S_, .i32⟩ : BufTy).Contents (Elt F) → (⟨S1200000, .i32⟩ : BufTy).Contents (Elt F))
  :: StableHlo.binary main_v50 main_v77 main_v78 (addi : (⟨S1200000, .i32⟩ : BufTy).Contents (Elt F) → (⟨S1200000, .i32⟩ : BufTy).Contents (Elt F) → (⟨S1200000, .i32⟩ : BufTy).Contents (Elt F))
  :: StableHlo.ternary main_v76 main_v78 main_v50 main_v79 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v79 main_v80 (broadcastInDim S1200000x1 ![0] bcast_S1200000_S1200000x1_0 : (⟨S1200000, .i32⟩ : BufTy).Contents (Elt F) → (⟨S1200000x1, .i32⟩ : BufTy).Contents (Elt F))
  :: StableHlo.binary main_v74 main_v80 main_v81 ((fun x i => Host.gather gather_S1200000_S1200000x1_S1200000_n_0_n_n_0_1_1 x i) : (⟨S1200000, .i32⟩ : BufTy).Contents (Elt F) → (⟨S1200000x1, .i32⟩ : BufTy).Contents (Elt F) → (⟨S1200000, .i32⟩ : BufTy).Contents (Elt F))
  :: StableHlo.nullary main_c_22 (constantI S_ 32 60000#32)
  :: StableHlo.unary main_c_22 main_v82 (broadcastInDim S1200000 ![] bcast_S_S1200000 : (⟨S_, .i32⟩ : BufTy).Contents (Elt F) → (⟨S1200000, .i32⟩ : BufTy).Contents (Elt F))
  :: StableHlo.binary main_v81 main_v82 main_v83 (cmpi .slt : (⟨S1200000, .i32⟩ : BufTy).Contents (Elt F) → (⟨S1200000, .i32⟩ : BufTy).Contents (Elt F) → (⟨S1200000, .i1⟩ : BufTy).Contents (Elt F))
  :: StableHlo.binary main_v43 main_v83 main_v84 (andi : (⟨S1200000, .i1⟩ : BufTy).Contents (Elt F) → (⟨S1200000, .i1⟩ : BufTy).Contents (Elt F) → (⟨S1200000, .i1⟩ : BufTy).Contents (Elt F))
  :: StableHlo.nullary main_c_23 (constantI S_ 32 32#32)
  :: StableHlo.unary main_c_23 main_v85 (broadcastInDim S1200000 ![] bcast_S_S1200000 : (⟨S_, .i32⟩ : BufTy).Contents (Elt F) → (⟨S1200000, .i32⟩ : BufTy).Contents (Elt F))
  :: StableHlo.binary main_v54 main_v85 main_v86 (cmpi .slt : (⟨S1200000, .i32⟩ : BufTy).Contents (Elt F) → (⟨S1200000, .i32⟩ : BufTy).Contents (Elt F) → (⟨S1200000, .i1⟩ : BufTy).Contents (Elt F))
  :: StableHlo.binary main_v84 main_v86 main_v87 (andi : (⟨S1200000, .i1⟩ : BufTy).Contents (Elt F) → (⟨S1200000, .i1⟩ : BufTy).Contents (Elt F) → (⟨S1200000, .i1⟩ : BufTy).Contents (Elt F))
  :: StableHlo.nullary main_c_24 (constantI S_ 32 60000#32)
  :: [] )

/-- The 3 operations of one call of fn_where.body (the call whose record is main_call7), in order. -/
abbrev opsP1j : List (HloOp τ sig (Elt F)) :=
  ( StableHlo.TRef.unary (.of main_c_24 : StableHlo.TRef sig ⟨S_, .i32⟩) (.of main_call7_v0 : StableHlo.TRef sig ⟨S_, .i32⟩) id
  :: StableHlo.TRef.unary (.of main_call7_v0 : StableHlo.TRef sig ⟨S_, .i32⟩) (.of main_call7_v1 : StableHlo.TRef sig ⟨S1200000, .i32⟩) (broadcastInDim S1200000 ![] bcast_S_S1200000)
  :: StableHlo.TRef.ternary (.of main_v87 : StableHlo.TRef sig ⟨S1200000, .i1⟩) (.of main_v81 : StableHlo.TRef sig ⟨S1200000, .i32⟩) (.of main_call7_v1 : StableHlo.TRef sig ⟨S1200000, .i32⟩) (.of main_v88 : StableHlo.TRef sig ⟨S1200000, .i32⟩) select
  :: [] )

/-- 4 operations of @main's own, in order. -/
abbrev opsP1k : List (HloOp τ sig (Elt F)) :=
  ( StableHlo.nullary main_cst_25 (constant S_ .f32 0x00000000#32)
  :: StableHlo.unary main_cst_25 main_v89 (broadcastInDim S60000x32x4 ![] bcast_S_S60000x32x4 : (⟨S_, .f32⟩ : BufTy).Contents (Elt F) → (⟨S60000x32x4, .f32⟩ : BufTy).Contents (Elt F))
  :: StableHlo.nullary main_c_26 (constantI S_ 32 31#32)
  :: StableHlo.unary main_c_26 main_v90 (broadcastInDim S1200000 ![] bcast_S_S1200000 : (⟨S_, .i32⟩ : BufTy).Contents (Elt F) → (⟨S1200000, .i32⟩ : BufTy).Contents (Elt F))
  :: [] )

end Cert.ReferenceIdeal.Hand

end
-- ==== Proof.RefRunP1.lean ====
import proofs.«105800_j40716289966699_2_alg».proof.Proof.RefRunOpsP1
import proofs.«105800_j40716289966699_2_alg».proof.Proof.RefRunKit

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 1 of @main (statements 61 … 120) is a straight line: the line of its operations, calls inlined,
    and the three facts a run asks of each of them. -/

/-- Window 1's operations, in order: its lists one after the other. -/
abbrev opsP1 : List (HloOp τ sig (Elt F)) :=
  opsP1a ++ (opsP1b ++ (opsP1c ++ (opsP1d ++ (opsP1e ++ (opsP1f ++ (opsP1g ++ (opsP1h ++ (opsP1i ++ (opsP1j ++ opsP1k)))))))))

/-- The window is the chain of its lists' lines, the last in tail position: both sides unfold to the same sequence
    of `hlo` steps, the called functions' bodies at their calls. -/
theorem main_part1_chain (c : Dev nD) : main_part1 (F := F) c = (Pipeline.chainK
  [ StableHlo.seq opsP1a, StableHlo.seq opsP1b, StableHlo.seq opsP1c, StableHlo.seq opsP1d, StableHlo.seq opsP1e,
    StableHlo.seq opsP1f, StableHlo.seq opsP1g, StableHlo.seq opsP1h, StableHlo.seq opsP1i, StableHlo.seq opsP1j ]
  (StableHlo.seq opsP1k) : Prog (TpuEff nD τ sig (Elt F) (Pipeline.Sig Λ₀ (Fin 0) fun p => (pcfgs (F := F) p).Adm) .tc) PUnit) := by
  chain_rfl

/-- Hence the window is the line of its operations: the chain's lines concatenated, one `seq_append` per list. -/
theorem main_part1_eq (c : Dev nD) : main_part1 (F := F) c
    = (StableHlo.seq opsP1 : Prog (TpuEff nD τ sig (Elt F) (Pipeline.Sig Λ₀ (Fin 0) fun p => (pcfgs (F := F) p).Adm) .tc) PUnit) :=
  (main_part1_chain c).trans <|
    chainK_cons_seq _ _ _ _ <| chainK_cons_seq _ _ _ _ <| chainK_cons_seq _ _ _ _ <| chainK_cons_seq _ _ _ _ <|
    chainK_cons_seq _ _ _ _ <| chainK_cons_seq _ _ _ _ <| chainK_cons_seq _ _ _ _ <| chainK_cons_seq _ _ _ _ <|
    chainK_cons_seq _ _ _ _ <| chainK_cons_seq _ _ _ _ <| chainK_nil_seq _

/-- Each of the window's operations touches TensorCore references only. -/
theorem opsP1_sub : (opsP1 : List (HloOp τ sig (Elt F))).Forall fun op => op.bufs ⊆ StableHlo.tcRefs τ sig := by
  ops_bufs_sub

/-- Each determines what it writes. -/
theorem opsP1_fresh : (opsP1 : List (HloOp τ sig (Elt F))).Forall fun op => op.fresh = ∅ := by
  ops_fresh

/-- None writes @main's argument. -/
theorem opsP1_keep :
    (opsP1 : List (HloOp τ sig (Elt F))).Forall fun op => (Proc.devRef .tc main_arg0 : DevRef τ sig) ∉ op.writes := by
  ops_keep

end Cert.ReferenceIdeal.Hand

end
-- ==== Proof.RefRunOpsP2.lean ====
import proofs.«105800_j40716289966699_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 2 of @main (60 of its statements) as lists of operations: a list per stretch of @main's own
    statements and a list per call it makes, the callee's operations at that call's buffers (a call nested in
    the callee inlined in place). 11 lists, 134 operations. -/

/-- 29 operations of @main's own, in order. -/
abbrev opsP2a : List (HloOp τ sig (Elt F)) :=
  ( StableHlo.binary main_v54 main_v90 main_v91 (minsi : (⟨S1200000, .i32⟩ : BufTy).Contents (Elt F) → (⟨S1200000, .i32⟩ : BufTy).Contents (Elt F) → (⟨S1200000, .i32⟩ : BufTy).Contents (Elt F))
  :: StableHlo.nullary main_c_27 (constantI S_ 32 0#32)
  :: StableHlo.unary main_c_27 main_v92 (broadcastInDim S1200000 ![] bcast_S_S1200000 : (⟨S_, .i32⟩ : BufTy).Contents (Elt F) → (⟨S1200000, .i32⟩ : BufTy).Contents (Elt F))
  :: StableHlo.binary main_v29 main_v92 main_v93 (cmpi .slt : (⟨S1200000, .i32⟩ : BufTy).Contents (Elt F) → (⟨S1200000, .i32⟩ : BufTy).Contents (Elt F) → (⟨S1200000, .i1⟩ : BufTy).Contents (Elt F))
  :: StableHlo.nullary main_c_28 (constantI S_ 32 1200000#32)
  :: StableHlo.unary main_c_28 main_v94 (broadcastInDim S1200000 ![] bcast_S_S1200000 : (⟨S_, .i32⟩ : BufTy).Contents (Elt F) → (⟨S1200000, .i32⟩ : BufTy).Contents (Elt F))
  :: StableHlo.binary main_v29 main_v94 main_v95 (addi : (⟨S1200000, .i32⟩ : BufTy).Contents (Elt F) → (⟨S1200000, .i32⟩ : BufTy).Contents (Elt F) → (⟨S1200000, .i32⟩ : BufTy).Contents (Elt F))
  :: StableHlo.ternary main_v93 main_v95 main_v29 main_v96 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v96 main_v97 (broadcastInDim S1200000x1 ![0] bcast_S1200000_S1200000x1_0 : (⟨S1200000, .i32⟩ : BufTy).Contents (Elt F) → (⟨S1200000x1, .i32⟩ : BufTy).Contents (Elt F))
  :: StableHlo.binary main_arg0 main_v97 main_v98 ((fun x i => Host.gather gather_S1200000x4_S1200000x1_S1200000x4_1_0_n_n_0_1_14 x i) : (⟨S1200000x4, .f32⟩ : BufTy).Contents (Elt F) → (⟨S1200000x1, .i32⟩ : BufTy).Contents (Elt F) → (⟨S1200000x4, .f32⟩ : BufTy).Contents (Elt F))
  :: StableHlo.nullary main_c_29 (constantI S_ 32 0#32)
  :: StableHlo.unary main_c_29 main_v99 (broadcastInDim S1200000 ![] bcast_S_S1200000 : (⟨S_, .i32⟩ : BufTy).Contents (Elt F) → (⟨S1200000, .i32⟩ : BufTy).Contents (Elt F))
  :: StableHlo.binary main_v88 main_v99 main_v100 (cmpi .slt : (⟨S1200000, .i32⟩ : BufTy).Contents (Elt F) → (⟨S1200000, .i32⟩ : BufTy).Contents (Elt F) → (⟨S1200000, .i1⟩ : BufTy).Contents (Elt F))
  :: StableHlo.nullary main_c_30 (constantI S_ 32 60000#32)
  :: StableHlo.unary main_c_30 main_v101 (broadcastInDim S1200000 ![] bcast_S_S1200000 : (⟨S_, .i32⟩ : BufTy).Contents (Elt F) → (⟨S1200000, .i32⟩ : BufTy).Contents (Elt F))
  :: StableHlo.binary main_v88 main_v101 main_v102 (addi : (⟨S1200000, .i32⟩ : BufTy).Contents (Elt F) → (⟨S1200000, .i32⟩ : BufTy).Contents (Elt F) → (⟨S1200000, .i32⟩ : BufTy).Contents (Elt F))
  :: StableHlo.ternary main_v100 main_v102 main_v88 main_v103 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.nullary main_c_31 (constantI S_ 32 0#32)
  :: StableHlo.unary main_c_31 main_v104 (broadcastInDim S1200000 ![] bcast_S_S1200000 : (⟨S_, .i32⟩ : BufTy).Contents (Elt F) → (⟨S1200000, .i32⟩ : BufTy).Contents (Elt F))
  :: StableHlo.binary main_v91 main_v104 main_v105 (cmpi .slt : (⟨S1200000, .i32⟩ : BufTy).Contents (Elt F) → (⟨S1200000, .i32⟩ : BufTy).Contents (Elt F) → (⟨S1200000, .i1⟩ : BufTy).Contents (Elt F))
  :: StableHlo.nullary main_c_32 (constantI S_ 32 32#32)
  :: StableHlo.unary main_c_32 main_v106 (broadcastInDim S1200000 ![] bcast_S_S1200000 : (⟨S_, .i32⟩ : BufTy).Contents (Elt F) → (⟨S1200000, .i32⟩ : BufTy).Contents (Elt F))
  :: StableHlo.binary main_v91 main_v106 main_v107 (addi : (⟨S1200000, .i32⟩ : BufTy).Contents (Elt F) → (⟨S1200000, .i32⟩ : BufTy).Contents (Elt F) → (⟨S1200000, .i32⟩ : BufTy).Contents (Elt F))
  :: StableHlo.ternary main_v105 main_v107 main_v91 main_v108 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v103 main_v109 (broadcastInDim S1200000x1 ![0] bcast_S1200000_S1200000x1_0 : (⟨S1200000, .i32⟩ : BufTy).Contents (Elt F) → (⟨S1200000x1, .i32⟩ : BufTy).Contents (Elt F))
  :: StableHlo.unary main_v108 main_v110 (broadcastInDim S1200000x1 ![0] bcast_S1200000_S1200000x1_0 : (⟨S1200000, .i32⟩ : BufTy).Contents (Elt F) → (⟨S1200000x1, .i32⟩ : BufTy).Contents (Elt F))
  :: StableHlo.binary main_v109 main_v110 main_v111 ((fun a b => concatenate S1200000x2 1 [⟨S1200000x1, a⟩, ⟨S1200000x1, b⟩] concatenates_S1200000x1_S1200000x1_S1200000x2_d1) : (⟨S1200000x1, .i32⟩ : BufTy).Contents (Elt F) → (⟨S1200000x1, .i32⟩ : BufTy).Contents (Elt F) → (⟨S1200000x2, .i32⟩ : BufTy).Contents (Elt F))
  :: StableHlo.ternary main_v89 main_v111 main_v98 main_v112 ((fun x i u => Host.scatter scatter_S60000x32x4_S1200000x2_S1200000x4_1_01_01_1 (fun _ b => b) x i u) : (⟨S60000x32x4, .f32⟩ : BufTy).Contents (Elt F) → (⟨S1200000x2, .i32⟩ : BufTy).Contents (Elt F) → (⟨S1200000x4, .f32⟩ : BufTy).Contents (Elt F) → (⟨S60000x32x4, .f32⟩ : BufTy).Contents (Elt F))
  :: StableHlo.nullary main_c_33 (constantI S_ 32 60000#32)
  :: [] )

/-- The 3 operations of one call of fn_where.body (the call whose record is main_call8), in order. -/
abbrev opsP2b : List (HloOp τ sig (Elt F)) :=
  ( StableHlo.TRef.unary (.of main_c_33 : StableHlo.TRef sig ⟨S_, .i32⟩) (.of main_call8_v0 : StableHlo.TRef sig ⟨S_, .i32⟩) id
  :: StableHlo.TRef.unary (.of main_call8_v0 : StableHlo.TRef sig ⟨S_, .i32⟩) (.of main_call8_v1 : StableHlo.TRef sig ⟨S1200000, .i32⟩) (broadcastInDim S1200000 ![] bcast_S_S1200000)
  :: StableHlo.TRef.ternary (.of main_v63 : StableHlo.TRef sig ⟨S1200000, .i1⟩) (.of main_v74 : StableHlo.TRef sig ⟨S1200000, .i32⟩) (.of main_call8_v1 : StableHlo.TRef sig ⟨S1200000, .i32⟩) (.of main_v113 : StableHlo.TRef sig ⟨S1200000, .i32⟩) select
  :: [] )

/-- 19 operations of @main's own, in order. -/
abbrev opsP2c : List (HloOp τ sig (Elt F)) :=
  ( StableHlo.nullary main_c_34 (constantI S_ 32 0#32)
  :: StableHlo.unary main_c_34 main_v114 (broadcastInDim S60000 ![] bcast_S_S60000 : (⟨S_, .i32⟩ : BufTy).Contents (Elt F) → (⟨S60000, .i32⟩ : BufTy).Contents (Elt F))
  :: StableHlo.nullary main_c_35 (constantI S_ 32 32#32)
  :: StableHlo.unary main_c_35 main_v115 (broadcastInDim S1200000 ![] bcast_S_S1200000 : (⟨S_, .i32⟩ : BufTy).Contents (Elt F) → (⟨S1200000, .i32⟩ : BufTy).Contents (Elt F))
  :: StableHlo.binary main_v61 main_v115 main_v116 (minsi : (⟨S1200000, .i32⟩ : BufTy).Contents (Elt F) → (⟨S1200000, .i32⟩ : BufTy).Contents (Elt F) → (⟨S1200000, .i32⟩ : BufTy).Contents (Elt F))
  :: StableHlo.nullary main_c_36 (constantI S_ 32 0#32)
  :: StableHlo.unary main_c_36 main_v117 (broadcastInDim S1200000 ![] bcast_S_S1200000 : (⟨S_, .i32⟩ : BufTy).Contents (Elt F) → (⟨S1200000, .i32⟩ : BufTy).Contents (Elt F))
  :: StableHlo.binary main_v113 main_v117 main_v118 (cmpi .slt : (⟨S1200000, .i32⟩ : BufTy).Contents (Elt F) → (⟨S1200000, .i32⟩ : BufTy).Contents (Elt F) → (⟨S1200000, .i1⟩ : BufTy).Contents (Elt F))
  :: StableHlo.nullary main_c_37 (constantI S_ 32 60000#32)
  :: StableHlo.unary main_c_37 main_v119 (broadcastInDim S1200000 ![] bcast_S_S1200000 : (⟨S_, .i32⟩ : BufTy).Contents (Elt F) → (⟨S1200000, .i32⟩ : BufTy).Contents (Elt F))
  :: StableHlo.binary main_v113 main_v119 main_v120 (addi : (⟨S1200000, .i32⟩ : BufTy).Contents (Elt F) → (⟨S1200000, .i32⟩ : BufTy).Contents (Elt F) → (⟨S1200000, .i32⟩ : BufTy).Contents (Elt F))
  :: StableHlo.ternary main_v118 main_v120 main_v113 main_v121 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v121 main_v122 (broadcastInDim S1200000x1 ![0] bcast_S1200000_S1200000x1_0 : (⟨S1200000, .i32⟩ : BufTy).Contents (Elt F) → (⟨S1200000x1, .i32⟩ : BufTy).Contents (Elt F))
  :: StableHlo.ternary main_v114 main_v122 main_v116 main_v123 ((fun x i u => Host.scatter scatter_S60000_S1200000x1_S1200000_n_0_0_1 (fun _ b => b) x i u) : (⟨S60000, .i32⟩ : BufTy).Contents (Elt F) → (⟨S1200000x1, .i32⟩ : BufTy).Contents (Elt F) → (⟨S1200000, .i32⟩ : BufTy).Contents (Elt F) → (⟨S60000, .i32⟩ : BufTy).Contents (Elt F))
  :: StableHlo.nullary main_c_38 (constantI S_ 32 2147483647#32)
  :: StableHlo.unary main_c_38 main_v124 (broadcastInDim S1200000 ![] bcast_S_S1200000 : (⟨S_, .i32⟩ : BufTy).Contents (Elt F) → (⟨S1200000, .i32⟩ : BufTy).Contents (Elt F))
  :: StableHlo.unary main_v50 main_v125 (broadcastInDim S1200000x1 ![0] bcast_S1200000_S1200000x1_0 : (⟨S1200000, .i32⟩ : BufTy).Contents (Elt F) → (⟨S1200000x1, .i32⟩ : BufTy).Contents (Elt F))
  :: StableHlo.ternary main_v124 main_v125 main_v36 main_v126 ((fun x i u => Host.scatter scatter_S1200000_S1200000x1_S1200000_n_0_0_1 IntOp.minsi x i u) : (⟨S1200000, .i32⟩ : BufTy).Contents (Elt F) → (⟨S1200000x1, .i32⟩ : BufTy).Contents (Elt F) → (⟨S1200000, .i32⟩ : BufTy).Contents (Elt F) → (⟨S1200000, .i32⟩ : BufTy).Contents (Elt F))
  :: StableHlo.nullary main_c_39 (constantI S_ 32 40#32)
  :: [] )

/-- The 21 operations of one call of fn_remainder.body (the call whose record is main_call9), in order. -/
abbrev opsP2d : List (HloOp τ sig (Elt F)) :=
  ( StableHlo.TRef.unary (.of main_c_39 : StableHlo.TRef sig ⟨S_, .i32⟩) (.of main_call9_v0 : StableHlo.TRef sig ⟨S_, .i32⟩) id
  :: StableHlo.TRef.nullary (.of main_call9_c : StableHlo.TRef sig ⟨S_, .i32⟩) (constantI S_ 32 0#32)
  :: StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq)
  :: StableHlo.TRef.nullary (.of main_call9_c_0 : StableHlo.TRef sig ⟨S_, .i32⟩) (constantI S_ 32 1#32)
  :: StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select
  :: StableHlo.TRef.unary (.of main_call9_v2 : StableHlo.TRef sig ⟨S_, .i32⟩) (.of main_call9_v3 : StableHlo.TRef sig ⟨S1200000, .i32⟩) (broadcastInDim S1200000 ![] bcast_S_S1200000)
  :: StableHlo.TRef.binary (.of main_v126 : StableHlo.TRef sig ⟨S1200000, .i32⟩) (.of main_call9_v3 : StableHlo.TRef sig ⟨S1200000, .i32⟩) (.of main_call9_v4 : StableHlo.TRef sig ⟨S1200000, .i32⟩) Host.remsi
  :: StableHlo.TRef.nullary (.of main_call9_c_1 : StableHlo.TRef sig ⟨S_, .i32⟩) (constantI S_ 32 0#32)
  :: StableHlo.TRef.unary (.of main_call9_c_1 : StableHlo.TRef sig ⟨S_, .i32⟩) (.of main_call9_v5 : StableHlo.TRef sig ⟨S1200000, .i32⟩) (broadcastInDim S1200000 ![] bcast_S_S1200000)
  :: StableHlo.TRef.binary (.of main_call9_v4 : StableHlo.TRef sig ⟨S1200000, .i32⟩) (.of main_call9_v5 : StableHlo.TRef sig ⟨S1200000, .i32⟩) (.of main_call9_v6 : StableHlo.TRef sig ⟨S1200000, .i1⟩) (cmpi .ne)
  :: StableHlo.TRef.nullary (.of main_call9_c_2 : StableHlo.TRef sig ⟨S_, .i32⟩) (constantI S_ 32 0#32)
  :: StableHlo.TRef.unary (.of main_call9_c_2 : StableHlo.TRef sig ⟨S_, .i32⟩) (.of main_call9_v7 : StableHlo.TRef sig ⟨S1200000, .i32⟩) (broadcastInDim S1200000 ![] bcast_S_S1200000)
  :: StableHlo.TRef.binary (.of main_call9_v4 : StableHlo.TRef sig ⟨S1200000, .i32⟩) (.of main_call9_v7 : StableHlo.TRef sig ⟨S1200000, .i32⟩) (.of main_call9_v8 : StableHlo.TRef sig ⟨S1200000, .i1⟩) (cmpi .slt)
  :: StableHlo.TRef.nullary (.of main_call9_c_3 : StableHlo.TRef sig ⟨S_, .i32⟩) (constantI S_ 32 0#32)
  :: StableHlo.TRef.binary (.of main_call9_v2 : StableHlo.TRef sig ⟨S_, .i32⟩) (.of main_call9_c_3 : StableHlo.TRef sig ⟨S_, .i32⟩) (.of main_call9_v9 : StableHlo.TRef sig ⟨S_, .i1⟩) (cmpi .slt)
  :: StableHlo.TRef.unary (.of main_call9_v9 : StableHlo.TRef sig ⟨S_, .i1⟩) (.of main_call9_v10 : StableHlo.TRef sig ⟨S1200000, .i1⟩) (broadcastInDim S1200000 ![] bcast_S_S1200000)
  :: StableHlo.TRef.binary (.of main_call9_v8 : StableHlo.TRef sig ⟨S1200000, .i1⟩) (.of main_call9_v10 : StableHlo.TRef sig ⟨S1200000, .i1⟩) (.of main_call9_v11 : StableHlo.TRef sig ⟨S1200000, .i1⟩) (cmpi .ne)
  :: StableHlo.TRef.binary (.of main_call9_v11 : StableHlo.TRef sig ⟨S1200000, .i1⟩) (.of main_call9_v6 : StableHlo.TRef sig ⟨S1200000, .i1⟩) (.of main_call9_v12 : StableHlo.TRef sig ⟨S1200000, .i1⟩) andi
  :: StableHlo.TRef.unary (.of main_call9_v2 : StableHlo.TRef sig ⟨S_, .i32⟩) (.of main_call9_v13 : StableHlo.TRef sig ⟨S1200000, .i32⟩) (broadcastInDim S1200000 ![] bcast_S_S1200000)
  :: StableHlo.TRef.binary (.of main_call9_v4 : StableHlo.TRef sig ⟨S1200000, .i32⟩) (.of main_call9_v13 : StableHlo.TRef sig ⟨S1200000, .i32⟩) (.of main_call9_v14 : StableHlo.TRef sig ⟨S1200000, .i32⟩) addi
  :: StableHlo.TRef.ternary (.of main_call9_v12 : StableHlo.TRef sig ⟨S1200000, .i1⟩) (.of main_call9_v14 : StableHlo.TRef sig ⟨S1200000, .i32⟩) (.of main_call9_v4 : StableHlo.TRef sig ⟨S1200000, .i32⟩) (.of main_v127 : StableHlo.TRef sig ⟨S1200000, .i32⟩) select
  :: [] )

/-- 1 operation of @main's own, in order. -/
abbrev opsP2e : List (HloOp τ sig (Elt F)) :=
  ( StableHlo.nullary main_c_40 (constantI S_ 32 40#32)
  :: [] )

/-- The 17 operations of one call of fn_floor_divide.body (the call whose record is main_call10), in order. -/
abbrev opsP2f : List (HloOp τ sig (Elt F)) :=
  ( StableHlo.TRef.unary (.of main_c_40 : StableHlo.TRef sig ⟨S_, .i32⟩) (.of main_call10_v0 : StableHlo.TRef sig ⟨S_, .i32⟩) id
  :: StableHlo.TRef.unary (.of main_call10_v0 : StableHlo.TRef sig ⟨S_, .i32⟩) (.of main_call10_v1 : StableHlo.TRef sig ⟨S1200000, .i32⟩) (broadcastInDim S1200000 ![] bcast_S_S1200000)
  :: StableHlo.TRef.binary (.of main_v126 : StableHlo.TRef sig ⟨S1200000, .i32⟩) (.of main_call10_v1 : StableHlo.TRef sig ⟨S1200000, .i32⟩) (.of main_call10_v2 : StableHlo.TRef sig ⟨S1200000, .i32⟩) Host.divsi
  :: StableHlo.TRef.unary (.of main_v126 : StableHlo.TRef sig ⟨S1200000, .i32⟩) (.of main_call10_v3 : StableHlo.TRef sig ⟨S1200000, .i32⟩) signi
  :: StableHlo.TRef.unary (.of main_call10_v0 : StableHlo.TRef sig ⟨S_, .i32⟩) (.of main_call10_v4 : StableHlo.TRef sig ⟨S_, .i32⟩) signi
  :: StableHlo.TRef.unary (.of main_call10_v4 : StableHlo.TRef sig ⟨S_, .i32⟩) (.of main_call10_v5 : StableHlo.TRef sig ⟨S1200000, .i32⟩) (broadcastInDim S1200000 ![] bcast_S_S1200000)
  :: StableHlo.TRef.binary (.of main_call10_v3 : StableHlo.TRef sig ⟨S1200000, .i32⟩) (.of main_call10_v5 : StableHlo.TRef sig ⟨S1200000, .i32⟩) (.of main_call10_v6 : StableHlo.TRef sig ⟨S1200000, .i1⟩) (cmpi .ne)
  :: StableHlo.TRef.unary (.of main_call10_v0 : StableHlo.TRef sig ⟨S_, .i32⟩) (.of main_call10_v7 : StableHlo.TRef sig ⟨S1200000, .i32⟩) (broadcastInDim S1200000 ![] bcast_S_S1200000)
  :: StableHlo.TRef.binary (.of main_v126 : StableHlo.TRef sig ⟨S1200000, .i32⟩) (.of main_call10_v7 : StableHlo.TRef sig ⟨S1200000, .i32⟩) (.of main_call10_v8 : StableHlo.TRef sig ⟨S1200000, .i32⟩) Host.remsi
  :: StableHlo.TRef.nullary (.of main_call10_c : StableHlo.TRef sig ⟨S_, .i32⟩) (constantI S_ 32 0#32)
  :: StableHlo.TRef.unary (.of main_call10_c : StableHlo.TRef sig ⟨S_, .i32⟩) (.of main_call10_v9 : StableHlo.TRef sig ⟨S1200000, .i32⟩) (broadcastInDim S1200000 ![] bcast_S_S1200000)
  :: StableHlo.TRef.binary (.of main_call10_v8 : StableHlo.TRef sig ⟨S1200000, .i32⟩) (.of main_call10_v9 : StableHlo.TRef sig ⟨S1200000, .i32⟩) (.of main_call10_v10 : StableHlo.TRef sig ⟨S1200000, .i1⟩) (cmpi .ne)
  :: StableHlo.TRef.binary (.of main_call10_v6 : StableHlo.TRef sig ⟨S1200000, .i1⟩) (.of main_call10_v10 : StableHlo.TRef sig ⟨S1200000, .i1⟩) (.of main_call10_v11 : StableHlo.TRef sig ⟨S1200000, .i1⟩) andi
  :: StableHlo.TRef.nullary (.of main_call10_c_0 : StableHlo.TRef sig ⟨S_, .i32⟩) (constantI S_ 32 1#32)
  :: StableHlo.TRef.unary (.of main_call10_c_0 : StableHlo.TRef sig ⟨S_, .i32⟩) (.of main_call10_v12 : StableHlo.TRef sig ⟨S1200000, .i32⟩) (broadcastInDim S1200000 ![] bcast_S_S1200000)
  :: StableHlo.TRef.binary (.of main_call10_v2 : StableHlo.TRef sig ⟨S1200000, .i32⟩) (.of main_call10_v12 : StableHlo.TRef sig ⟨S1200000, .i32⟩) (.of main_call10_v13 : StableHlo.TRef sig ⟨S1200000, .i32⟩) subi
  :: StableHlo.TRef.ternary (.of main_call10_v11 : StableHlo.TRef sig ⟨S1200000, .i1⟩) (.of main_call10_v13 : StableHlo.TRef sig ⟨S1200000, .i32⟩) (.of main_call10_v2 : StableHlo.TRef sig ⟨S1200000, .i32⟩) (.of main_v128 : StableHlo.TRef sig ⟨S1200000, .i32⟩) select
  :: [] )

/-- 1 operation of @main's own, in order. -/
abbrev opsP2g : List (HloOp τ sig (Elt F)) :=
  ( StableHlo.nullary main_c_41 (constantI S_ 32 1024#32)
  :: [] )

/-- The 21 operations of one call of fn_remainder.body (the call whose record is main_call11), in order. -/
abbrev opsP2h : List (HloOp τ sig (Elt F)) :=
  ( StableHlo.TRef.unary (.of main_c_41 : StableHlo.TRef sig ⟨S_, .i32⟩) (.of main_call11_v0 : StableHlo.TRef sig ⟨S_, .i32⟩) id
  :: StableHlo.TRef.nullary (.of main_call11_c : StableHlo.TRef sig ⟨S_, .i32⟩) (constantI S_ 32 0#32)
  :: StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq)
  :: StableHlo.TRef.nullary (.of main_call11_c_0 : StableHlo.TRef sig ⟨S_, .i32⟩) (constantI S_ 32 1#32)
  :: StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select
  :: StableHlo.TRef.unary (.of main_call11_v2 : StableHlo.TRef sig ⟨S_, .i32⟩) (.of main_call11_v3 : StableHlo.TRef sig ⟨S1200000, .i32⟩) (broadcastInDim S1200000 ![] bcast_S_S1200000)
  :: StableHlo.TRef.binary (.of main_v128 : StableHlo.TRef sig ⟨S1200000, .i32⟩) (.of main_call11_v3 : StableHlo.TRef sig ⟨S1200000, .i32⟩) (.of main_call11_v4 : StableHlo.TRef sig ⟨S1200000, .i32⟩) Host.remsi
  :: StableHlo.TRef.nullary (.of main_call11_c_1 : StableHlo.TRef sig ⟨S_, .i32⟩) (constantI S_ 32 0#32)
  :: StableHlo.TRef.unary (.of main_call11_c_1 : StableHlo.TRef sig ⟨S_, .i32⟩) (.of main_call11_v5 : StableHlo.TRef sig ⟨S1200000, .i32⟩) (broadcastInDim S1200000 ![] bcast_S_S1200000)
  :: StableHlo.TRef.binary (.of main_call11_v4 : StableHlo.TRef sig ⟨S1200000, .i32⟩) (.of main_call11_v5 : StableHlo.TRef sig ⟨S1200000, .i32⟩) (.of main_call11_v6 : StableHlo.TRef sig ⟨S1200000, .i1⟩) (cmpi .ne)
  :: StableHlo.TRef.nullary (.of main_call11_c_2 : StableHlo.TRef sig ⟨S_, .i32⟩) (constantI S_ 32 0#32)
  :: StableHlo.TRef.unary (.of main_call11_c_2 : StableHlo.TRef sig ⟨S_, .i32⟩) (.of main_call11_v7 : StableHlo.TRef sig ⟨S1200000, .i32⟩) (broadcastInDim S1200000 ![] bcast_S_S1200000)
  :: StableHlo.TRef.binary (.of main_call11_v4 : StableHlo.TRef sig ⟨S1200000, .i32⟩) (.of main_call11_v7 : StableHlo.TRef sig ⟨S1200000, .i32⟩) (.of main_call11_v8 : StableHlo.TRef sig ⟨S1200000, .i1⟩) (cmpi .slt)
  :: StableHlo.TRef.nullary (.of main_call11_c_3 : StableHlo.TRef sig ⟨S_, .i32⟩) (constantI S_ 32 0#32)
  :: StableHlo.TRef.binary (.of main_call11_v2 : StableHlo.TRef sig ⟨S_, .i32⟩) (.of main_call11_c_3 : StableHlo.TRef sig ⟨S_, .i32⟩) (.of main_call11_v9 : StableHlo.TRef sig ⟨S_, .i1⟩) (cmpi .slt)
  :: StableHlo.TRef.unary (.of main_call11_v9 : StableHlo.TRef sig ⟨S_, .i1⟩) (.of main_call11_v10 : StableHlo.TRef sig ⟨S1200000, .i1⟩) (broadcastInDim S1200000 ![] bcast_S_S1200000)
  :: StableHlo.TRef.binary (.of main_call11_v8 : StableHlo.TRef sig ⟨S1200000, .i1⟩) (.of main_call11_v10 : StableHlo.TRef sig ⟨S1200000, .i1⟩) (.of main_call11_v11 : StableHlo.TRef sig ⟨S1200000, .i1⟩) (cmpi .ne)
  :: StableHlo.TRef.binary (.of main_call11_v11 : StableHlo.TRef sig ⟨S1200000, .i1⟩) (.of main_call11_v6 : StableHlo.TRef sig ⟨S1200000, .i1⟩) (.of main_call11_v12 : StableHlo.TRef sig ⟨S1200000, .i1⟩) andi
  :: StableHlo.TRef.unary (.of main_call11_v2 : StableHlo.TRef sig ⟨S_, .i32⟩) (.of main_call11_v13 : StableHlo.TRef sig ⟨S1200000, .i32⟩) (broadcastInDim S1200000 ![] bcast_S_S1200000)
  :: StableHlo.TRef.binary (.of main_call11_v4 : StableHlo.TRef sig ⟨S1200000, .i32⟩) (.of main_call11_v13 : StableHlo.TRef sig ⟨S1200000, .i32⟩) (.of main_call11_v14 : StableHlo.TRef sig ⟨S1200000, .i32⟩) addi
  :: StableHlo.TRef.ternary (.of main_call11_v12 : StableHlo.TRef sig ⟨S1200000, .i1⟩) (.of main_call11_v14 : StableHlo.TRef sig ⟨S1200000, .i32⟩) (.of main_call11_v4 : StableHlo.TRef sig ⟨S1200000, .i32⟩) (.of main_v129 : StableHlo.TRef sig ⟨S1200000, .i32⟩) select
  :: [] )

/-- 1 operation of @main's own, in order. -/
abbrev opsP2i : List (HloOp τ sig (Elt F)) :=
  ( StableHlo.nullary main_c_42 (constantI S_ 32 40960#32)
  :: [] )

/-- The 17 operations of one call of fn_floor_divide.body (the call whose record is main_call12), in order. -/
abbrev opsP2j : List (HloOp τ sig (Elt F)) :=
  ( StableHlo.TRef.unary (.of main_c_42 : StableHlo.TRef sig ⟨S_, .i32⟩) (.of main_call12_v0 : StableHlo.TRef sig ⟨S_, .i32⟩) id
  :: StableHlo.TRef.unary (.of main_call12_v0 : StableHlo.TRef sig ⟨S_, .i32⟩) (.of main_call12_v1 : StableHlo.TRef sig ⟨S1200000, .i32⟩) (broadcastInDim S1200000 ![] bcast_S_S1200000)
  :: StableHlo.TRef.binary (.of main_v126 : StableHlo.TRef sig ⟨S1200000, .i32⟩) (.of main_call12_v1 : StableHlo.TRef sig ⟨S1200000, .i32⟩) (.of main_call12_v2 : StableHlo.TRef sig ⟨S1200000, .i32⟩) Host.divsi
  :: StableHlo.TRef.unary (.of main_v126 : StableHlo.TRef sig ⟨S1200000, .i32⟩) (.of main_call12_v3 : StableHlo.TRef sig ⟨S1200000, .i32⟩) signi
  :: StableHlo.TRef.unary (.of main_call12_v0 : StableHlo.TRef sig ⟨S_, .i32⟩) (.of main_call12_v4 : StableHlo.TRef sig ⟨S_, .i32⟩) signi
  :: StableHlo.TRef.unary (.of main_call12_v4 : StableHlo.TRef sig ⟨S_, .i32⟩) (.of main_call12_v5 : StableHlo.TRef sig ⟨S1200000, .i32⟩) (broadcastInDim S1200000 ![] bcast_S_S1200000)
  :: StableHlo.TRef.binary (.of main_call12_v3 : StableHlo.TRef sig ⟨S1200000, .i32⟩) (.of main_call12_v5 : StableHlo.TRef sig ⟨S1200000, .i32⟩) (.of main_call12_v6 : StableHlo.TRef sig ⟨S1200000, .i1⟩) (cmpi .ne)
  :: StableHlo.TRef.unary (.of main_call12_v0 : StableHlo.TRef sig ⟨S_, .i32⟩) (.of main_call12_v7 : StableHlo.TRef sig ⟨S1200000, .i32⟩) (broadcastInDim S1200000 ![] bcast_S_S1200000)
  :: StableHlo.TRef.binary (.of main_v126 : StableHlo.TRef sig ⟨S1200000, .i32⟩) (.of main_call12_v7 : StableHlo.TRef sig ⟨S1200000, .i32⟩) (.of main_call12_v8 : StableHlo.TRef sig ⟨S1200000, .i32⟩) Host.remsi
  :: StableHlo.TRef.nullary (.of main_call12_c : StableHlo.TRef sig ⟨S_, .i32⟩) (constantI S_ 32 0#32)
  :: StableHlo.TRef.unary (.of main_call12_c : StableHlo.TRef sig ⟨S_, .i32⟩) (.of main_call12_v9 : StableHlo.TRef sig ⟨S1200000, .i32⟩) (broadcastInDim S1200000 ![] bcast_S_S1200000)
  :: StableHlo.TRef.binary (.of main_call12_v8 : StableHlo.TRef sig ⟨S1200000, .i32⟩) (.of main_call12_v9 : StableHlo.TRef sig ⟨S1200000, .i32⟩) (.of main_call12_v10 : StableHlo.TRef sig ⟨S1200000, .i1⟩) (cmpi .ne)
  :: StableHlo.TRef.binary (.of main_call12_v6 : StableHlo.TRef sig ⟨S1200000, .i1⟩) (.of main_call12_v10 : StableHlo.TRef sig ⟨S1200000, .i1⟩) (.of main_call12_v11 : StableHlo.TRef sig ⟨S1200000, .i1⟩) andi
  :: StableHlo.TRef.nullary (.of main_call12_c_0 : StableHlo.TRef sig ⟨S_, .i32⟩) (constantI S_ 32 1#32)
  :: StableHlo.TRef.unary (.of main_call12_c_0 : StableHlo.TRef sig ⟨S_, .i32⟩) (.of main_call12_v12 : StableHlo.TRef sig ⟨S1200000, .i32⟩) (broadcastInDim S1200000 ![] bcast_S_S1200000)
  :: StableHlo.TRef.binary (.of main_call12_v2 : StableHlo.TRef sig ⟨S1200000, .i32⟩) (.of main_call12_v12 : StableHlo.TRef sig ⟨S1200000, .i32⟩) (.of main_call12_v13 : StableHlo.TRef sig ⟨S1200000, .i32⟩) subi
  :: StableHlo.TRef.ternary (.of main_call12_v11 : StableHlo.TRef sig ⟨S1200000, .i1⟩) (.of main_call12_v13 : StableHlo.TRef sig ⟨S1200000, .i32⟩) (.of main_call12_v2 : StableHlo.TRef sig ⟨S1200000, .i32⟩) (.of main_v130 : StableHlo.TRef sig ⟨S1200000, .i32⟩) select
  :: [] )

/-- 4 operations of @main's own, in order. -/
abbrev opsP2k : List (HloOp τ sig (Elt F)) :=
  ( StableHlo.nullary main_c_43 (constantI S_ 32 0#32)
  :: StableHlo.unary main_c_43 main_v131 (broadcastInDim S60000x3 ![] bcast_S_S60000x3 : (⟨S_, .i32⟩ : BufTy).Contents (Elt F) → (⟨S60000x3, .i32⟩ : BufTy).Contents (Elt F))
  :: StableHlo.unary main_v127 main_v132 (broadcastInDim S1200000x1 ![0] bcast_S1200000_S1200000x1_0 : (⟨S1200000, .i32⟩ : BufTy).Contents (Elt F) → (⟨S1200000x1, .i32⟩ : BufTy).Contents (Elt F))
  :: StableHlo.unary main_v129 main_v133 (broadcastInDim S1200000x1 ![0] bcast_S1200000_S1200000x1_0 : (⟨S1200000, .i32⟩ : BufTy).Contents (Elt F) → (⟨S1200000x1, .i32⟩ : BufTy).Contents (Elt F))
  :: [] )

end Cert.ReferenceIdeal.Hand

end
-- ==== Proof.RefRunP2.lean ====
import proofs.«105800_j40716289966699_2_alg».proof.Proof.RefRunOpsP2
import proofs.«105800_j40716289966699_2_alg».proof.Proof.RefRunKit

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 2 of @main (statements 121 … 180) is a straight line: the line of its operations, calls inlined,
    and the three facts a run asks of each of them. -/

/-- Window 2's operations, in order: its lists one after the other. -/
abbrev opsP2 : List (HloOp τ sig (Elt F)) :=
  opsP2a ++ (opsP2b ++ (opsP2c ++ (opsP2d ++ (opsP2e ++ (opsP2f ++ (opsP2g ++ (opsP2h ++ (opsP2i ++ (opsP2j ++ opsP2k)))))))))

/-- The window is the chain of its lists' lines, the last in tail position: both sides unfold to the same sequence
    of `hlo` steps, the called functions' bodies at their calls. -/
theorem main_part2_chain (c : Dev nD) : main_part2 (F := F) c = (Pipeline.chainK
  [ StableHlo.seq opsP2a, StableHlo.seq opsP2b, StableHlo.seq opsP2c, StableHlo.seq opsP2d, StableHlo.seq opsP2e,
    StableHlo.seq opsP2f, StableHlo.seq opsP2g, StableHlo.seq opsP2h, StableHlo.seq opsP2i, StableHlo.seq opsP2j ]
  (StableHlo.seq opsP2k) : Prog (TpuEff nD τ sig (Elt F) (Pipeline.Sig Λ₀ (Fin 0) fun p => (pcfgs (F := F) p).Adm) .tc) PUnit) := by
  chain_rfl

/-- Hence the window is the line of its operations: the chain's lines concatenated, one `seq_append` per list. -/
theorem main_part2_eq (c : Dev nD) : main_part2 (F := F) c
    = (StableHlo.seq opsP2 : Prog (TpuEff nD τ sig (Elt F) (Pipeline.Sig Λ₀ (Fin 0) fun p => (pcfgs (F := F) p).Adm) .tc) PUnit) :=
  (main_part2_chain c).trans <|
    chainK_cons_seq _ _ _ _ <| chainK_cons_seq _ _ _ _ <| chainK_cons_seq _ _ _ _ <| chainK_cons_seq _ _ _ _ <|
    chainK_cons_seq _ _ _ _ <| chainK_cons_seq _ _ _ _ <| chainK_cons_seq _ _ _ _ <| chainK_cons_seq _ _ _ _ <|
    chainK_cons_seq _ _ _ _ <| chainK_cons_seq _ _ _ _ <| chainK_nil_seq _

/-- Each of the window's operations touches TensorCore references only. -/
theorem opsP2_sub : (opsP2 : List (HloOp τ sig (Elt F))).Forall fun op => op.bufs ⊆ StableHlo.tcRefs τ sig := by
  ops_bufs_sub

/-- Each determines what it writes. -/
theorem opsP2_fresh : (opsP2 : List (HloOp τ sig (Elt F))).Forall fun op => op.fresh = ∅ := by
  ops_fresh

/-- None writes @main's argument. -/
theorem opsP2_keep :
    (opsP2 : List (HloOp τ sig (Elt F))).Forall fun op => (Proc.devRef .tc main_arg0 : DevRef τ sig) ∉ op.writes := by
  ops_keep

end Cert.ReferenceIdeal.Hand

end
-- ==== Proof.RefRunOpsP3.lean ====
import proofs.«105800_j40716289966699_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 3 of @main (16 of its statements, then the return) as lists of operations: a list per stretch of @main's own
    statements and a list per call it makes, the callee's operations at that call's buffers (a call nested in
    the callee inlined in place). 1 lists, 16 operations. -/

/-- 16 operations of @main's own, in order. -/
abbrev opsP3a : List (HloOp τ sig (Elt F)) :=
  ( StableHlo.unary main_v130 main_v134 (broadcastInDim S1200000x1 ![0] bcast_S1200000_S1200000x1_0 : (⟨S1200000, .i32⟩ : BufTy).Contents (Elt F) → (⟨S1200000x1, .i32⟩ : BufTy).Contents (Elt F))
  :: StableHlo.nary ![main_v132, main_v133, main_v134] main_v135 (fun u => concatenate S1200000x3 1 [⟨S1200000x1, u 0⟩, ⟨S1200000x1, u 1⟩, ⟨S1200000x1, u 2⟩] concatenates_S1200000x1_S1200000x1_S1200000x1_S1200000x3_d1)
  :: StableHlo.nullary main_c_44 (constantI S_ 32 0#32)
  :: StableHlo.unary main_c_44 main_v136 (broadcastInDim S1200000 ![] bcast_S_S1200000 : (⟨S_, .i32⟩ : BufTy).Contents (Elt F) → (⟨S1200000, .i32⟩ : BufTy).Contents (Elt F))
  :: StableHlo.binary main_v113 main_v136 main_v137 (cmpi .slt : (⟨S1200000, .i32⟩ : BufTy).Contents (Elt F) → (⟨S1200000, .i32⟩ : BufTy).Contents (Elt F) → (⟨S1200000, .i1⟩ : BufTy).Contents (Elt F))
  :: StableHlo.nullary main_c_45 (constantI S_ 32 60000#32)
  :: StableHlo.unary main_c_45 main_v138 (broadcastInDim S1200000 ![] bcast_S_S1200000 : (⟨S_, .i32⟩ : BufTy).Contents (Elt F) → (⟨S1200000, .i32⟩ : BufTy).Contents (Elt F))
  :: StableHlo.binary main_v113 main_v138 main_v139 (addi : (⟨S1200000, .i32⟩ : BufTy).Contents (Elt F) → (⟨S1200000, .i32⟩ : BufTy).Contents (Elt F) → (⟨S1200000, .i32⟩ : BufTy).Contents (Elt F))
  :: StableHlo.ternary main_v137 main_v139 main_v113 main_v140 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F))
  :: StableHlo.unary main_v140 main_v141 (broadcastInDim S1200000x1 ![0] bcast_S1200000_S1200000x1_0 : (⟨S1200000, .i32⟩ : BufTy).Contents (Elt F) → (⟨S1200000x1, .i32⟩ : BufTy).Contents (Elt F))
  :: StableHlo.ternary main_v131 main_v141 main_v135 main_v142 ((fun x i u => Host.scatter scatter_S60000x3_S1200000x1_S1200000x3_1_0_0_1 (fun _ b => b) x i u) : (⟨S60000x3, .i32⟩ : BufTy).Contents (Elt F) → (⟨S1200000x1, .i32⟩ : BufTy).Contents (Elt F) → (⟨S1200000x3, .i32⟩ : BufTy).Contents (Elt F) → (⟨S60000x3, .i32⟩ : BufTy).Contents (Elt F))
  :: StableHlo.unary main_v63 main_v143 ((extui 32 · natLt_1_32) : (⟨S1200000, .i1⟩ : BufTy).Contents (Elt F) → (⟨S1200000, .i32⟩ : BufTy).Contents (Elt F))
  :: StableHlo.nullary main_c_46 (constantI S_ 32 0#32)
  :: StableHlo.binary main_v143 main_c_46 main_v144 ((fun x v => Host.reduce IntOp.addi x v reducesTo_S1200000_S_d0 h_S_) : (⟨S1200000, .i32⟩ : BufTy).Contents (Elt F) → (⟨S_, .i32⟩ : BufTy).Contents (Elt F) → (⟨S_, .i32⟩ : BufTy).Contents (Elt F))
  :: StableHlo.nullary main_c_47 (constantI S_ 32 60000#32)
  :: StableHlo.binary main_v144 main_c_47 main_v145 (minsi : (⟨S_, .i32⟩ : BufTy).Contents (Elt F) → (⟨S_, .i32⟩ : BufTy).Contents (Elt F) → (⟨S_, .i32⟩ : BufTy).Contents (Elt F))
  :: [] )

end Cert.ReferenceIdeal.Hand

end
-- ==== Proof.RefRunP3.lean ====
import proofs.«105800_j40716289966699_2_alg».proof.Proof.RefRunOpsP3
import proofs.«105800_j40716289966699_2_alg».proof.Proof.RefRunKit

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! Window 3 of @main (statements 181 … 197, then the return) is a straight line: the line of its operations,
    and the three facts a run asks of each of them. -/

/-- Window 3's operations, in order: one list (the window makes no call). -/
abbrev opsP3 : List (HloOp τ sig (Elt F)) :=
  opsP3a

/-- The window is the closed chain of its one list's line (it ends in @main's return): both sides unfold to the same
    sequence of `hlo` steps. -/
theorem main_part3_chain (c : Dev nD) : main_part3 (F := F) c = (Pipeline.chain
  [ StableHlo.seq opsP3a ] : Prog (TpuEff nD τ sig (Elt F) (Pipeline.Sig Λ₀ (Fin 0) fun p => (pcfgs (F := F) p).Adm) .tc) PUnit) := by
  chain_rfl

/-- Hence the window is the line of its operations: the chain's closing return is the line's own. -/
theorem main_part3_eq (c : Dev nD) : main_part3 (F := F) c
    = (StableHlo.seq opsP3 : Prog (TpuEff nD τ sig (Elt F) (Pipeline.Sig Λ₀ (Fin 0) fun p => (pcfgs (F := F) p).Adm) .tc) PUnit) :=
  (main_part3_chain c).trans (chain_single_seq _)

/-- Each of the window's operations touches TensorCore references only. -/
theorem opsP3_sub : (opsP3 : List (HloOp τ sig (Elt F))).Forall fun op => op.bufs ⊆ StableHlo.tcRefs τ sig := by
  ops_bufs_sub

/-- Each determines what it writes. -/
theorem opsP3_fresh : (opsP3 : List (HloOp τ sig (Elt F))).Forall fun op => op.fresh = ∅ := by
  ops_fresh

/-- None writes @main's argument. -/
theorem opsP3_keep :
    (opsP3 : List (HloOp τ sig (Elt F))).Forall fun op => (Proc.devRef .tc main_arg0 : DevRef τ sig) ∉ op.writes := by
  ops_keep

end Cert.ReferenceIdeal.Hand

end
-- ==== Proof.RefRun.lean ====
import proofs.«105800_j40716289966699_2_alg».proof.Proof.RefRunP0
import proofs.«105800_j40716289966699_2_alg».proof.Proof.RefRunP1
import proofs.«105800_j40716289966699_2_alg».proof.Proof.RefRunP2
import proofs.«105800_j40716289966699_2_alg».proof.Proof.RefRunP3
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! The reference's run. @main is a straight line of 287 host operations (its four windows in order, the called
    functions' bodies inlined at their calls); it scopes no buffer and no semaphore. So every weakly fair execution
    of it terminates without fault and leaves each TensorCore buffer at the fold of the operations' results over the
    launch contents (`StableHlo.run_seq`); no operation writes the argument, which therefore ends as it began. -/

/-- @main's 287 operations, in program order, the calls inlined: the four windows' lists one after the other. -/
abbrev ops : List (HloOp τ sig (Elt F)) :=
  opsP0 ++ (opsP1 ++ (opsP2 ++ opsP3))

theorem ops_eq : (ops : List (HloOp τ sig (Elt F))) = opsP0 ++ (opsP1 ++ (opsP2 ++ opsP3)) := rfl

/-- Four programs in a row, each a line, are the line of the concatenation (`seq_append` three times). -/
theorem seq4 {nD : Nat} {τ : Topo} {sig : RefSig} {Val : EltTy → Type} {Λ : Labels}
    (a b c d : Prog (TpuEff nD τ sig Val Λ .tc) PUnit) (A B C D : List (HloOp τ sig Val))
    (ha : a = StableHlo.seq A) (hb : b = StableHlo.seq B) (hc : c = StableHlo.seq C) (hd : d = StableHlo.seq D) :
    (a >>= fun _ => b >>= fun _ => c >>= fun _ => d) = StableHlo.seq (A ++ (B ++ (C ++ D))) := by
  subst ha hb hc hd
  rw [StableHlo.seq_append, StableHlo.seq_append, StableHlo.seq_append]

/-- @main is that straight line: it runs its four windows in order, each the line of its operations. -/
theorem main_eq (c : Dev nD) : main (F := F) c = (StableHlo.seq ops : Prog (TpuEff nD τ sig (Elt F) (Pipeline.Sig Λ₀ (Fin 0) fun p => (pcfgs (F := F) p).Adm) .tc) PUnit) :=
  seq4 _ _ _ _ _ _ _ _ (main_part0_eq c) (main_part1_eq c) (main_part2_eq c) (main_part3_eq c)

-- the enumeration of the signature's 288 references recurses past the default depth
set_option maxRecDepth 4096 in
/-- The signature scopes no TensorCore buffer. -/
theorem scopedRefs_eq : (Finset.univ.filter fun b : Ref sig .tc => b.isScoped) = ∅ := by decide

/-- It scopes no semaphore. -/
theorem scopedSems_eq : (Finset.univ.filter fun sm : SemLoc sig => sm.isScoped .tc) = ∅ := by decide

/-- Each operation touches TensorCore references only. -/
theorem ops_sub : (ops : List (HloOp τ sig (Elt F))).Forall fun op => op.bufs ⊆ StableHlo.tcRefs τ sig :=
  forall_append opsP0_sub (forall_append opsP1_sub (forall_append opsP2_sub opsP3_sub))

/-- Each determines what it writes. -/
theorem ops_fresh : (ops : List (HloOp τ sig (Elt F))).Forall fun op => op.fresh = ∅ :=
  forall_append opsP0_fresh (forall_append opsP1_fresh (forall_append opsP2_fresh opsP3_fresh))

/-- None writes @main's argument. -/
theorem ops_keep :
    (ops : List (HloOp τ sig (Elt F))).Forall fun op => (Proc.devRef .tc main_arg0 : DevRef τ sig) ∉ op.writes :=
  forall_append opsP0_keep (forall_append opsP1_keep (forall_append opsP2_keep opsP3_keep))

/-- On every device, for any float values, from any memory with zero counters: every weakly fair execution of
    @main terminates without fault, and every final state has each TensorCore buffer at the fold of the
    operations' results over the launch contents. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc),
        r.2.mem ((c.tc : Thread nD τ).loc b) = StableHlo.after ops (StableHlo.launchContents m c) (Proc.devRef .tc b)) :=
  StableHlo.run_seq scopedRefs_eq scopedSems_eq defs main (fun _ => ops) main_eq (fun _ => ops_sub) m ρ
    (fun _ => List.forall_iff_forall_mem.1 ops_fresh)

/-- The fold leaves the argument as it was: no operation writes it. -/
theorem kept_arg0 (V : Valuation τ sig (Elt F)) :
    StableHlo.after ops V (Proc.devRef .tc main_arg0) = V (Proc.devRef .tc main_arg0) :=
  StableHlo.after_of_forall_not_mem ops V (List.forall_iff_forall_mem.1 ops_keep)

/-- @main runs, and its argument ends unchanged. -/
theorem frame (m : (ℓ : Loc nD τ sig) → Buf (Elt F) ℓ) (ρ : Dev nD → PrngReg) :
    θ_run (defs (F := F)) (onTc (τ := τ) (main (F := F))) ⟨m, fun _ => 0, ρ⟩
      (fun r => ∀ c : Dev nD,
        r.2.mem ((c.tc : Thread nD τ).loc main_arg0) = m ((c.tc : Thread nD τ).loc main_arg0)) :=
  (θ_run defs _ _).mono (fun _ h c => (h c main_arg0).trans (kept_arg0 _)) (run m ρ)

/-! ## The fold in stages

`StableHlo.after` over a concatenation is the folds one after the other (`StableHlo.after_append`): over @main's
operations it is the four windows' folds in order, and a window's is its lists' in order. Each list's fold stays folded. -/

theorem after_ops (V : Valuation τ sig (Elt F)) :
    StableHlo.after ops V = StableHlo.after opsP3 (StableHlo.after opsP2 (StableHlo.after opsP1 (StableHlo.after opsP0 V))) :=
  (StableHlo.after_append opsP0 _ V).trans <| (StableHlo.after_append opsP1 _ _).trans <| StableHlo.after_append opsP2 opsP3 _

theorem after_opsP0 (V : Valuation τ sig (Elt F)) :
    StableHlo.after opsP0 V = StableHlo.after opsP0d (StableHlo.after opsP0c (StableHlo.after opsP0b (StableHlo.after opsP0a V))) :=
  (StableHlo.after_append opsP0a _ V).trans <| (StableHlo.after_append opsP0b _ _).trans <| StableHlo.after_append opsP0c opsP0d _

theorem after_opsP1 (V : Valuation τ sig (Elt F)) :
    StableHlo.after opsP1 V
      = StableHlo.after opsP1k (StableHlo.after opsP1j (StableHlo.after opsP1i (StableHlo.after opsP1h (StableHlo.after opsP1g
          (StableHlo.after opsP1f (StableHlo.after opsP1e (StableHlo.after opsP1d (StableHlo.after opsP1c (StableHlo.after opsP1b
            (StableHlo.after opsP1a V)))))))))) :=
  (StableHlo.after_append opsP1a _ V).trans <| (StableHlo.after_append opsP1b _ _).trans <|
    (StableHlo.after_append opsP1c _ _).trans <| (StableHlo.after_append opsP1d _ _).trans <|
    (StableHlo.after_append opsP1e _ _).trans <| (StableHlo.after_append opsP1f _ _).trans <|
    (StableHlo.after_append opsP1g _ _).trans <| (StableHlo.after_append opsP1h _ _).trans <|
    (StableHlo.after_append opsP1i _ _).trans <| StableHlo.after_append opsP1j opsP1k _

theorem after_opsP2 (V : Valuation τ sig (Elt F)) :
    StableHlo.after opsP2 V
      = StableHlo.after opsP2k (StableHlo.after opsP2j (StableHlo.after opsP2i (StableHlo.after opsP2h (StableHlo.after opsP2g
          (StableHlo.after opsP2f (StableHlo.after opsP2e (StableHlo.after opsP2d (StableHlo.after opsP2c (StableHlo.after opsP2b
            (StableHlo.after opsP2a V)))))))))) :=
  (StableHlo.after_append opsP2a _ V).trans <| (StableHlo.after_append opsP2b _ _).trans <|
    (StableHlo.after_append opsP2c _ _).trans <| (StableHlo.after_append opsP2d _ _).trans <|
    (StableHlo.after_append opsP2e _ _).trans <| (StableHlo.after_append opsP2f _ _).trans <|
    (StableHlo.after_append opsP2g _ _).trans <| (StableHlo.after_append opsP2h _ _).trans <|
    (StableHlo.after_append opsP2i _ _).trans <| StableHlo.after_append opsP2j opsP2k _

theorem after_opsP3 (V : Valuation τ sig (Elt F)) : StableHlo.after opsP3 V = StableHlo.after opsP3a V := rfl

end Cert.ReferenceIdeal.Hand

end
-- ==== Proof.KFinal.lean ====
import proofs.«105800_j40716289966699_2_alg».proof.Proof.KIFrame
import Idealize.ShloMosaic.PureOps.Ideal
import Idealize.ShloMosaic.Lib.Pipeline.Value
import Idealize.ShloMosaic.Lib.ValueIdx

noncomputable section

namespace Cert.KernelIdeal.Vox

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## From the blocks the grid points write back to the whole result array

The kernel's grid has 300 points; point `t` reads rows `4000 t … 4000 t + 3999` of the points array and writes the
same rows of the one-column result. When the body's payload is a function `g` of the first three columns of a row,
row by row, the result array after the run is `g` of the rows of the points array. -/

theorem zero_offsets : (![0, 0] : Fin 2 → Nat) = fun _ => 0 := funext fun a => by fin_cases a <;> rfl

/-- Both windows' index maps send point `t` to block `(t, 0)`: decided over the 300 points. -/
theorem index_maps : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The row-by-row function of a points array: `g` of the first three columns of row `i 0`. -/
abbrev rowsOf (g : EReal → EReal → EReal → BitVec 32) (pts : S1200000x4.Idx → EReal) : S1200000x1.Idx → BitVec 32 :=
  fun i => g (pts (ix2 (i 0) (0 : Fin 4))) (pts (ix2 (i 0) (1 : Fin 4))) (pts (ix2 (i 0) (2 : Fin 4)))

variable (g : EReal → EReal → EReal → BitVec 32)
  (hpay : ∀ (x0 : Vec Ideal S4000x4 .f32) (p : Fin 4000),
    k0_pay1 (k0_pay3 x0) (k0_pay4 x0) (k0_pay5 x0) (k0_pay6 x0) (ix2 p (0 : Fin 1))
      = g (x0 (ix2 p (0 : Fin 4))) (x0 (ix2 p (1 : Fin 4))) (x0 (ix2 p (2 : Fin 4))))
variable (m : (ℓ : Loc nD τ sig) → Buf (Elt Ideal) ℓ)

include hpay in
/-- The payload at any index of the output block. -/
theorem pay_at (x0 : Vec Ideal S4000x4 .f32) (j : S4000x1.Idx) :
    k0_pay1 (k0_pay3 x0) (k0_pay4 x0) (k0_pay5 x0) (k0_pay6 x0) j
      = g (x0 (ix2 (j 0) (0 : Fin 4))) (x0 (ix2 (j 0) (1 : Fin 4))) (x0 (ix2 (j 0) (2 : Fin 4))) := by
  obtain ⟨p, q, rfl⟩ : ∃ (p : Fin 4000) (q : Fin 1), j = ix2 p q := ⟨j 0, j 1, eq_ix2 j⟩
  obtain rfl : q = 0 := Subsingleton.elim _ _
  exact hpay x0 p

/-- The input window's block at point `t` is rows `4000 t … 4000 t + 3999` of the points array as the region finds it. -/
theorem iblk_apply (c : Dev nD) (t : Fin cfg0.N) (x : S4000x4.Idx) (k : S1200000x4.Idx)
    (hk0 : (k 0).val = 4000 * t.val + (x 0).val) (hk1 : (k 1).val = (x 1).val) :
    (iblk m c 0 t : Vec Ideal S4000x4 .f32) x = (V m c main_arg0 : S1200000x4.Idx → EReal) k := by
  obtain ⟨e0, e1, -, -⟩ := index_maps t
  unfold iblk
  rw [View.read_apply]
  show V m c main_arg0 _ = V m c main_arg0 _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 4 + 1 * (x 1).val = (k 1).val; rw [e1, hk1]; omega

include hpay in
/-- What point `t` writes back is block `t` of the row-by-row function of the points array. -/
theorem flushed_eq (c : Dev nD) (t : Fin cfg0.N) :
    (dats m 0 c).flushed 1 t = ((cfg0.win 1).blk t).view.read (Elt Ideal) (rowsOf g (V m c main_arg0)) := by
  show (cfg0.win 1).cut (grid0.coords t) ((dats m 0 c).after 1 t) = _
  rw [after0_1]
  unfold blockOut
  rw [View.canon_unit_zero zero_offsets]
  simp only [View.ld_unit_zero (S := S4000x4) zero_offsets]
  obtain ⟨-, -, e2, e3⟩ := index_maps t
  funext j
  rw [View.read_apply]
  show k0_pay1 (k0_pay3 (iblk m c 0 t)) (k0_pay4 (iblk m c 0 t)) (k0_pay5 (iblk m c 0 t)) (k0_pay6 (iblk m c 0 t)) j = _
  rw [pay_at g hpay]
  unfold rowsOf
  have h0 : ((((cfg0.win 1).blk t).view.emb j) 0).val = 4000 * t.val + (j 0).val := by
    show win0_1.index t (0 : Fin 2) * 4000 + 1 * (j 0).val = _
    rw [e2]; omega
  rw [iblk_apply m c t _ (ix2 ((((cfg0.win 1).blk t).view.emb j) 0) (0 : Fin 4)) h0 rfl,
    iblk_apply m c t _ (ix2 ((((cfg0.win 1).blk t).view.emb j) 0) (1 : Fin 4)) h0 rfl,
    iblk_apply m c t _ (ix2 ((((cfg0.win 1).blk t).view.emb j) 0) (2 : Fin 4)) h0 rfl]
  rfl

/-- An index of the result array is in point `t`'s block iff each coordinate is in the block's range on its axis. -/
theorem mem_blk (t : Fin cfg0.N) (i : S1200000x1.Idx) :
    i ∈ ((cfg0.win 1).blk t).view.set ↔ ∀ a : Fin 2, win0_1.index t a * S4000x1.size a ≤ (i a).val ∧ (i a).val < win0_1.index t a * S4000x1.size a + S4000x1.size a := by
  show i ∈ ((View.whole main_v0).slice (win0_1.rect t)).set ↔ _
  rw [View.set_slice_whole, Rect.mem_set_unit]
  exact Iff.rfl

/-- Every row of the result array is in the block of the point its row number divided by 4000 names. -/
theorem covered (i : S1200000x1.Idx) : ∃ t : Fin cfg0.N, (cfg0.win 1).flush t = true ∧ i ∈ ((cfg0.win 1).blk t).view.set := by
  have hi0 : (i 0).val < 1200000 := (i 0).isLt
  have hi1 : (i 1).val < 1 := (i 1).isLt
  have hN : cfg0.N = 300 := N_0
  refine ⟨⟨(i 0).val / 4000, by rw [hN]; omega⟩, flush0_1 _, ?_⟩
  rw [mem_blk]
  obtain ⟨-, -, e2, e3⟩ := index_maps ⟨(i 0).val / 4000, by rw [hN]; omega⟩
  intro a
  match a with
  | ⟨0, _⟩ => show win0_1.index _ (0 : Fin 2) * 4000 ≤ (i 0).val ∧ (i 0).val < win0_1.index _ (0 : Fin 2) * 4000 + 4000; rw [e2]; show (i 0).val / 4000 * 4000 ≤ (i 0).val ∧ (i 0).val < (i 0).val / 4000 * 4000 + 4000; omega
  | ⟨1, _⟩ => show win0_1.index _ (1 : Fin 2) * 1 ≤ (i 1).val ∧ (i 1).val < win0_1.index _ (1 : Fin 2) * 1 + 1; rw [e3]; omega

include hpay in
/-- The result array after the run: `g` of the first three columns of each row of the points array as launched. -/
theorem flat_array_of (c : Dev nD) :
    (dats m 0 c).arrAt 1 cfg0.N = rowsOf g (m ((c : Thread nD τ).loc main_arg0)) := by
  rw [← V_main_arg0 m c]
  exact (dats m 0 c).arrAt_eq_of_cover 1 (rowsOf g (V m c main_arg0)) (fun t _ => flushed_eq g hpay m c t) covered

include hpay in
/-- The same, row by row: row `r` of the result is `g` of the first three columns of row `r` of the points array. -/
theorem flat_array_row (c : Dev nD) (r : Fin 1200000) :
    ((dats m 0 c).arrAt 1 cfg0.N : S1200000x1.Idx → BitVec 32) (ix2 r (0 : Fin 1))
      = g ((m ((c : Thread nD τ).loc main_arg0) : S1200000x4.Idx → EReal) (ix2 r (0 : Fin 4)))
          ((m ((c : Thread nD τ).loc main_arg0) : S1200000x4.Idx → EReal) (ix2 r (1 : Fin 4)))
          ((m ((c : Thread nD τ).loc main_arg0) : S1200000x4.Idx → EReal) (ix2 r (2 : Fin 4))) := by
  rw [flat_array_of g hpay m c]

end Cert.KernelIdeal.Vox

end
-- ==== Proof.EvalLib.lean ====
/-
  Reading a straight line of host operations at a buffer. A line's effect on the buffers is a fold of the
  operations' results; read at one buffer it is the composed function of the contents the line started from.
  The joins of two or three pieces along an axis are named here with the pieces as plain arguments, so that a
  rewriting pass reaches the pieces (in the list of shape-tagged pieces it does not).
-/
import Idealize.ShloMosaic.Lib.StableHlo.Run

noncomputable section

namespace Cert.Eval

open Idealize.ShloMosaic Idealize.ShloMosaic.StableHlo

variable {α : Type}

/-- Two arrays joined along axis `a` of the result shape `t`. -/
def join2 (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- Three arrays joined along axis `a` of the result shape `t`. -/
def join3 (t : Shape) (a : Fin t.rank) (s1 s2 s3 : Shape) (x : s1.Idx → α) (y : s2.Idx → α) (z : s3.Idx → α)
    (h : Shape.Concatenates [s1, s2, s3] t a) : t.Idx → α :=
  concatenate t a [⟨s1, x⟩, ⟨s2, y⟩, ⟨s3, z⟩] h

theorem join2_fold (t : Shape) (a : Fin t.rank) (s1 s2 : Shape) (x : s1.Idx → α) (y : s2.Idx → α)
    (h : Shape.Concatenates [s1, s2] t a) :
    concatenate t a [⟨s1, x⟩, ⟨s2, y⟩] h = join2 t a s1 s2 x y h := rfl

theorem join3_fold (t : Shape) (a : Fin t.rank) (s1 s2 s3 : Shape) (x : s1.Idx → α) (y : s2.Idx → α) (z : s3.Idx → α)
    (h : Shape.Concatenates [s1, s2, s3] t a) :
    concatenate t a [⟨s1, x⟩, ⟨s2, y⟩, ⟨s3, z⟩] h = join3 t a s1 s2 s3 x y z h := rfl

/-- A line run after another is the two run as one. -/
theorem after_append {nD : Nat} {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Reads a literal line of host operations at a buffer: each operation's result at its own buffer is its
    function of the operands' contents, at any other buffer what was there; the joins are folded so that the
    pass goes on inside their pieces. -/
macro "read_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Eval.join2_fold, Cert.Eval.join3_fold,
      Matrix.cons_val_zero, Matrix.cons_val_one, Matrix.cons_val_two, Matrix.head_cons, Matrix.tail_cons]))

end Cert.Eval

end
-- ==== Proof.KGlue.lean ====
import proofs.«105800_j40716289966699_2_alg».proof.Proof.KFinal
import proofs.«105800_j40716289966699_2_alg».proof.Proof.EvalLib
import Idealize.ShloMosaic.Lib.Pipeline.FrameSuffix
import Idealize.ShloMosaic.Lib.Pipeline.Value
import Idealize.ShloMosaic.Lib.ValueIdx

noncomputable section

namespace Cert.KernelIdeal.Vox

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The buffers the lines after the region start from

After the region the two arrays of the pipeline hold what the grid's write-backs left and every other buffer what it
held at the region's entry. The first line after the region reshapes the kernel's one-column result to a vector; the
remaining lines are the sort, the scans, the scatters and the gathers. Here: the contents after that first line, at
the three buffers the remaining lines read from before writing. -/

/-- The lines after the region, less the first (the reshape of the kernel's result). -/
abbrev kLines : List (List (HloOp τ sig (Elt Ideal))) :=
  [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]

variable (m : (ℓ : Loc nD τ sig) → Buf (Elt Ideal) ℓ)

/-- Core `c`'s buffers at the region's exit: the pipeline's arrays at what the write-backs left, the rest as the
    region found them. -/
def WK (c : Dev nD) : Valuation τ sig (Elt Ideal) :=
  Pipeline.withArrays spec0 c (V0 m c) fun w => (dats m 0 c).arrAt w cfg0.N

/-- And after the reshape of the kernel's result. -/
def WK1 (c : Dev nD) : Valuation τ sig (Elt Ideal) := StableHlo.after hostOps1 (WK m c)

/-- The contents after all the lines are the contents after the remaining lines, started from `WK1`. -/
theorem tail_split (c : Dev nD) (b : Ref sig .tc) :
    Pipeline.afterTail₀ cfgs (dats m) 0 (V0 m) tailOps c b
      = StableHlo.after (List.flatten kLines) (WK1 m c) (Proc.devRef .tc b) := by
  unfold Pipeline.afterTail₀ WK1
  show StableHlo.after (List.flatten (hostOps1 :: kLines)) (WK m c) _ = _
  rw [List.flatten_cons, Cert.Eval.after_append (nD := nD)]

/-- At the region's exit the two arrays hold what the proof data compute. -/
theorem WK_arg0 (c : Dev nD) : WK m c (Proc.devRef .tc main_arg0) = (dats m 0 c).arrAt 0 cfg0.N :=
  Pipeline.withArrays_arr spec0 launch0.win.arr_inj c _ _ 0
theorem WK_v0 (c : Dev nD) : WK m c (Proc.devRef .tc main_v0) = (dats m 0 c).arrAt 1 cfg0.N :=
  Pipeline.withArrays_arr spec0 launch0.win.arr_inj c _ _ 1

/-- The reshape writes its result only. -/
theorem WK1_of_ne (c : Dev nD) (b : Ref sig .tc) (hb : b ≠ main_v1) :
    WK1 m c (Proc.devRef .tc b) = WK m c (Proc.devRef .tc b) := by
  unfold WK1
  exact StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The points array is as launched. -/
theorem WK1_arg0 (c : Dev nD) : WK1 m c (Proc.devRef .tc main_arg0) = m ((c : Thread nD τ).loc main_arg0) := by
  rw [WK1_of_ne m c main_arg0 (by decide), WK_arg0]
  exact ((dats m 0 c).arrAt_in 0 rfl _).trans ((A_eq m c 0).trans (V_main_arg0 m c))

/-- The one-element constant the line before the region wrote. -/
theorem WK1_c (c : Dev nD) : WK1 m c (Proc.devRef .tc main_c) = constantI S1 1 1#1 := by
  rw [WK1_of_ne m c main_c (by decide)]
  unfold WK
  rw [Pipeline.withArrays_of_ne spec0 c (V0 m c) _ main_c (by decide)]
  show StableHlo.after hostOps0 (fun b => m (c, b)) (Proc.devRef .tc main_c) = _
  after_results

/-- The row-by-row function of a points array, as a vector over the rows. -/
abbrev lineOf (g : EReal → EReal → EReal → BitVec 32) (pts : S1200000x4.Idx → EReal) : S1200000.Idx → BitVec 32 :=
  fun j => g (pts (ix2 (j 0) (0 : Fin 4))) (pts (ix2 (j 0) (1 : Fin 4))) (pts (ix2 (j 0) (2 : Fin 4)))

/-- The reshaped result: `g` of the first three columns of each row of the points array. -/
theorem WK1_v1_of (g : EReal → EReal → EReal → BitVec 32)
    (hpay : ∀ (x0 : Vec Ideal S4000x4 .f32) (p : Fin 4000),
      k0_pay1 (k0_pay3 x0) (k0_pay4 x0) (k0_pay5 x0) (k0_pay6 x0) (ix2 p (0 : Fin 1))
        = g (x0 (ix2 p (0 : Fin 4))) (x0 (ix2 p (1 : Fin 4))) (x0 (ix2 p (2 : Fin 4))))
    (c : Dev nD) :
    (WK1 m c (Proc.devRef .tc main_v1) : S1200000.Idx → BitVec 32) = lineOf g (m ((c : Thread nD τ).loc main_arg0)) := by
  unfold WK1
  simp only [hostOps1, StableHlo.after_cons, StableHlo.after_nil]
  rw [StableHlo.reshape_result, WK_v0, flat_array_of g hpay m c]
  funext j
  exact shapeCast_apply (s := S1200000x1) (t := S1200000) _ shapeCasts_S1200000x1_S1200000 j (ix2 (j 0) (0 : Fin 1)) (by
    rw [Shape.rowMajor_val_two, Shape.rowMajor_val_one]
    show (j 0).val * 1 + 0 = (j 0).val
    omega)

/-- The four result buffers are unscoped and are no array of the pipeline: the run's post reads them as the lines
    after the region leave them. -/
theorem res_mem : main_v80 ∈ Pipeline.restRefs sig spec0 ∧ main_v110 ∈ Pipeline.restRefs sig spec0
    ∧ main_v91 ∈ Pipeline.restRefs sig spec0 ∧ main_v113 ∈ Pipeline.restRefs sig spec0 :=
  ⟨Pipeline.mem_restRefs_of main_v80 (by decide) (by decide), Pipeline.mem_restRefs_of main_v110 (by decide) (by decide),
    Pipeline.mem_restRefs_of main_v91 (by decide) (by decide), Pipeline.mem_restRefs_of main_v113 (by decide) (by decide)⟩

end Cert.KernelIdeal.Vox

end
-- ==== Proof.KResults.lean ====
import proofs.«105800_j40716289966699_2_alg».proof.Proof.KGlue

noncomputable section

namespace Cert.KernelIdeal.Vox

open Cert.KernelIdeal Cert.KernelIdeal.Gen Cert.KernelIdeal.Hand
open Idealize.ShloMosaic Idealize.ShloMosaic.TcCoe Idealize.SL.Sem
open Idealize.ShloMosaic.Pipeline (Dat)

/-- The kernel's run with its results and its argument named: every weakly fair execution of @main ends, faulting
    nowhere, with each of the four result buffers at what the lines after the reshape compute from the contents
    `WK1`, and the points array as launched. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v80) = StableHlo.after (List.flatten kLines) (WK1 m c) (Proc.devRef .tc main_v80)
      ∧ r.2.mem ((c.tc : Thread nD τ).loc main_v110) = StableHlo.after (List.flatten kLines) (WK1 m c) (Proc.devRef .tc main_v110)
      ∧ r.2.mem ((c.tc : Thread nD τ).loc main_v91) = StableHlo.after (List.flatten kLines) (WK1 m c) (Proc.devRef .tc main_v91)
      ∧ r.2.mem ((c.tc : Thread nD τ).loc main_v113) = StableHlo.after (List.flatten kLines) (WK1 m c) (Proc.devRef .tc main_v113)
      ∧ r.2.mem ((c.tc : Thread nD τ).loc main_arg0) = m ((c.tc : Thread nD τ).loc main_arg0)) :=
  (θ_run defs _ _).mono (fun _ h c =>
    ⟨((h c).2 main_v80 res_mem.1).trans (tail_split m c main_v80),
      ((h c).2 main_v110 res_mem.2.1).trans (tail_split m c main_v110),
      ((h c).2 main_v91 res_mem.2.2.1).trans (tail_split m c main_v91),
      ((h c).2 main_v113 res_mem.2.2.2).trans (tail_split m c main_v113),
      ((h c).1 0).trans (((dats m 0 c).arrAt_in 0 rfl _).trans ((A_eq m c 0).trans (V_main_arg0 m c)))⟩)
    (run_main m ρ)

end Cert.KernelIdeal.Vox

end
-- ==== Proof.VoxSpec.lean ====
/-
  The voxel index of one point, as a function of its three coordinates, at the ideal instance
  (a float an extended real, every operation exact).

  A point (x, y, z) falls in the cell (cx, cy, cz) with c = fptosi (floor ((v - a) / s)) per axis,
  the origin a and the cell size s being f32 literals kept as their words (never evaluated: the same
  words stand in both programs). The point is valid when 0 ≤ cx < 1024, 0 ≤ cy < 1024, 0 ≤ cz < 40
  (signed compares on the 32-bit words), its flat index is (cx * 1024 + cy) * 40 + cz in 32-bit
  arithmetic, and its id is the flat index when valid and the sentinel 41943040 = 1024 * 1024 * 40
  otherwise. The one theorem: the id differs from the sentinel exactly when the point is valid,
  because a valid point's flat index is at most 1023 * 40960 + 1023 * 40 + 39 = 41943039 and the
  arithmetic does not wrap.
-/
import Idealize.ShloMosaic.PureOps.Ideal
import Idealize.ShloMosaic.Lib.ValueIdx

noncomputable section

namespace Cert.Vox

open Idealize.ShloMosaic

/-- The cell coordinate along one axis: origin word `a`, cell-size word `s`. -/
def cell (a s : BitVec 32) (x : EReal) : BitVec 32 :=
  Ideal.fptosi 32 (Ideal.liftRound Int.floor (Ideal.div (x - Ideal.ofBits .f32 a) (Ideal.ofBits .f32 s)))

/-- The three axes' literals. -/
def cellX (x : EReal) : BitVec 32 := cell 0xC24CCCCD#32 0x3DCCCCCD#32 x
def cellY (y : EReal) : BitVec 32 := cell 0xC24CCCCD#32 0x3DCCCCCD#32 y
def cellZ (z : EReal) : BitVec 32 := cell 0xC0A00000#32 0x3E4CCCCD#32 z

/-- Validity of a cell, on words: the six signed compares, and-ed left to right. -/
def validW (cx cy cz : BitVec 32) : BitVec 1 :=
  IntOp.andi (IntOp.andi (IntOp.andi (IntOp.andi (IntOp.andi
    (IntOp.cmpi .sge cx 0#32) (IntOp.cmpi .slt cx 1024#32))
    (IntOp.cmpi .sge cy 0#32)) (IntOp.cmpi .slt cy 1024#32))
    (IntOp.cmpi .sge cz 0#32)) (IntOp.cmpi .slt cz 40#32)

/-- The flat index of a cell, on words. -/
def flatW (cx cy cz : BitVec 32) : BitVec 32 :=
  IntOp.addi (IntOp.muli (IntOp.addi (IntOp.muli cx 1024#32) cy) 40#32) cz

/-- The id of a cell: its flat index when valid, else the sentinel. -/
def idW (cx cy cz : BitVec 32) : BitVec 32 :=
  Scalar.select (validW cx cy cz) (flatW cx cy cz) 41943040#32

def rowValid (x y z : EReal) : BitVec 1 := validW (cellX x) (cellY y) (cellZ z)
def rowFlat (x y z : EReal) : BitVec 32 := flatW (cellX x) (cellY y) (cellZ z)
def rowId (x y z : EReal) : BitVec 32 := idW (cellX x) (cellY y) (cellZ z)

theorem rowId_eq (x y z : EReal) :
    rowId x y z = Scalar.select (rowValid x y z) (rowFlat x y z) 41943040#32 := rfl

/-- The validity mask as one decided conjunction. -/
theorem validW_eq (cx cy cz : BitVec 32) :
    validW cx cy cz = BitVec.ofBool ((0#32).sle cx && cx.slt 1024#32 && (0#32).sle cy && cy.slt 1024#32
      && (0#32).sle cz && cz.slt 40#32) := by
  simp only [validW, IntOp.andi, IntOp.cmpi, BitVec.ofBool_and_ofBool]

/-- A word that is signed-nonnegative and signed-below a small literal `n` is below `n` as a natural number. -/
theorem toNat_lt_of_sle_slt (c : BitVec 32) (n : Nat) (hn : n < 2147483648) (h0 : (0#32).sle c = true)
    (h1 : c.slt (BitVec.ofNat 32 n) = true) : c.toNat < n := by
  rw [BitVec.sle_iff_toInt_le] at h0
  rw [BitVec.slt_iff_toInt_lt] at h1
  have e0 : (0#32).toInt = 0 := by decide
  have e1 : (BitVec.ofNat 32 n).toInt = n := by
    rw [BitVec.toInt_eq_toNat_cond, BitVec.toNat_ofNat]
    have : n % 2 ^ 32 = n := Nat.mod_eq_of_lt (by omega)
    rw [this, if_pos (by omega)]
  rw [e0] at h0
  rw [e1] at h1
  have hx := BitVec.toInt_eq_toNat_cond c
  have bx := c.isLt
  split at hx <;> omega

/-- A valid cell's flat index is not the sentinel: it is at most 41943039, with no wrap-around below 2^32. -/
theorem flatW_ne (cx cy cz : BitVec 32)
    (h0 : (0#32).sle cx = true) (h1 : cx.slt 1024#32 = true) (h2 : (0#32).sle cy = true) (h3 : cy.slt 1024#32 = true)
    (h4 : (0#32).sle cz = true) (h5 : cz.slt 40#32 = true) : flatW cx cy cz ≠ 41943040#32 := by
  have nx : cx.toNat < 1024 := toNat_lt_of_sle_slt cx 1024 (by omega) h0 h1
  have ny : cy.toNat < 1024 := toNat_lt_of_sle_slt cy 1024 (by omega) h2 h3
  have nz : cz.toNat < 40 := toNat_lt_of_sle_slt cz 40 (by omega) h4 h5
  simp only [flatW, IntOp.addi, IntOp.muli]
  intro h
  have h' := congrArg BitVec.toNat h
  simp only [BitVec.toNat_add, BitVec.toNat_mul, BitVec.toNat_ofNat] at h'
  have a1 : cx.toNat * (1024 % 2 ^ 32) % 2 ^ 32 = cx.toNat * 1024 := Nat.mod_eq_of_lt (by omega)
  rw [a1] at h'
  have a2 : (cx.toNat * 1024 + cy.toNat) % 2 ^ 32 = cx.toNat * 1024 + cy.toNat := Nat.mod_eq_of_lt (by omega)
  rw [a2] at h'
  have a3 : (cx.toNat * 1024 + cy.toNat) * (40 % 2 ^ 32) % 2 ^ 32 = (cx.toNat * 1024 + cy.toNat) * 40 :=
    Nat.mod_eq_of_lt (by omega)
  rw [a3] at h'
  have a4 : ((cx.toNat * 1024 + cy.toNat) * 40 + cz.toNat) % 2 ^ 32 = (cx.toNat * 1024 + cy.toNat) * 40 + cz.toNat :=
    Nat.mod_eq_of_lt (by omega)
  rw [a4] at h'
  omega

/-- Selecting on a decided bit between a value that is not the sentinel when the bit is set, and the sentinel:
    the result differs from the sentinel exactly when the bit is set. -/
theorem select_ne_sentinel (b : Bool) (v : BitVec 32) (hv : b = true → v ≠ 41943040#32) :
    IntOp.cmpi .ne (Scalar.select (BitVec.ofBool b) v 41943040#32) 41943040#32 = BitVec.ofBool b := by
  cases b with
  | false => simp [Scalar.select, IntOp.cmpi]
  | true =>
    have e : (v != 41943040#32) = true := bne_iff_ne.mpr (hv rfl)
    simp [Scalar.select, IntOp.cmpi, e]

theorem idW_ne_sentinel (cx cy cz : BitVec 32) :
    IntOp.cmpi .ne (idW cx cy cz) 41943040#32 = validW cx cy cz := by
  unfold idW
  rw [validW_eq]
  refine select_ne_sentinel _ _ fun h => ?_
  simp only [Bool.and_eq_true] at h
  obtain ⟨⟨⟨⟨⟨h0, h1⟩, h2⟩, h3⟩, h4⟩, h5⟩ := h
  exact flatW_ne cx cy cz h0 h1 h2 h3 h4 h5

theorem rowId_ne_sentinel (x y z : EReal) :
    IntOp.cmpi .ne (rowId x y z) 41943040#32 = rowValid x y z :=
  idW_ne_sentinel _ _ _

end Cert.Vox

end
-- ==== Proof.KPayload.lean ====
/-
  The kernel's stored block, read at a row: the id of that row's point.

  The body slices columns 0, 1, 2 of its 4000 x 4 block, casts each [4000,1] column to [4000], computes the
  three cell coordinates pointwise, the six compares and their conjunction, the flat index, the select
  against the sentinel, and casts the [4000] result to [4000,1]. Every pointwise operation reads its
  operands at the same index; a column slice followed by the cast reads the block at (row, column); the
  last cast reads the [4000] vector at the row.
-/
import proofs.«105800_j40716289966699_2_alg».proof.Proof.Gen.KernelIdeal.Skeleton
import proofs.«105800_j40716289966699_2_alg».proof.Proof.VoxSpec
import Idealize.ShloMosaic.Lib.Pipeline.Value

noncomputable section

namespace Cert.KernelIdeal.Vox

open Idealize.ShloMosaic Idealize.SL.Sem Idealize.ShloMosaic.ValueIdx

/-- A column slice of the block, cast from [4000,1] to [4000], read at row `p`: the block at (p, column). -/
theorem column_apply {α : Type} (j : Fin 4) (x0 : S4000x4.Idx → α) (hs : S4000x4.Slices ![0, j.val] S4000x1)
    (hc : S4000x1.ShapeCasts S4000) (p : Fin 4000) :
    shapeCast S4000 (extractStridedSlice S4000x1 ![0, j.val] x0 hs) hc (ix1 p) = x0 (ix2 p j) := by
  refine (shapeCast_apply _ hc (ix1 p) (ix2 p (0 : Fin 1)) ?_).trans ?_
  · rw [Shape.rowMajor_val_two, Shape.rowMajor_val_one]
    show p.val * 1 + 0 = p.val
    omega
  · refine extractStridedSlice_apply _ x0 hs (ix2 p (0 : Fin 1)) (ix2 p j) fun a => ?_
    match a with
    | ⟨0, _⟩ => show p.val = 0 + p.val; omega
    | ⟨1, _⟩ => show j.val = j.val + 0; omega

/-- The x cell coordinates of the block, at row `p`. -/
theorem pay2_apply (x0 : Vec Ideal S4000x4 .f32) (p : Fin 4000) :
    Gen.k0_pay2 x0 (ix1 p) = Cert.Vox.cellX (x0 (ix2 p 0)) := by
  have e : shapeCast S4000 (extractStridedSlice S4000x1 ![0, 0] x0 Gen.slices_S4000x4_o0_0_S4000x1) Gen.shapeCasts_S4000x1_S4000 (ix1 p)
      = x0 (ix2 p 0) := column_apply (0 : Fin 4) x0 Gen.slices_S4000x4_o0_0_S4000x1 Gen.shapeCasts_S4000x1_S4000 p
  show Ideal.fptosi 32 (Ideal.liftRound Int.floor (Ideal.div
    (shapeCast S4000 (extractStridedSlice S4000x1 ![0, 0] x0 Gen.slices_S4000x4_o0_0_S4000x1) Gen.shapeCasts_S4000x1_S4000 (ix1 p)
      - Ideal.ofBits .f32 0xC24CCCCD#32) (Ideal.ofBits .f32 0x3DCCCCCD#32))) = _
  rw [e]
  rfl

/-- The y cell coordinates of the block, at row `p`. -/
theorem pay3_apply (x0 : Vec Ideal S4000x4 .f32) (p : Fin 4000) :
    Gen.k0_pay3 x0 (ix1 p) = Cert.Vox.cellY (x0 (ix2 p 1)) := by
  have e : shapeCast S4000 (extractStridedSlice S4000x1 ![0, 1] x0 Gen.slices_S4000x4_o0_1_S4000x1) Gen.shapeCasts_S4000x1_S4000 (ix1 p)
      = x0 (ix2 p 1) := column_apply (1 : Fin 4) x0 Gen.slices_S4000x4_o0_1_S4000x1 Gen.shapeCasts_S4000x1_S4000 p
  show Ideal.fptosi 32 (Ideal.liftRound Int.floor (Ideal.div
    (shapeCast S4000 (extractStridedSlice S4000x1 ![0, 1] x0 Gen.slices_S4000x4_o0_1_S4000x1) Gen.shapeCasts_S4000x1_S4000 (ix1 p)
      - Ideal.ofBits .f32 0xC24CCCCD#32) (Ideal.ofBits .f32 0x3DCCCCCD#32))) = _
  rw [e]
  rfl

/-- The z cell coordinates of the block, at row `p`. -/
theorem pay4_apply (x0 : Vec Ideal S4000x4 .f32) (p : Fin 4000) :
    Gen.k0_pay4 x0 (ix1 p) = Cert.Vox.cellZ (x0 (ix2 p 2)) := by
  have e : shapeCast S4000 (extractStridedSlice S4000x1 ![0, 2] x0 Gen.slices_S4000x4_o0_2_S4000x1) Gen.shapeCasts_S4000x1_S4000 (ix1 p)
      = x0 (ix2 p 2) := column_apply (2 : Fin 4) x0 Gen.slices_S4000x4_o0_2_S4000x1 Gen.shapeCasts_S4000x1_S4000 p
  show Ideal.fptosi 32 (Ideal.liftRound Int.floor (Ideal.div
    (shapeCast S4000 (extractStridedSlice S4000x1 ![0, 2] x0 Gen.slices_S4000x4_o0_2_S4000x1) Gen.shapeCasts_S4000x1_S4000 (ix1 p)
      - Ideal.ofBits .f32 0xC0A00000#32) (Ideal.ofBits .f32 0x3E4CCCCD#32))) = _
  rw [e]
  rfl

/-- The stored [4000,1] value at (p, 0): the select at row `p` of the [4000] vectors it is made of. -/
theorem pay1_apply (v18 v24 : IVec S4000 32) (v41 : IVec S4000 1) (v43 : IVec S4000 32) (p : Fin 4000) :
    Gen.k0_pay1 v18 v24 v41 v43 (ix2 p (0 : Fin 1))
      = Scalar.select (v41 (ix1 p))
          (IntOp.addi (IntOp.muli (IntOp.addi (v43 (ix1 p)) (v18 (ix1 p))) 40#32) (v24 (ix1 p))) 41943040#32 := by
  unfold Gen.k0_pay1
  refine (shapeCast_apply _ Gen.shapeCasts_S4000_S4000x1 (ix2 p (0 : Fin 1)) (ix1 p) ?_).trans rfl
  rw [Shape.rowMajor_val_two, Shape.rowMajor_val_one]
  show p.val = p.val * 1 + 0
  omega

/-- THE BLOCK AT A ROW: what the body stores at (p, 0) is the id of the point in row `p` of the block it loaded. -/
theorem blockId_apply (x0 : Vec Ideal S4000x4 .f32) (p : Fin 4000) :
    Gen.k0_pay1 (Gen.k0_pay3 x0) (Gen.k0_pay4 x0) (Gen.k0_pay5 x0) (Gen.k0_pay6 x0) (ix2 p (0 : Fin 1))
      = Cert.Vox.rowId (x0 (ix2 p 0)) (x0 (ix2 p 1)) (x0 (ix2 p 2)) := by
  rw [pay1_apply]
  have e : Scalar.select (Gen.k0_pay5 x0 (ix1 p))
      (IntOp.addi (IntOp.muli (IntOp.addi (Gen.k0_pay6 x0 (ix1 p)) (Gen.k0_pay3 x0 (ix1 p))) 40#32) (Gen.k0_pay4 x0 (ix1 p))) 41943040#32
      = Cert.Vox.idW (Gen.k0_pay2 x0 (ix1 p)) (Gen.k0_pay3 x0 (ix1 p)) (Gen.k0_pay4 x0 (ix1 p)) := rfl
  rw [e, pay2_apply, pay3_apply, pay4_apply]
  rfl

end Cert.KernelIdeal.Vox

end
-- ==== Proof.RefHead.lean ====
/-
  The reference's validity mask and flat voxel ids as two functions of the point array, and each read at
  a row: the mask is the row's validity, the id array the row's id.

  The reference works on the whole [1200000,3] array of the first three columns: it subtracts the
  origins and divides by the cell sizes (3-vectors of literals broadcast down the rows), takes the floor
  and converts; compares against 0 and against [1024,1024,40]; and-reduces each row's three masks from
  true; linearizes the three columns; and selects against the sentinel.
-/
import proofs.«105800_j40716289966699_2_alg».proof.Proof.Gen.ReferenceIdeal
import proofs.«105800_j40716289966699_2_alg».proof.Proof.VoxSpec
import Idealize.ShloMosaic.Lib.Pipeline.Value
import Idealize.ShloMosaic.PureOps.Reduce

noncomputable section

namespace Cert.ReferenceIdeal.Vox

open Idealize.ShloMosaic Idealize.SL.Sem Idealize.ShloMosaic.ValueIdx

variable [Facts]
open Facts₀ Facts

/-- The cell coordinates of every point, one column per axis: i32[1200000,3]. -/
def refCoords (pts : Vec Ideal S1200000x4 .f32) : IVec S1200000x3 32 :=
  fptosi 32 (Host.floor (F := Ideal) (Host.divf (F := Ideal)
    (subf (F := Ideal) (φ := .f32) (extractStridedSlice S1200000x3 ![0, 0] pts slices_S1200000x4_S1200000x3_0_0)
      (broadcastInDim S1200000x3 ![0, 1] bcast_S1x3_S1200000x3_0_1
        (broadcastInDim S1x3 ![1] bcast_S3_S1x3_1 (fun i : S3.Idx => FloatOps.ofBits (F := Ideal) .f32 (lit1 (S3.rowMajor i))))))
    (broadcastInDim S1200000x3 ![0, 1] bcast_S1x3_S1200000x3_0_1
      (broadcastInDim S1x3 ![1] bcast_S3_S1x3_1 (fun i : S3.Idx => FloatOps.ofBits (F := Ideal) .f32 (lit0 (S3.rowMajor i)))))))

/-- Per axis, 0 ≤ c < extent: i1[1200000,3]. -/
def refMask (pts : Vec Ideal S1200000x4 .f32) : IVec S1200000x3 1 :=
  andi
    (cmpi .sge (refCoords pts) (broadcastInDim S1200000x3 ![] bcast_S_S1200000x3 (constantI S_ 32 0#32)))
    (cmpi .slt (refCoords pts) (broadcastInDim S1200000x3 ![0, 1] bcast_S1x3_S1200000x3_0_1
      (broadcastInDim S1x3 ![1] bcast_S3_S1x3_1 (fun i : S3.Idx => lit2 (S3.rowMajor i)))))

/-- The validity mask: each row's three masks and-ed, from true. -/
def refValid (pts : Vec Ideal S1200000x4 .f32) : IVec S1200000 1 :=
  Host.reduce IntOp.andi (refMask pts) (constantI S_ 1 1#1) reducesTo_S1200000x3_S1200000_d1 h_S_

/-- The linearized index of every point's cell: (cx * 1024 + cy) * 40 + cz. -/
def refLin (pts : Vec Ideal S1200000x4 .f32) : IVec S1200000 32 :=
  addi (muli (addi (muli
      (shapeCast S1200000 (extractStridedSlice S1200000x1 ![0, 0] (refCoords pts) slices_S1200000x3_S1200000x1_0_0)
        shapeCasts_S1200000x1_S1200000)
      (broadcastInDim S1200000 ![] bcast_S_S1200000 (constantI S_ 32 1024#32)))
      (shapeCast S1200000 (extractStridedSlice S1200000x1 ![0, 1] (refCoords pts) slices_S1200000x3_S1200000x1_0_1)
        shapeCasts_S1200000x1_S1200000))
      (broadcastInDim S1200000 ![] bcast_S_S1200000 (constantI S_ 32 40#32)))
    (shapeCast S1200000 (extractStridedSlice S1200000x1 ![0, 2] (refCoords pts) slices_S1200000x3_S1200000x1_0_2)
      shapeCasts_S1200000x1_S1200000)

/-- The flat voxel ids: the linearized index where valid, the sentinel elsewhere. -/
def refFlat (pts : Vec Ideal S1200000x4 .f32) : IVec S1200000 32 :=
  select (refValid pts) (refLin pts)
    (broadcastInDim S1200000 ![] bcast_S_S1200000 (id (constantI S_ 32 41943040#32)))

/-! ## The literal tables at a column -/

theorem rowMajor_S3 (j : Fin 3) : S3.rowMajor (ix1 j) = j := Fin.ext (Shape.rowMajor_val_one _)

theorem lit0_0 : lit0 0 = 0x3DCCCCCD#32 := rfl
theorem lit0_1 : lit0 1 = 0x3DCCCCCD#32 := rfl
theorem lit0_2 : lit0 2 = 0x3E4CCCCD#32 := rfl
theorem lit1_0 : lit1 0 = 0xC24CCCCD#32 := rfl
theorem lit1_1 : lit1 1 = 0xC24CCCCD#32 := rfl
theorem lit1_2 : lit1 2 = 0xC0A00000#32 := rfl
theorem lit2_0 : lit2 0 = 1024#32 := rfl
theorem lit2_1 : lit2 1 = 1024#32 := rfl
theorem lit2_2 : lit2 2 = 40#32 := rfl

/-! ## Layout operations at a row -/

/-- A 3-vector broadcast to one row and then down the rows, read at (r, j): the vector at j. -/
theorem rowBcast_apply {α : Type} (g : S3.Idx → α) (r : Fin 1200000) (j : Fin 3) :
    broadcastInDim S1200000x3 ![0, 1] bcast_S1x3_S1200000x3_0_1 (broadcastInDim S1x3 ![1] bcast_S3_S1x3_1 g) (ix2 r j)
      = g (ix1 j) := by
  refine (broadcastInDim_apply _ bcast_S1x3_S1200000x3_0_1 _ (ix2 r j) (ix2 (0 : Fin 1) j) fun a => ?_).trans ?_
  · match a with
    | ⟨0, _⟩ => rfl
    | ⟨1, _⟩ => rfl
  · refine broadcastInDim_apply _ bcast_S3_S1x3_1 g (ix2 (0 : Fin 1) j) (ix1 j) fun a => ?_
    match a with
    | ⟨0, _⟩ => rfl

/-- A scalar broadcast to the [1200000,3] array, at any index. -/
theorem scalarBcast3_apply {α : Type} (g : S_.Idx → α) (i : S1200000x3.Idx) (k : S_.Idx) :
    broadcastInDim S1200000x3 ![] bcast_S_S1200000x3 g i = g k :=
  broadcastInDim_apply _ bcast_S_S1200000x3 g i k fun a => a.elim0

/-- A scalar broadcast to the [1200000] array, at any index. -/
theorem scalarBcast1_apply {α : Type} (g : S_.Idx → α) (i : S1200000.Idx) (k : S_.Idx) :
    broadcastInDim S1200000 ![] bcast_S_S1200000 g i = g k :=
  broadcastInDim_apply _ bcast_S_S1200000 g i k fun a => a.elim0

/-- The first three columns of the point array at (r, j). -/
theorem head_apply {α : Type} (x : S1200000x4.Idx → α) (r : Fin 1200000) (j : Fin 3) (j' : Fin 4) (hj : j'.val = j.val) :
    extractStridedSlice S1200000x3 ![0, 0] x slices_S1200000x4_S1200000x3_0_0 (ix2 r j) = x (ix2 r j') := by
  refine extractStridedSlice_apply _ x _ (ix2 r j) (ix2 r j') fun a => ?_
  match a with
  | ⟨0, _⟩ => show r.val = 0 + r.val; omega
  | ⟨1, _⟩ => show j'.val = 0 + j.val; omega

/-- A column of the [1200000,3] array, cast from [1200000,1] to [1200000], at row r. -/
theorem column_apply {α : Type} (j : Fin 3) (x : S1200000x3.Idx → α) (hs : S1200000x3.Slices ![0, j.val] S1200000x1)
    (r : Fin 1200000) :
    shapeCast S1200000 (extractStridedSlice S1200000x1 ![0, j.val] x hs) shapeCasts_S1200000x1_S1200000 (ix1 r) = x (ix2 r j) := by
  refine (shapeCast_apply _ shapeCasts_S1200000x1_S1200000 (ix1 r) (ix2 r (0 : Fin 1)) ?_).trans ?_
  · rw [Shape.rowMajor_val_two, Shape.rowMajor_val_one]
    show r.val * 1 + 0 = r.val
    omega
  · refine extractStridedSlice_apply _ x hs (ix2 r (0 : Fin 1)) (ix2 r j) fun a => ?_
    match a with
    | ⟨0, _⟩ => show r.val = 0 + r.val; omega
    | ⟨1, _⟩ => show j.val = j.val + 0; omega

/-! ## The coordinates at a row -/

theorem refCoords_apply (pts : Vec Ideal S1200000x4 .f32) (r : Fin 1200000) (j : Fin 3) (j' : Fin 4) (hj : j'.val = j.val) :
    refCoords pts (ix2 r j) = Cert.Vox.cell (lit1 j) (lit0 j) (pts (ix2 r j')) := by
  show Ideal.fptosi 32 (Ideal.liftRound Int.floor (Ideal.div
    (extractStridedSlice S1200000x3 ![0, 0] pts slices_S1200000x4_S1200000x3_0_0 (ix2 r j)
      - broadcastInDim S1200000x3 ![0, 1] bcast_S1x3_S1200000x3_0_1
          (broadcastInDim S1x3 ![1] bcast_S3_S1x3_1 (fun i : S3.Idx => FloatOps.ofBits (F := Ideal) .f32 (lit1 (S3.rowMajor i)))) (ix2 r j))
    (broadcastInDim S1200000x3 ![0, 1] bcast_S1x3_S1200000x3_0_1
          (broadcastInDim S1x3 ![1] bcast_S3_S1x3_1 (fun i : S3.Idx => FloatOps.ofBits (F := Ideal) .f32 (lit0 (S3.rowMajor i)))) (ix2 r j)))) = _
  rw [head_apply pts r j j' hj, rowBcast_apply, rowBcast_apply, rowMajor_S3]
  rfl

theorem refCoords_x (pts : Vec Ideal S1200000x4 .f32) (r : Fin 1200000) :
    refCoords pts (ix2 r 0) = Cert.Vox.cellX (pts (ix2 r 0)) := refCoords_apply pts r 0 0 rfl
theorem refCoords_y (pts : Vec Ideal S1200000x4 .f32) (r : Fin 1200000) :
    refCoords pts (ix2 r 1) = Cert.Vox.cellY (pts (ix2 r 1)) := refCoords_apply pts r 1 1 rfl
theorem refCoords_z (pts : Vec Ideal S1200000x4 .f32) (r : Fin 1200000) :
    refCoords pts (ix2 r 2) = Cert.Vox.cellZ (pts (ix2 r 2)) := refCoords_apply pts r 2 2 rfl

/-! ## The mask at (r, j), and the and-reduction of a row -/

theorem refMask_apply (pts : Vec Ideal S1200000x4 .f32) (r : Fin 1200000) (j : Fin 3) :
    refMask pts (ix2 r j)
      = IntOp.andi (IntOp.cmpi .sge (refCoords pts (ix2 r j)) 0#32) (IntOp.cmpi .slt (refCoords pts (ix2 r j)) (lit2 j)) := by
  show IntOp.andi
      (IntOp.cmpi .sge (refCoords pts (ix2 r j))
        (broadcastInDim S1200000x3 ![] bcast_S_S1200000x3 (constantI S_ 32 0#32) (ix2 r j)))
      (IntOp.cmpi .slt (refCoords pts (ix2 r j))
        (broadcastInDim S1200000x3 ![0, 1] bcast_S1x3_S1200000x3_0_1
          (broadcastInDim S1x3 ![1] bcast_S3_S1x3_1 (fun i : S3.Idx => lit2 (S3.rowMajor i))) (ix2 r j))) = _
  rw [scalarBcast3_apply _ _ (fun a => a.elim0), rowBcast_apply, rowMajor_S3]
  rfl

/-- A fold of a commutative, associative operation over three coordinates, spelled out. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

theorem reduces_d1 : S1200000x3.Reduces [1] S1200000 := by decide

/-- The same fold over an index type that is `Fin 3` up to unfolding a shape's size. -/
theorem fold_univ_fin3' {α : Type} {n : Nat} (hn : n = 3) (f : α → α → α) [Std.Commutative f] [Std.Associative f] (b : α)
    (g : Fin n → α) :
    (Finset.univ : Finset (Fin n)).fold f b g
      = f (g ⟨0, by omega⟩) (f (g ⟨1, by omega⟩) (f (g ⟨2, by omega⟩) b)) := by
  subst hn
  exact fold_univ_fin3 f b g

/-- The source index over row r with column k. -/
theorem lift_row (r : Fin 1200000) (k : Nat) (hk : k < S1200000x3.size 1) :
    reduces_d1.lift (ix1 r) ⟨k, hk⟩ = ix2 r (⟨k, hk⟩ : Fin 3) := by
  funext c
  refine Fin.ext ?_
  rw [Shape.Reduces.lift_val]
  match c with
  | ⟨0, _⟩ => rfl
  | ⟨1, _⟩ => rfl

/-- Six one-bit words and-ed column by column from true are the six and-ed left to right. -/
theorem and_rows (a0 b0 a1 b1 a2 b2 : BitVec 1) :
    IntOp.andi (IntOp.andi a0 b0) (IntOp.andi (IntOp.andi a1 b1) (IntOp.andi (IntOp.andi a2 b2) 1#1))
      = IntOp.andi (IntOp.andi (IntOp.andi (IntOp.andi (IntOp.andi a0 b0) a1) b1) a2) b2 := by
  have one : ∀ x : BitVec 1, x &&& 1#1 = x := by decide
  simp only [IntOp.andi, one, BitVec.and_assoc]

theorem refValid_apply (pts : Vec Ideal S1200000x4 .f32) (r : Fin 1200000) :
    refValid pts (ix1 r) = Cert.Vox.rowValid (pts (ix2 r 0)) (pts (ix2 r 1)) (pts (ix2 r 2)) := by
  unfold refValid
  rw [Host.reduce_eq_fold_single IntOp.andi (refMask pts) (constantI S_ 1 1#1) reducesTo_S1200000x3_S1200000_d1 reduces_d1 h_S_ (ix1 r),
    fold_univ_fin3' (n := S1200000x3.size 1) rfl]
  simp only [Function.comp_apply]
  rw [lift_row r 0, lift_row r 1, lift_row r 2]
  show IntOp.andi (refMask pts (ix2 r 0)) (IntOp.andi (refMask pts (ix2 r 1)) (IntOp.andi (refMask pts (ix2 r 2)) 1#1)) = _
  rw [refMask_apply, refMask_apply, refMask_apply, refCoords_x, refCoords_y, refCoords_z,
    lit2_0, lit2_1, lit2_2, and_rows]
  rfl

/-! ## The linearized index and the ids at a row -/

theorem refLin_apply (pts : Vec Ideal S1200000x4 .f32) (r : Fin 1200000) :
    refLin pts (ix1 r) = Cert.Vox.rowFlat (pts (ix2 r 0)) (pts (ix2 r 1)) (pts (ix2 r 2)) := by
  have c0 : shapeCast S1200000 (extractStridedSlice S1200000x1 ![0, 0] (refCoords pts) slices_S1200000x3_S1200000x1_0_0)
      shapeCasts_S1200000x1_S1200000 (ix1 r) = refCoords pts (ix2 r 0) :=
    column_apply (0 : Fin 3) (refCoords pts) slices_S1200000x3_S1200000x1_0_0 r
  have c1 : shapeCast S1200000 (extractStridedSlice S1200000x1 ![0, 1] (refCoords pts) slices_S1200000x3_S1200000x1_0_1)
      shapeCasts_S1200000x1_S1200000 (ix1 r) = refCoords pts (ix2 r 1) :=
    column_apply (1 : Fin 3) (refCoords pts) slices_S1200000x3_S1200000x1_0_1 r
  have c2 : shapeCast S1200000 (extractStridedSlice S1200000x1 ![0, 2] (refCoords pts) slices_S1200000x3_S1200000x1_0_2)
      shapeCasts_S1200000x1_S1200000 (ix1 r) = refCoords pts (ix2 r 2) :=
    column_apply (2 : Fin 3) (refCoords pts) slices_S1200000x3_S1200000x1_0_2 r
  show IntOp.addi (IntOp.muli (IntOp.addi (IntOp.muli
      (shapeCast S1200000 (extractStridedSlice S1200000x1 ![0, 0] (refCoords pts) slices_S1200000x3_S1200000x1_0_0)
        shapeCasts_S1200000x1_S1200000 (ix1 r))
      (broadcastInDim S1200000 ![] bcast_S_S1200000 (constantI S_ 32 1024#32) (ix1 r)))
      (shapeCast S1200000 (extractStridedSlice S1200000x1 ![0, 1] (refCoords pts) slices_S1200000x3_S1200000x1_0_1)
        shapeCasts_S1200000x1_S1200000 (ix1 r)))
      (broadcastInDim S1200000 ![] bcast_S_S1200000 (constantI S_ 32 40#32) (ix1 r)))
    (shapeCast S1200000 (extractStridedSlice S1200000x1 ![0, 2] (refCoords pts) slices_S1200000x3_S1200000x1_0_2)
      shapeCasts_S1200000x1_S1200000 (ix1 r)) = _
  rw [c0, c1, c2, scalarBcast1_apply _ _ (fun a => a.elim0), scalarBcast1_apply _ _ (fun a => a.elim0),
    refCoords_x, refCoords_y, refCoords_z]
  rfl

theorem refFlat_apply (pts : Vec Ideal S1200000x4 .f32) (r : Fin 1200000) :
    refFlat pts (ix1 r) = Cert.Vox.rowId (pts (ix2 r 0)) (pts (ix2 r 1)) (pts (ix2 r 2)) := by
  show Scalar.select (refValid pts (ix1 r)) (refLin pts (ix1 r))
    (broadcastInDim S1200000 ![] bcast_S_S1200000 (id (constantI S_ 32 41943040#32)) (ix1 r)) = _
  rw [scalarBcast1_apply _ _ (fun a => a.elim0), refValid_apply, refLin_apply]
  rfl

end Cert.ReferenceIdeal.Vox

end
-- ==== Proof.Svalid.lean ====
/-
  The one place the two programs differ after the ids: the validity of the gathered points. The reference
  gathers its validity mask through the index column; the kernel's program gathers the ids and compares them
  with the sentinel. A gather reads its operand at an index that depends only on the index column, the same
  for both operands, and at any row the id differs from the sentinel exactly when the row is valid.
-/
import proofs.«105800_j40716289966699_2_alg».proof.Proof.RefHead

noncomputable section

namespace Cert.ReferenceIdeal.Vox

open Idealize.ShloMosaic Idealize.SL.Sem Idealize.ShloMosaic.ValueIdx

variable [Facts]
open Facts₀ Facts

/-- The ids gathered through an index column and compared with the sentinel are the validity mask gathered
    through the same column. -/
theorem svalid_eq (pts : Vec Ideal S1200000x4 .f32) (idx : IVec S1200000x1 32) :
    cmpi .ne (Host.gather gather_S1200000_S1200000x1_S1200000_n_0_n_n_0_1_1 (refFlat pts) idx)
        (broadcastInDim S1200000 ![] bcast_S_S1200000 (constantI S_ 32 41943040#32))
      = Host.gather gather_S1200000_S1200000x1_S1200000_n_0_n_n_0_1_1 (refValid pts) idx := by
  funext j
  show IntOp.cmpi .ne (refFlat pts (gather_S1200000_S1200000x1_S1200000_n_0_n_n_0_1_1.operandIdx j idx))
      (broadcastInDim S1200000 ![] bcast_S_S1200000 (constantI S_ 32 41943040#32) j)
    = refValid pts (gather_S1200000_S1200000x1_S1200000_n_0_n_n_0_1_1.operandIdx j idx)
  rw [scalarBcast1_apply _ _ (fun a => a.elim0)]
  obtain ⟨a, ha⟩ : ∃ a : Fin 1200000, gather_S1200000_S1200000x1_S1200000_n_0_n_n_0_1_1.operandIdx j idx = ix1 a :=
    ⟨_, eq_ix1 _⟩
  rw [ha, refFlat_apply, refValid_apply]
  exact Cert.Vox.rowId_ne_sentinel _ _ _

end Cert.ReferenceIdeal.Vox

end
-- ==== Proof.RGlue.lean ====
/-
  The reference's first 40 host operations, read at the buffers the rest of the program uses: the argument is
  untouched, the one-element true constant is what it was set to, and the validity mask and the flat ids are
  the two functions of the argument named in the module on the reference's head.
-/
import proofs.«105800_j40716289966699_2_alg».proof.Proof.RefHead
import proofs.«105800_j40716289966699_2_alg».proof.Proof.RefRunOpsP0
import proofs.«105800_j40716289966699_2_alg».proof.Proof.EvalLib

noncomputable section

namespace Cert.ReferenceIdeal.Vox

open Cert.ReferenceIdeal Cert.ReferenceIdeal.Gen Idealize.ShloMosaic Idealize.ShloMosaic.TcCoe Idealize.SL.Sem
open Idealize.ShloMosaic.StableHlo Idealize.ShloMosaic.ValueIdx

/-- The buffers after the operations up to and including the ids. -/
def WR1 (V : Valuation τ sig (Elt Ideal)) : Valuation τ sig (Elt Ideal) :=
  StableHlo.after (Hand.opsP0a ++ Hand.opsP0b) V

theorem WR1_arg0 (V : Valuation τ sig (Elt Ideal)) :
    WR1 V (Proc.devRef .tc main_arg0) = V (Proc.devRef .tc main_arg0) := by
  unfold WR1
  simp only [Hand.opsP0a, Hand.opsP0b, List.cons_append, List.nil_append, List.append_nil]
  read_line

theorem WR1_c1 (V : Valuation τ sig (Elt Ideal)) :
    WR1 V (Proc.devRef .tc main_c_1) = constantI S1 1 1#1 := by
  unfold WR1
  simp only [Hand.opsP0a, Hand.opsP0b, List.cons_append, List.nil_append, List.append_nil]
  read_line

theorem WR1_valid (V : Valuation τ sig (Elt Ideal)) :
    WR1 V (Proc.devRef .tc main_v15) = refValid (V (Proc.devRef .tc main_arg0)) := by
  unfold WR1
  simp only [Hand.opsP0a, Hand.opsP0b, List.cons_append, List.nil_append, List.append_nil]
  read_line
  rfl

/-! A typed reference whose buffer has the value's type by computation carries contents unchanged. -/

section Casts
variable {Val : EltTy → Type}

theorem toBuf_v28 (h1 : main_v28.ty = ⟨S1200000, .i32⟩) (h2 h3) (v : (⟨S1200000, .i32⟩ : BufTy).Contents Val) :
    (TRef.of main_v28 h1 h2 h3 : TRef sig ⟨S1200000, .i32⟩).toBuf v = v := rfl
theorem ofBuf_v15 (h1 : main_v15.ty = ⟨S1200000, .i1⟩) (h2 h3) (v : (⟨S1200000, .i1⟩ : BufTy).Contents Val) :
    (TRef.of main_v15 h1 h2 h3 : TRef sig ⟨S1200000, .i1⟩).ofBuf v = v := rfl
theorem ofBuf_v27 (h1 : main_v27.ty = ⟨S1200000, .i32⟩) (h2 h3) (v : (⟨S1200000, .i32⟩ : BufTy).Contents Val) :
    (TRef.of main_v27 h1 h2 h3 : TRef sig ⟨S1200000, .i32⟩).ofBuf v = v := rfl
theorem ofBuf_c6 (h1 : main_c_6.ty = ⟨S_, .i32⟩) (h2 h3) (v : (⟨S_, .i32⟩ : BufTy).Contents Val) :
    (TRef.of main_c_6 h1 h2 h3 : TRef sig ⟨S_, .i32⟩).ofBuf v = v := rfl
theorem toBuf_c0v0 (h1 : main_call0_v0.ty = ⟨S_, .i32⟩) (h2 h3) (v : (⟨S_, .i32⟩ : BufTy).Contents Val) :
    (TRef.of main_call0_v0 h1 h2 h3 : TRef sig ⟨S_, .i32⟩).toBuf v = v := rfl
theorem ofBuf_c0v0 (h1 : main_call0_v0.ty = ⟨S_, .i32⟩) (h2 h3) (v : (⟨S_, .i32⟩ : BufTy).Contents Val) :
    (TRef.of main_call0_v0 h1 h2 h3 : TRef sig ⟨S_, .i32⟩).ofBuf v = v := rfl
theorem toBuf_c0v1 (h1 : main_call0_v1.ty = ⟨S1200000, .i32⟩) (h2 h3) (v : (⟨S1200000, .i32⟩ : BufTy).Contents Val) :
    (TRef.of main_call0_v1 h1 h2 h3 : TRef sig ⟨S1200000, .i32⟩).toBuf v = v := rfl
theorem ofBuf_c0v1 (h1 : main_call0_v1.ty = ⟨S1200000, .i32⟩) (h2 h3) (v : (⟨S1200000, .i32⟩ : BufTy).Contents Val) :
    (TRef.of main_call0_v1 h1 h2 h3 : TRef sig ⟨S1200000, .i32⟩).ofBuf v = v := rfl

end Casts

/-- The linearized index after @main's own operations. -/
theorem P0a_lin (V : Valuation τ sig (Elt Ideal)) :
    StableHlo.after Hand.opsP0a V (Proc.devRef .tc main_v27) = refLin (V (Proc.devRef .tc main_arg0)) := by
  simp only [Hand.opsP0a]
  read_line
  rfl

/-- The validity mask after @main's own operations. -/
theorem P0a_valid (V : Valuation τ sig (Elt Ideal)) :
    StableHlo.after Hand.opsP0a V (Proc.devRef .tc main_v15) = refValid (V (Proc.devRef .tc main_arg0)) := by
  simp only [Hand.opsP0a]
  read_line
  rfl

/-- The sentinel constant after @main's own operations. -/
theorem P0a_c6 (V : Valuation τ sig (Elt Ideal)) :
    StableHlo.after Hand.opsP0a V (Proc.devRef .tc main_c_6) = constantI S_ 32 41943040#32 := by
  simp only [Hand.opsP0a]
  read_line

theorem WR1_flat (V : Valuation τ sig (Elt Ideal)) :
    WR1 V (Proc.devRef .tc main_v28) = refFlat (V (Proc.devRef .tc main_arg0)) := by
  unfold WR1
  rw [Cert.Eval.after_append (nD := nD)]
  have h15 := P0a_valid V
  have h27 := P0a_lin V
  have h6 := P0a_c6 V
  generalize StableHlo.after Hand.opsP0a V = W at h15 h27 h6 ⊢
  simp only [Hand.opsP0b]
  read_line
  rw [h15, h27, h6]
  -- outermost first: each step removes one transport along a type equality that holds by computation
  rw [toBuf_v28, ofBuf_v15, ofBuf_v27, ofBuf_c0v1, toBuf_c0v1, ofBuf_c0v0, toBuf_c0v0, ofBuf_c6]
  rfl

/-- The flat ids as one function of the row. -/
theorem refFlat_rows (pts : Vec Ideal S1200000x4 .f32) :
    refFlat pts = fun j : S1200000.Idx =>
      Cert.Vox.rowId (pts (ix2 (j 0) (0 : Fin 4))) (pts (ix2 (j 0) (1 : Fin 4))) (pts (ix2 (j 0) (2 : Fin 4))) := by
  funext j
  obtain ⟨a, rfl⟩ : ∃ a : Fin 1200000, j = ix1 a := ⟨j 0, eq_ix1 j⟩
  exact refFlat_apply pts a

/-- The validity mask as one function of the row. -/
theorem refValid_rows (pts : Vec Ideal S1200000x4 .f32) :
    refValid pts = fun j : S1200000.Idx =>
      Cert.Vox.rowValid (pts (ix2 (j 0) (0 : Fin 4))) (pts (ix2 (j 0) (1 : Fin 4))) (pts (ix2 (j 0) (2 : Fin 4))) := by
  funext j
  obtain ⟨a, rfl⟩ : ∃ a : Fin 1200000, j = ix1 a := ⟨j 0, eq_ix1 j⟩
  exact refValid_apply pts a

end Cert.ReferenceIdeal.Vox

end
-- ==== Proof.BridgeDefs.lean ====
/-
  The two programs after their flat voxel ids exist. From there on they apply the same host operations (two stable
  sorts, running sums and maxima, scatters and gathers), except that the kernel's program takes a point to be in
  range when its sorted flat id differs from the out-of-range value, where the reference gathers its in-range mask.
-/
import proofs.«105800_j40716289966699_2_alg».proof.Proof.Gen.KernelIdeal.Launch
import proofs.«105800_j40716289966699_2_alg».proof.Proof.RefRunOpsP0
import proofs.«105800_j40716289966699_2_alg».proof.Proof.RefRunOpsP1
import proofs.«105800_j40716289966699_2_alg».proof.Proof.RefRunOpsP2
import proofs.«105800_j40716289966699_2_alg».proof.Proof.RefRunOpsP3
import proofs.«105800_j40716289966699_2_alg».proof.Proof.EvalLib

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

/-- The lines of the kernel's program after the reshape of its output to one axis. -/
abbrev kLines : List (List (HloOp Cert.KernelIdeal.τ Cert.KernelIdeal.sig (Elt F))) := [hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22]
/-- The reference's line after its flat ids and its in-range mask are computed. -/
abbrev rLine : List (HloOp Cert.ReferenceIdeal.τ Cert.ReferenceIdeal.sig (Elt F)) := Cert.ReferenceIdeal.Hand.opsP0c ++ Cert.ReferenceIdeal.Hand.opsP0d ++ Cert.ReferenceIdeal.Hand.opsP1a ++ Cert.ReferenceIdeal.Hand.opsP1b ++ Cert.ReferenceIdeal.Hand.opsP1c ++ Cert.ReferenceIdeal.Hand.opsP1d ++ Cert.ReferenceIdeal.Hand.opsP1e ++ Cert.ReferenceIdeal.Hand.opsP1f ++ Cert.ReferenceIdeal.Hand.opsP1g ++ Cert.ReferenceIdeal.Hand.opsP1h ++ Cert.ReferenceIdeal.Hand.opsP1i ++ Cert.ReferenceIdeal.Hand.opsP1j ++ Cert.ReferenceIdeal.Hand.opsP1k ++ Cert.ReferenceIdeal.Hand.opsP2a ++ Cert.ReferenceIdeal.Hand.opsP2b ++ Cert.ReferenceIdeal.Hand.opsP2c ++ Cert.ReferenceIdeal.Hand.opsP2d ++ Cert.ReferenceIdeal.Hand.opsP2e ++ Cert.ReferenceIdeal.Hand.opsP2f ++ Cert.ReferenceIdeal.Hand.opsP2g ++ Cert.ReferenceIdeal.Hand.opsP2h ++ Cert.ReferenceIdeal.Hand.opsP2i ++ Cert.ReferenceIdeal.Hand.opsP2j ++ Cert.ReferenceIdeal.Hand.opsP2k ++ Cert.ReferenceIdeal.Hand.opsP3a

end Cert.Bridge

end
-- ==== Proof.BridgeVoxels.lean ====
/-
  The voxels' points: the kernel's program and the reference compute it by the same operations from the points, the flat ids,
  the in-range mask and the constant mask of one entry; the one place where they differ — which sorted points count
  as in range — is bridged by the hypothesis that a flat id differs from the out-of-range value exactly where the
  mask holds. Both lines are read at the result's buffer and the two composed terms are then one.
-/
import proofs.«105800_j40716289966699_2_alg».proof.Proof.BridgeDefs

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 80000000 in
theorem tail_voxels
    (WK : Valuation Cert.KernelIdeal.τ Cert.KernelIdeal.sig (Elt F)) (WR : Valuation Cert.ReferenceIdeal.τ Cert.ReferenceIdeal.sig (Elt F))
    (pts : Vec F S1200000x4 .f32) (FL : IVec S1200000 32) (VL : IVec S1200000 1)
    (hk0 : WK (Proc.devRef .tc main_arg0) = pts) (hk1 : WK (Proc.devRef .tc main_v1) = FL)
    (hkc : WK (Proc.devRef .tc main_c) = constantI S1 1 1#1)
    (hr0 : WR (Proc.devRef .tc Cert.ReferenceIdeal.main_arg0) = pts) (hr1 : WR (Proc.devRef .tc Cert.ReferenceIdeal.main_v28) = FL)
    (hr2 : WR (Proc.devRef .tc Cert.ReferenceIdeal.main_v15) = VL) (hrc : WR (Proc.devRef .tc Cert.ReferenceIdeal.main_c_1) = constantI S1 1 1#1)
    (hsv : ∀ idx : IVec S1200000x1 32,
      cmpi .ne (Host.gather gather_S1200000_S1200000x1_S1200000_n_0_n_n_0_1_1 FL idx) (broadcastInDim S1200000 ![] bcast_S_S1200000 (constantI S_ 32 41943040#32))
        = Host.gather gather_S1200000_S1200000x1_S1200000_n_0_n_n_0_1_1 VL idx) :
    StableHlo.after (List.flatten kLines) WK (Proc.devRef .tc main_v80) = StableHlo.after rLine WR (Proc.devRef .tc Cert.ReferenceIdeal.main_v112) := by
  simp only [kLines, rLine, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, Cert.ReferenceIdeal.Hand.opsP0c, Cert.ReferenceIdeal.Hand.opsP0d, Cert.ReferenceIdeal.Hand.opsP1a, Cert.ReferenceIdeal.Hand.opsP1b, Cert.ReferenceIdeal.Hand.opsP1c, Cert.ReferenceIdeal.Hand.opsP1d, Cert.ReferenceIdeal.Hand.opsP1e, Cert.ReferenceIdeal.Hand.opsP1f, Cert.ReferenceIdeal.Hand.opsP1g, Cert.ReferenceIdeal.Hand.opsP1h, Cert.ReferenceIdeal.Hand.opsP1i, Cert.ReferenceIdeal.Hand.opsP1j, Cert.ReferenceIdeal.Hand.opsP1k, Cert.ReferenceIdeal.Hand.opsP2a, Cert.ReferenceIdeal.Hand.opsP2b, Cert.ReferenceIdeal.Hand.opsP2c, Cert.ReferenceIdeal.Hand.opsP2d, Cert.ReferenceIdeal.Hand.opsP2e, Cert.ReferenceIdeal.Hand.opsP2f, Cert.ReferenceIdeal.Hand.opsP2g, Cert.ReferenceIdeal.Hand.opsP2h, Cert.ReferenceIdeal.Hand.opsP2i, Cert.ReferenceIdeal.Hand.opsP2j, Cert.ReferenceIdeal.Hand.opsP2k, Cert.ReferenceIdeal.Hand.opsP3a, List.flatten_cons, List.flatten_nil, List.append_nil, List.cons_append, List.nil_append]
  read_line
  simp only [hk0, hk1, hkc, hr0, hr1, hr2, hrc, hsv]

  rfl

end Cert.Bridge

end
-- ==== Proof.BridgeJoin.lean ====
/-
  The one join of three arrays in each program (the voxels' z, y and x coordinates set side by side as the columns
  of one array): read at its own buffer, the operation's result is the join of the contents of its three operand
  buffers.
-/
import proofs.«105800_j40716289966699_2_alg».proof.Proof.BridgeDefs

noncomputable section

namespace Cert.Bridge

open Idealize.ShloMosaic Idealize.ShloMosaic.TcCoe Idealize.SL.Sem Idealize.ShloMosaic.StableHlo

variable {F : FTy → Type} [FloatOps F]

open Cert.KernelIdeal Cert.KernelIdeal.Gen in
/-- The kernel's program: the three coordinate columns joined. -/
theorem cat_kernel (V : Valuation Cert.KernelIdeal.τ Cert.KernelIdeal.sig (Elt F)) :
    ((StableHlo.nary ![main_v100, main_v101, main_v102] main_v103 (fun u => concatenate S1200000x3 1 [⟨S1200000x1, u 0⟩, ⟨S1200000x1, u 1⟩, ⟨S1200000x1, u 2⟩] concatenates_S1200000x1_S1200000x1_S1200000x1_S1200000x3_d1) : HloOp Cert.KernelIdeal.τ Cert.KernelIdeal.sig (Elt F))).result V (no_index (Proc.devRef .tc main_v103))
      = Cert.Eval.join3 S1200000x3 1 S1200000x1 S1200000x1 S1200000x1 (V (Proc.devRef .tc main_v100)) (V (Proc.devRef .tc main_v101)) (V (Proc.devRef .tc main_v102))
          concatenates_S1200000x1_S1200000x1_S1200000x1_S1200000x3_d1 := by
  rw [StableHlo.nary_result]; rfl

open Cert.ReferenceIdeal Cert.ReferenceIdeal.Gen in
/-- The reference: the same join. -/
theorem cat_reference (V : Valuation Cert.ReferenceIdeal.τ Cert.ReferenceIdeal.sig (Elt F)) :
    ((StableHlo.nary ![main_v132, main_v133, main_v134] main_v135 (fun u => concatenate S1200000x3 1 [⟨S1200000x1, u 0⟩, ⟨S1200000x1, u 1⟩, ⟨S1200000x1, u 2⟩] concatenates_S1200000x1_S1200000x1_S1200000x1_S1200000x3_d1) : HloOp Cert.ReferenceIdeal.τ Cert.ReferenceIdeal.sig (Elt F))).result V (no_index (Proc.devRef .tc main_v135))
      = Cert.Eval.join3 S1200000x3 1 S1200000x1 S1200000x1 S1200000x1 (V (Proc.devRef .tc main_v132)) (V (Proc.devRef .tc main_v133)) (V (Proc.devRef .tc main_v134))
          concatenates_S1200000x1_S1200000x1_S1200000x1_S1200000x3_d1 := by
  rw [StableHlo.nary_result]; rfl

/-- Reads both programs' lines at a buffer: the reading of a literal line, with the two joins of three above. -/
macro "read_lines" : tactic =>
  `(tactic| (simp (disch := decide) only [after_cons, after_nil,
      nullary_result', unary_result', binary_result', ternary_result', quaternary_result', reshape_result',
      Cert.Bridge.cat_kernel, Cert.Bridge.cat_reference,
      unaryIndexed_result', binaryIndexed_result',
      nullary_result_ne', unary_result_ne', binary_result_ne', ternary_result_ne', quaternary_result_ne', reshape_result_ne',
      nary_result_ne', unaryIndexed_result_ne', binaryIndexed_result_ne',
      Cert.Eval.join2_fold, Cert.Eval.join3_fold,
      Matrix.cons_val_zero, Matrix.cons_val_one, Matrix.cons_val_two, Matrix.head_cons, Matrix.tail_cons]))

end Cert.Bridge

end
-- ==== Proof.BridgeCoords.lean ====
/-
  The voxels' grid coordinates: the kernel's program and the reference compute it by the same operations from the points, the flat ids,
  the in-range mask and the constant mask of one entry; the one place where they differ — which sorted points count
  as in range — is bridged by the hypothesis that a flat id differs from the out-of-range value exactly where the
  mask holds. Both lines are read at the result's buffer and the two composed terms are then one.
-/
import proofs.«105800_j40716289966699_2_alg».proof.Proof.BridgeJoin

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 80000000 in
theorem tail_coords
    (WK : Valuation Cert.KernelIdeal.τ Cert.KernelIdeal.sig (Elt F)) (WR : Valuation Cert.ReferenceIdeal.τ Cert.ReferenceIdeal.sig (Elt F))
    (pts : Vec F S1200000x4 .f32) (FL : IVec S1200000 32) (VL : IVec S1200000 1)
    (hk0 : WK (Proc.devRef .tc main_arg0) = pts) (hk1 : WK (Proc.devRef .tc main_v1) = FL)
    (hkc : WK (Proc.devRef .tc main_c) = constantI S1 1 1#1)
    (hr0 : WR (Proc.devRef .tc Cert.ReferenceIdeal.main_arg0) = pts) (hr1 : WR (Proc.devRef .tc Cert.ReferenceIdeal.main_v28) = FL)
    (hr2 : WR (Proc.devRef .tc Cert.ReferenceIdeal.main_v15) = VL) (hrc : WR (Proc.devRef .tc Cert.ReferenceIdeal.main_c_1) = constantI S1 1 1#1)
    (hsv : ∀ idx : IVec S1200000x1 32,
      cmpi .ne (Host.gather gather_S1200000_S1200000x1_S1200000_n_0_n_n_0_1_1 FL idx) (broadcastInDim S1200000 ![] bcast_S_S1200000 (constantI S_ 32 41943040#32))
        = Host.gather gather_S1200000_S1200000x1_S1200000_n_0_n_n_0_1_1 VL idx) :
    StableHlo.after (List.flatten kLines) WK (Proc.devRef .tc main_v110) = StableHlo.after rLine WR (Proc.devRef .tc Cert.ReferenceIdeal.main_v142) := by
  simp only [kLines, rLine, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, Cert.ReferenceIdeal.Hand.opsP0c, Cert.ReferenceIdeal.Hand.opsP0d, Cert.ReferenceIdeal.Hand.opsP1a, Cert.ReferenceIdeal.Hand.opsP1b, Cert.ReferenceIdeal.Hand.opsP1c, Cert.ReferenceIdeal.Hand.opsP1d, Cert.ReferenceIdeal.Hand.opsP1e, Cert.ReferenceIdeal.Hand.opsP1f, Cert.ReferenceIdeal.Hand.opsP1g, Cert.ReferenceIdeal.Hand.opsP1h, Cert.ReferenceIdeal.Hand.opsP1i, Cert.ReferenceIdeal.Hand.opsP1j, Cert.ReferenceIdeal.Hand.opsP1k, Cert.ReferenceIdeal.Hand.opsP2a, Cert.ReferenceIdeal.Hand.opsP2b, Cert.ReferenceIdeal.Hand.opsP2c, Cert.ReferenceIdeal.Hand.opsP2d, Cert.ReferenceIdeal.Hand.opsP2e, Cert.ReferenceIdeal.Hand.opsP2f, Cert.ReferenceIdeal.Hand.opsP2g, Cert.ReferenceIdeal.Hand.opsP2h, Cert.ReferenceIdeal.Hand.opsP2i, Cert.ReferenceIdeal.Hand.opsP2j, Cert.ReferenceIdeal.Hand.opsP2k, Cert.ReferenceIdeal.Hand.opsP3a, List.flatten_cons, List.flatten_nil, List.append_nil, List.cons_append, List.nil_append]
  read_lines
  simp only [hk0, hk1, hkc, hr0, hr1, hr2, hrc, hsv]

  rfl

end Cert.Bridge

end
-- ==== Proof.BridgePerVoxel.lean ====
/-
  The number of points kept in each voxel: the kernel's program and the reference compute it by the same operations from the points, the flat ids,
  the in-range mask and the constant mask of one entry; the one place where they differ — which sorted points count
  as in range — is bridged by the hypothesis that a flat id differs from the out-of-range value exactly where the
  mask holds. Both lines are read at the result's buffer and the two composed terms are then one.
-/
import proofs.«105800_j40716289966699_2_alg».proof.Proof.BridgeDefs

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 80000000 in
theorem tail_perVoxel
    (WK : Valuation Cert.KernelIdeal.τ Cert.KernelIdeal.sig (Elt F)) (WR : Valuation Cert.ReferenceIdeal.τ Cert.ReferenceIdeal.sig (Elt F))
    (pts : Vec F S1200000x4 .f32) (FL : IVec S1200000 32) (VL : IVec S1200000 1)
    (hk0 : WK (Proc.devRef .tc main_arg0) = pts) (hk1 : WK (Proc.devRef .tc main_v1) = FL)
    (hkc : WK (Proc.devRef .tc main_c) = constantI S1 1 1#1)
    (hr0 : WR (Proc.devRef .tc Cert.ReferenceIdeal.main_arg0) = pts) (hr1 : WR (Proc.devRef .tc Cert.ReferenceIdeal.main_v28) = FL)
    (hr2 : WR (Proc.devRef .tc Cert.ReferenceIdeal.main_v15) = VL) (hrc : WR (Proc.devRef .tc Cert.ReferenceIdeal.main_c_1) = constantI S1 1 1#1)
    (hsv : ∀ idx : IVec S1200000x1 32,
      cmpi .ne (Host.gather gather_S1200000_S1200000x1_S1200000_n_0_n_n_0_1_1 FL idx) (broadcastInDim S1200000 ![] bcast_S_S1200000 (constantI S_ 32 41943040#32))
        = Host.gather gather_S1200000_S1200000x1_S1200000_n_0_n_n_0_1_1 VL idx) :
    StableHlo.after (List.flatten kLines) WK (Proc.devRef .tc main_v91) = StableHlo.after rLine WR (Proc.devRef .tc Cert.ReferenceIdeal.main_v123) := by
  simp only [kLines, rLine, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, Cert.ReferenceIdeal.Hand.opsP0c, Cert.ReferenceIdeal.Hand.opsP0d, Cert.ReferenceIdeal.Hand.opsP1a, Cert.ReferenceIdeal.Hand.opsP1b, Cert.ReferenceIdeal.Hand.opsP1c, Cert.ReferenceIdeal.Hand.opsP1d, Cert.ReferenceIdeal.Hand.opsP1e, Cert.ReferenceIdeal.Hand.opsP1f, Cert.ReferenceIdeal.Hand.opsP1g, Cert.ReferenceIdeal.Hand.opsP1h, Cert.ReferenceIdeal.Hand.opsP1i, Cert.ReferenceIdeal.Hand.opsP1j, Cert.ReferenceIdeal.Hand.opsP1k, Cert.ReferenceIdeal.Hand.opsP2a, Cert.ReferenceIdeal.Hand.opsP2b, Cert.ReferenceIdeal.Hand.opsP2c, Cert.ReferenceIdeal.Hand.opsP2d, Cert.ReferenceIdeal.Hand.opsP2e, Cert.ReferenceIdeal.Hand.opsP2f, Cert.ReferenceIdeal.Hand.opsP2g, Cert.ReferenceIdeal.Hand.opsP2h, Cert.ReferenceIdeal.Hand.opsP2i, Cert.ReferenceIdeal.Hand.opsP2j, Cert.ReferenceIdeal.Hand.opsP2k, Cert.ReferenceIdeal.Hand.opsP3a, List.flatten_cons, List.flatten_nil, List.append_nil, List.cons_append, List.nil_append]
  read_line
  simp only [hk0, hk1, hkc, hr0, hr1, hr2, hrc, hsv]

  rfl

end Cert.Bridge

end
-- ==== Proof.BridgeCount.lean ====
/-
  The number of voxels: the kernel's program and the reference compute it by the same operations from the points, the flat ids,
  the in-range mask and the constant mask of one entry; the one place where they differ — which sorted points count
  as in range — is bridged by the hypothesis that a flat id differs from the out-of-range value exactly where the
  mask holds. Both lines are read at the result's buffer and the two composed terms are then one.
-/
import proofs.«105800_j40716289966699_2_alg».proof.Proof.BridgeDefs

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 80000000 in
theorem tail_count
    (WK : Valuation Cert.KernelIdeal.τ Cert.KernelIdeal.sig (Elt F)) (WR : Valuation Cert.ReferenceIdeal.τ Cert.ReferenceIdeal.sig (Elt F))
    (pts : Vec F S1200000x4 .f32) (FL : IVec S1200000 32) (VL : IVec S1200000 1)
    (hk0 : WK (Proc.devRef .tc main_arg0) = pts) (hk1 : WK (Proc.devRef .tc main_v1) = FL)
    (hkc : WK (Proc.devRef .tc main_c) = constantI S1 1 1#1)
    (hr0 : WR (Proc.devRef .tc Cert.ReferenceIdeal.main_arg0) = pts) (hr1 : WR (Proc.devRef .tc Cert.ReferenceIdeal.main_v28) = FL)
    (hr2 : WR (Proc.devRef .tc Cert.ReferenceIdeal.main_v15) = VL) (hrc : WR (Proc.devRef .tc Cert.ReferenceIdeal.main_c_1) = constantI S1 1 1#1)
    (hsv : ∀ idx : IVec S1200000x1 32,
      cmpi .ne (Host.gather gather_S1200000_S1200000x1_S1200000_n_0_n_n_0_1_1 FL idx) (broadcastInDim S1200000 ![] bcast_S_S1200000 (constantI S_ 32 41943040#32))
        = Host.gather gather_S1200000_S1200000x1_S1200000_n_0_n_n_0_1_1 VL idx) :
    StableHlo.after (List.flatten kLines) WK (Proc.devRef .tc main_v113) = StableHlo.after rLine WR (Proc.devRef .tc Cert.ReferenceIdeal.main_v145) := by
  simp only [kLines, rLine, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, Cert.ReferenceIdeal.Hand.opsP0c, Cert.ReferenceIdeal.Hand.opsP0d, Cert.ReferenceIdeal.Hand.opsP1a, Cert.ReferenceIdeal.Hand.opsP1b, Cert.ReferenceIdeal.Hand.opsP1c, Cert.ReferenceIdeal.Hand.opsP1d, Cert.ReferenceIdeal.Hand.opsP1e, Cert.ReferenceIdeal.Hand.opsP1f, Cert.ReferenceIdeal.Hand.opsP1g, Cert.ReferenceIdeal.Hand.opsP1h, Cert.ReferenceIdeal.Hand.opsP1i, Cert.ReferenceIdeal.Hand.opsP1j, Cert.ReferenceIdeal.Hand.opsP1k, Cert.ReferenceIdeal.Hand.opsP2a, Cert.ReferenceIdeal.Hand.opsP2b, Cert.ReferenceIdeal.Hand.opsP2c, Cert.ReferenceIdeal.Hand.opsP2d, Cert.ReferenceIdeal.Hand.opsP2e, Cert.ReferenceIdeal.Hand.opsP2f, Cert.ReferenceIdeal.Hand.opsP2g, Cert.ReferenceIdeal.Hand.opsP2h, Cert.ReferenceIdeal.Hand.opsP2i, Cert.ReferenceIdeal.Hand.opsP2j, Cert.ReferenceIdeal.Hand.opsP2k, Cert.ReferenceIdeal.Hand.opsP3a, List.flatten_cons, List.flatten_nil, List.append_nil, List.cons_append, List.nil_append]
  read_line
  simp only [hk0, hk1, hkc, hr0, hr1, hr2, hrc, hsv]

  rfl

end Cert.Bridge

end
-- ==== Proof.Assemble.lean ====
import proofs.«105800_j40716289966699_2_alg».proof.Defs
import proofs.«105800_j40716289966699_2_alg».proof.Proof.Gen.KernelIdeal
import proofs.«105800_j40716289966699_2_alg».proof.Proof.Gen.ReferenceIdeal
import proofs.«105800_j40716289966699_2_alg».proof.Proof.Gen.Pre_finite_inputs
import proofs.«105800_j40716289966699_2_alg».proof.Proof.KResults
import proofs.«105800_j40716289966699_2_alg».proof.Proof.KPayload
import proofs.«105800_j40716289966699_2_alg».proof.Proof.Svalid
import proofs.«105800_j40716289966699_2_alg».proof.Proof.RGlue
import proofs.«105800_j40716289966699_2_alg».proof.Proof.BridgeVoxels
import proofs.«105800_j40716289966699_2_alg».proof.Proof.BridgeCoords
import proofs.«105800_j40716289966699_2_alg».proof.Proof.BridgePerVoxel
import proofs.«105800_j40716289966699_2_alg».proof.Proof.BridgeCount
import proofs.«105800_j40716289966699_2_alg».proof.Proof.RefRun
import proofs.«105800_j40716289966699_2_alg».proof.Proof.EvalLib

noncomputable section

namespace Cert.Assemble

open Idealize.ShloMosaic Idealize.ShloMosaic.TcCoe Idealize.SL.Sem
open Idealize.ShloMosaic.ValueIdx

/-! ## The two programs' results are equal

The kernel's program and the reference compute their flat voxel ids differently (the kernel in its grid of 300 blocks,
the reference by host operations) and then apply the same host operations to them. Both runs' results are folds of
host operations; here the two folds are read from the point where both programs hold the same flat ids, and joined
with the four comparisons of the operations after that point. -/

/-- The two spellings of the kernel program's lines after its reshape are one list. -/
theorem kLines_eq : Cert.KernelIdeal.Vox.kLines = Cert.Bridge.kLines (F := Ideal) := rfl

/-- The reference's operations are its first 40 followed by the line the comparisons read. -/
theorem ops_split : (Cert.ReferenceIdeal.Hand.ops (F := Ideal))
    = (Cert.ReferenceIdeal.Hand.opsP0a ++ Cert.ReferenceIdeal.Hand.opsP0b) ++ Cert.Bridge.rLine := by
  simp only [Cert.ReferenceIdeal.Hand.ops, Cert.ReferenceIdeal.Hand.opsP0, Cert.ReferenceIdeal.Hand.opsP1,
    Cert.ReferenceIdeal.Hand.opsP2, Cert.ReferenceIdeal.Hand.opsP3, Cert.Bridge.rLine, List.append_assoc]

/-- Each result of the reference, as the fold of its operations over a launch memory that agrees with the kernel's on
    the points, is the kernel program's: the fold of its lines after the reshape over the contents `WK1`. -/
theorem ref_result (OPS : List (HloOp Cert.ReferenceIdeal.τ Cert.ReferenceIdeal.sig (Elt Ideal)))
    (hOPS : OPS = (Cert.ReferenceIdeal.Hand.opsP0a ++ Cert.ReferenceIdeal.Hand.opsP0b) ++ Cert.Bridge.rLine)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (c : Dev Cert.KernelIdeal.nD) :
    StableHlo.after OPS (fun b' => m' (c, b')) (Proc.devRef .tc Cert.ReferenceIdeal.main_v112) = StableHlo.after (List.flatten Cert.KernelIdeal.Vox.kLines) (Cert.KernelIdeal.Vox.WK1 m c) (Proc.devRef .tc Cert.KernelIdeal.main_v80)
    ∧ StableHlo.after OPS (fun b' => m' (c, b')) (Proc.devRef .tc Cert.ReferenceIdeal.main_v142) = StableHlo.after (List.flatten Cert.KernelIdeal.Vox.kLines) (Cert.KernelIdeal.Vox.WK1 m c) (Proc.devRef .tc Cert.KernelIdeal.main_v110)
    ∧ StableHlo.after OPS (fun b' => m' (c, b')) (Proc.devRef .tc Cert.ReferenceIdeal.main_v123) = StableHlo.after (List.flatten Cert.KernelIdeal.Vox.kLines) (Cert.KernelIdeal.Vox.WK1 m c) (Proc.devRef .tc Cert.KernelIdeal.main_v91)
    ∧ StableHlo.after OPS (fun b' => m' (c, b')) (Proc.devRef .tc Cert.ReferenceIdeal.main_v145) = StableHlo.after (List.flatten Cert.KernelIdeal.Vox.kLines) (Cert.KernelIdeal.Vox.WK1 m c) (Proc.devRef .tc Cert.KernelIdeal.main_v113) := by
  subst hOPS
  have split : ∀ b, StableHlo.after ((Cert.ReferenceIdeal.Hand.opsP0a ++ Cert.ReferenceIdeal.Hand.opsP0b) ++ Cert.Bridge.rLine) (fun b' => m' (c, b')) b
      = StableHlo.after Cert.Bridge.rLine (Cert.ReferenceIdeal.Vox.WR1 (fun b' => m' (c, b'))) b :=
    fun b => congrFun (Cert.Eval.after_append (nD := Cert.ReferenceIdeal.nD) _ _ _) b
  have hk0 : Cert.KernelIdeal.Vox.WK1 m c (Proc.devRef .tc Cert.KernelIdeal.main_arg0) = m ((c.tc : Thread Cert.KernelIdeal.nD Cert.KernelIdeal.τ).loc Cert.KernelIdeal.main_arg0) :=
    Cert.KernelIdeal.Vox.WK1_arg0 m c
  have hk1 : Cert.KernelIdeal.Vox.WK1 m c (Proc.devRef .tc Cert.KernelIdeal.main_v1) = Cert.ReferenceIdeal.Vox.refFlat (m ((c.tc : Thread Cert.KernelIdeal.nD Cert.KernelIdeal.τ).loc Cert.KernelIdeal.main_arg0)) :=
    (Cert.KernelIdeal.Vox.WK1_v1_of m Cert.Vox.rowId Cert.KernelIdeal.Vox.blockId_apply c).trans (Cert.ReferenceIdeal.Vox.refFlat_rows _).symm
  have hkc := Cert.KernelIdeal.Vox.WK1_c m c
  have hr0 : Cert.ReferenceIdeal.Vox.WR1 (fun b' => m' (c, b')) (Proc.devRef .tc Cert.ReferenceIdeal.main_arg0) = m ((c.tc : Thread Cert.KernelIdeal.nD Cert.KernelIdeal.τ).loc Cert.KernelIdeal.main_arg0) :=
    (Cert.ReferenceIdeal.Vox.WR1_arg0 _).trans (hagree c)
  have hr1 : Cert.ReferenceIdeal.Vox.WR1 (fun b' => m' (c, b')) (Proc.devRef .tc Cert.ReferenceIdeal.main_v28) = Cert.ReferenceIdeal.Vox.refFlat (m ((c.tc : Thread Cert.KernelIdeal.nD Cert.KernelIdeal.τ).loc Cert.KernelIdeal.main_arg0)) :=
    (Cert.ReferenceIdeal.Vox.WR1_flat _).trans (congrArg Cert.ReferenceIdeal.Vox.refFlat (hagree c))
  have hr2 : Cert.ReferenceIdeal.Vox.WR1 (fun b' => m' (c, b')) (Proc.devRef .tc Cert.ReferenceIdeal.main_v15) = Cert.ReferenceIdeal.Vox.refValid (m ((c.tc : Thread Cert.KernelIdeal.nD Cert.KernelIdeal.τ).loc Cert.KernelIdeal.main_arg0)) :=
    (Cert.ReferenceIdeal.Vox.WR1_valid _).trans (congrArg Cert.ReferenceIdeal.Vox.refValid (hagree c))
  have hrc := Cert.ReferenceIdeal.Vox.WR1_c1 (fun b' => m' (c, b'))
  have hsv := Cert.ReferenceIdeal.Vox.svalid_eq (m ((c.tc : Thread Cert.KernelIdeal.nD Cert.KernelIdeal.τ).loc Cert.KernelIdeal.main_arg0))
  rw [kLines_eq]
  exact ⟨(split _).trans (Cert.Bridge.tail_voxels _ _ _ _ _ hk0 hk1 hkc hr0 hr1 hr2 hrc hsv).symm,
    (split _).trans (Cert.Bridge.tail_coords _ _ _ _ _ hk0 hk1 hkc hr0 hr1 hr2 hrc hsv).symm,
    (split _).trans (Cert.Bridge.tail_perVoxel _ _ _ _ _ hk0 hk1 hkc hr0 hr1 hr2 hrc hsv).symm,
    (split _).trans (Cert.Bridge.tail_count _ _ _ _ _ hk0 hk1 hkc hr0 hr1 hr2 hrc hsv).symm⟩

/-- The two programs, from memories that agree on the points, both run and end with equal results and unchanged
    points — given the reference's run as a fold of the operations `OPS`. -/
theorem algebraic_of (OPS : List (HloOp Cert.ReferenceIdeal.τ Cert.ReferenceIdeal.sig (Elt Ideal)))
    (hOPS : OPS = (Cert.ReferenceIdeal.Hand.opsP0a ++ Cert.ReferenceIdeal.Hand.opsP0b) ++ Cert.Bridge.rLine)
    (hkept : ∀ V : Valuation Cert.ReferenceIdeal.τ Cert.ReferenceIdeal.sig (Elt Ideal), StableHlo.after OPS V (Proc.devRef .tc Cert.ReferenceIdeal.main_arg0) = V (Proc.devRef .tc Cert.ReferenceIdeal.main_arg0))
    (hrun : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ (c : Dev Cert.ReferenceIdeal.nD) (b : Ref Cert.ReferenceIdeal.sig .tc),
          r.2.mem ((c.tc : Thread Cert.ReferenceIdeal.nD Cert.ReferenceIdeal.τ).loc b) = StableHlo.after OPS (fun b' => m' (c, b')) (Proc.devRef .tc b))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨fun c => StableHlo.after (List.flatten Cert.KernelIdeal.Vox.kLines) (Cert.KernelIdeal.Vox.WK1 m c) (Proc.devRef .tc Cert.KernelIdeal.main_v80),
    fun c => StableHlo.after (List.flatten Cert.KernelIdeal.Vox.kLines) (Cert.KernelIdeal.Vox.WK1 m c) (Proc.devRef .tc Cert.KernelIdeal.main_v110),
    fun c => StableHlo.after (List.flatten Cert.KernelIdeal.Vox.kLines) (Cert.KernelIdeal.Vox.WK1 m c) (Proc.devRef .tc Cert.KernelIdeal.main_v91),
    fun c => StableHlo.after (List.flatten Cert.KernelIdeal.Vox.kLines) (Cert.KernelIdeal.Vox.WK1 m c) (Proc.devRef .tc Cert.KernelIdeal.main_v113),
    Cert.KernelIdeal.Vox.run_results m g, ?_⟩
  refine (θ_run _ _ _).mono (fun r h c => ?_) (hrun m' g')
  obtain ⟨e0, e1, e2, e3⟩ := ref_result OPS hOPS m m' hagree c
  exact ⟨(h c _).trans e0, (h c _).trans e1, (h c _).trans e2, (h c _).trans e3, (h c Cert.ReferenceIdeal.main_arg0).trans (hkept _)⟩

/-- The claim: the idealized kernel and the idealized reference end with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  algebraic_of _ ops_split Cert.ReferenceIdeal.Hand.kept_arg0 (fun m' ρ' => Cert.ReferenceIdeal.Hand.run (F := Ideal) m' ρ')

end Cert.Assemble

end
-- ==== Proof.lean ====
/-
  The certificate of the voxel layer: a Pallas kernel that gives every input point its flat voxel id (or the
  out-of-range value), followed by host operations that sort the points by id, number the voxels by first occurrence
  and scatter the first points of each voxel into the outputs — against the same computation written in jnp.

  The frames. The kernel's program is one host constant, one pipelined region over 300 blocks of 4000 points, and 242
  host operations; it runs to the end by the library's launch theorem for a region continued by host lines, the body's
  one store covering the output block (both instances: Proof/KFrame.lean at the word level, Proof/KIFrame.lean over
  the extended reals). The reference is host operations only (Proof/RefRun.lean).

  The values, over the extended reals. Row by row both programs compute the same cell coordinates
  cx, cy, cz = trunc (floor ((coordinate − origin) / cell size)) with the same literals, the same in-range mask
  0 ≤ cx < 1024 ∧ 0 ≤ cy < 1024 ∧ 0 ≤ cz < 40 and the same id (cx·1024 + cy)·40 + cz or 41943040
  (Proof/VoxSpec.lean; the kernel's block at a row in Proof/KPayload.lean and, block by block over the grid, the whole
  output array in Proof/KFinal.lean; the reference's array in Proof/RefHead.lean). After that the two programs apply
  the same operations, except that the reference gathers its in-range mask through the sorting permutation while the
  kernel's program compares the gathered id with 41943040: an in-range id is at most 41943039 and the arithmetic does
  not wrap, so the two masks are one (Proof/Svalid.lean). Each of the four results is then one function of the points
  on both sides (Proof/Bridge*.lean), and the two runs end with equal results (Proof/Assemble.lean).
-/
import proofs.«105800_j40716289966699_2_alg».proof.Defs
import proofs.«105800_j40716289966699_2_alg».proof.Proof.Gen.Kernel
import proofs.«105800_j40716289966699_2_alg».proof.Proof.Gen.KernelIdeal
import proofs.«105800_j40716289966699_2_alg».proof.Proof.Gen.ReferenceIdeal
import proofs.«105800_j40716289966699_2_alg».proof.Proof.Gen.Pre_finite_inputs
import proofs.«105800_j40716289966699_2_alg».proof.Proof.KFrame
import proofs.«105800_j40716289966699_2_alg».proof.Proof.KIFrame
import proofs.«105800_j40716289966699_2_alg».proof.Proof.RefRun
import proofs.«105800_j40716289966699_2_alg».proof.Proof.Assemble
import Idealize.ShloMosaic.Adequacy
import Idealize.ShloMosaic.Init

noncomputable section

namespace Cert.Proof

open Idealize.ShloMosaic Idealize.SL.Sem

/-- The word-level program runs to the end and leaves the points as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- The claim: the three frames, the idealization (the program's own text read over the extended reals: nothing to
    show), and the equality of the two programs' results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Assemble.algebraic⟩

end Cert.Proof

end
